-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x262144 : Shape := ⟨2, ![2, 262144]⟩
abbrev S262144 : Shape := ⟨1, ![262144]⟩
abbrev S256x512 : Shape := ⟨2, ![256, 512]⟩
abbrev S_ : Shape := ⟨0, ![]⟩
abbrev S1x262144 : Shape := ⟨2, ![1, 262144]⟩
abbrev S8192x8192 : Shape := ⟨2, ![8192, 8192]⟩
abbrev S262144x1 : Shape := ⟨2, ![262144, 1]⟩
abbrev S262144x2 : Shape := ⟨2, ![262144, 2]⟩
abbrev S8192 : Shape := ⟨1, ![8192]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S262144 : S_.BroadcastsInDim S262144 (![] : Fin 0 → Fin S262144.rank)
  reducesTo_S262144_S_d0 : S262144.ReducesTo [0] S_
  bcast_S_S256x512 : S_.BroadcastsInDim S256x512 (![] : Fin 0 → Fin S256x512.rank)
  reducesTo_S256x512_S_d0_1 : S256x512.ReducesTo [0, 1] S_
  bcast_S_S2x262144 : S_.BroadcastsInDim S2x262144 (![] : Fin 0 → Fin S2x262144.rank)
  reducesTo_S2x262144_S_d0_1 : S2x262144.ReducesTo [0, 1] S_
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x8192 : S_.BroadcastsInDim S8192x8192 (![] : Fin 0 → Fin S8192x8192.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  scatter_S8192x8192_S262144x2_S262144_n_01_01_1_wf : ScatterDims.WF S8192x8192 S262144x2 S262144 [] [0, 1] [0, 1] 1

variable [Facts]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def fn_part2 {F : FTy → Type} [FloatOps F] (main_arg2 : FVec F S262144 .f32) (main_v21 : IVec S_ 1) (main_v25 : IVec S262144 32) (main_v26 : FVec F S8192x8192 .f32) (main_v31 : IVec S262144 32) (main_v33 : IVec S262144 1) : IVec S_ 1 :=
  let main_c_12 : IVec S_ 32 := constantI S_ 32 8192#32
  let main_v34 : IVec S262144 32 := broadcastInDim S262144 ![] bcast_S_S262144 main_c_12
  let main_v35 : IVec S262144 32 := addi main_v25 main_v34
  let main_v36 : IVec S262144 32 := select main_v33 main_v35 main_v25
  let main_v37 : IVec S262144x1 32 := broadcastInDim S262144x1 ![0] bcast_S262144_S262144x1_0 main_v31
  let main_v38 : IVec S262144x1 32 := broadcastInDim S262144x1 ![0] bcast_S262144_S262144x1_0 main_v36
  let main_v39 : IVec S262144x2 32 := (fun a b => concatenate S262144x2 1 [⟨S262144x1, a⟩, ⟨S262144x1, b⟩] concatenates_S262144x1_S262144x1_S262144x2_d1) main_v37 main_v38
  let main_v40 : FVec F S8192x8192 .f32 := (fun x i u => Host.scatterAdd scatter_S8192x8192_S262144x2_S262144_n_01_01_1 x i u) main_v26 main_v39 main_arg2
  let main_cst_13 : FVec F S_ .f32 := constant S_ .f32 0x00000000#32
  let main_v41 : FVec F S8192 .f32 := (fun x v => Host.reduceAdd x v reducesTo_S8192x8192_S8192_d1 h_S_) main_v40 main_cst_13
  let main_cst_14 : FVec F S_ .f32 := constant S_ .f32 0x3F800000#32
  let main_v42 : FVec F S8192 .f32 := broadcastInDim S8192 ![] bcast_S_S8192 main_cst_14
  let main_v43 : FVec F S8192 .f32 := addf main_v41 main_v42
  let main_cst_15 : FVec F S_ .f32 := constant S_ .f32 0x00000000#32
  let main_v44 : FVec F S8192 .f32 := broadcastInDim S8192 ![] bcast_S_S8192 main_cst_15
  let main_v45 : IVec S8192 1 := cmpf .ogt main_v43 main_v44
  let main_c_16 : IVec S_ 1 := constantI S_ 1 1#1
  let main_v46 : IVec S_ 1 := (fun x v => Host.reduce IntOp.andi x v reducesTo_S8192_S_d0 h_S_) main_v45 main_c_16
  let main_v47 : IVec S_ 1 := andi main_v21 main_v46
  main_v47

def fn_part1 {F : FTy → Type} [FloatOps F] (main_arg1 : IVec S2x262144 32) (main_arg2 : FVec F S262144 .f32) (main_v13 : IVec S_ 1) (main_v15 : IVec S2x262144 1) (main_c_5 : IVec S_ 1) : IVec S_ 1 :=
  let main_v16 : IVec S_ 1 := (fun x v => Host.reduce IntOp.andi x v reducesTo_S2x262144_S_d0_1 h_S_) main_v15 main_c_5
  let main_v17 : IVec S_ 1 := andi main_v13 main_v16
  let main_c_6 : IVec S_ 32 := constantI S_ 32 8192#32
  let main_v18 : IVec S2x262144 32 := broadcastInDim S2x262144 ![] bcast_S_S2x262144 main_c_6
  let main_v19 : IVec S2x262144 1 := cmpi .slt main_arg1 main_v18
  let main_c_7 : IVec S_ 1 := constantI S_ 1 1#1
  let main_v20 : IVec S_ 1 := (fun x v => Host.reduce IntOp.andi x v reducesTo_S2x262144_S_d0_1 h_S_) main_v19 main_c_7
  let main_v21 : IVec S_ 1 := andi main_v17 main_v20
  let main_v22 : IVec S1x262144 32 := (extractStridedSlice S1x262144 ![0, 0] · slices_S2x262144_S1x262144_0_0) main_arg1
  let main_v23 : IVec S262144 32 := shapeCast S262144 main_v22 shapeCasts_S1x262144_S262144
  let main_v24 : IVec S1x262144 32 := (extractStridedSlice S1x262144 ![1, 0] · slices_S2x262144_S1x262144_1_0) main_arg1
  let main_v25 : IVec S262144 32 := shapeCast S262144 main_v24 shapeCasts_S1x262144_S262144
  let main_cst_8 : FVec F S_ .f32 := constant S_ .f32 0x00000000#32
  let main_v26 : FVec F S8192x8192 .f32 := broadcastInDim S8192x8192 ![] bcast_S_S8192x8192 main_cst_8
  let main_c_9 : IVec S_ 32 := constantI S_ 32 0#32
  let main_v27 : IVec S262144 32 := broadcastInDim S262144 ![] bcast_S_S262144 main_c_9
  let main_v28 : IVec S262144 1 := cmpi .slt main_v23 main_v27
  let main_c_10 : IVec S_ 32 := constantI S_ 32 8192#32
  let main_v29 : IVec S262144 32 := broadcastInDim S262144 ![] bcast_S_S262144 main_c_10
  let main_v30 : IVec S262144 32 := addi main_v23 main_v29
  let main_v31 : IVec S262144 32 := select main_v28 main_v30 main_v23
  let main_c_11 : IVec S_ 32 := constantI S_ 32 0#32
  let main_v32 : IVec S262144 32 := broadcastInDim S262144 ![] bcast_S_S262144 main_c_11
  let main_v33 : IVec S262144 1 := cmpi .slt main_v25 main_v32
  fn_part2 (F := F) main_arg2 main_v21 main_v25 main_v26 main_v31 main_v33

def fn {F : FTy → Type} [FloatOps F] (main_arg0 : FVec F S8192x512 .f32) (main_arg1 : IVec S2x262144 32) (main_arg2 : FVec F S262144 .f32) (main_arg3 : FVec F S256x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S256x512 .f32 := Host.absf main_arg3
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_c_4 : IVec S_ 32 := constantI S_ 32 0#32
  let main_v14 : IVec S2x262144 32 := broadcastInDim S2x262144 ![] bcast_S_S2x262144 main_c_4
  let main_v15 : IVec S2x262144 1 := cmpi .sge main_arg1 main_v14
  let main_c_5 : IVec S_ 1 := constantI S_ 1 1#1
  fn_part1 (F := F) main_arg1 main_arg2 main_v13 main_v15 main_c_5
-- ==== Kernel.lean ====
abbrev S8192x512 : Shape := ⟨2, ![8192, 512]⟩
abbrev S2x262144 : Shape := ⟨2, ![2, 262144]⟩
abbrev S262144 : Shape := ⟨1, ![262144]⟩
abbrev S256x512 : Shape := ⟨2, ![256, 512]⟩
abbrev S1x262144 : Shape := ⟨2, ![1, 262144]⟩
abbrev S_ : Shape := ⟨0, ![]⟩
abbrev S8192 : Shape := ⟨1, ![8192]⟩
abbrev S262144x1 : Shape := ⟨2, ![262144, 1]⟩
abbrev S8192x1 : Shape := ⟨2, ![8192, 1]⟩
abbrev S8192x8192 : Shape := ⟨2, ![8192, 8192]⟩
abbrev S262144x2 : Shape := ⟨2, ![262144, 2]⟩
abbrev S8192x256 : Shape := ⟨2, ![8192, 256]⟩
abbrev S1024x512 : Shape := ⟨2, ![1024, 512]⟩
abbrev S1024x1 : Shape := ⟨2, ![1024, 1]⟩
abbrev S1024x256 : Shape := ⟨2, ![1024, 256]⟩
abbrev S512x256 : Shape := ⟨2, ![512, 256]⟩
abbrev S1024x2048 : Shape := ⟨2, ![1024, 2048]⟩
abbrev S2048x256 : Shape := ⟨2, ![2048, 256]⟩

abbrev nBuf : Space → Nat
  | .hbm => 44
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S262144, .f32⟩
  | .hbm, ⟨3, _⟩ => ⟨S256x512, .f32⟩
  | .hbm, ⟨4, _⟩ => ⟨S1x262144, .i32⟩
  | .hbm, ⟨5, _⟩ => ⟨S262144, .i32⟩
  | .hbm, ⟨6, _⟩ => ⟨S1x262144, .i32⟩
  | .hbm, ⟨7, _⟩ => ⟨S262144, .i32⟩
  | .hbm, ⟨8, _⟩ => ⟨S_, .f32⟩
  | .hbm, ⟨9, _⟩ => ⟨S8192, .f32⟩
  | .hbm, ⟨10, _⟩ => ⟨S262144x1, .i32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x8192, .f32⟩
  | .hbm, ⟨22, _⟩ => ⟨S_, .i32⟩
  | .hbm, ⟨23, _⟩ => ⟨S262144, .i32⟩
  | .hbm, ⟨24, _⟩ => ⟨S262144, .i1⟩
  | .hbm, ⟨25, _⟩ => ⟨S_, .i32⟩
  | .hbm, ⟨26, _⟩ => ⟨S262144, .i32⟩
  | .hbm, ⟨27, _⟩ => ⟨S262144, .i32⟩
  | .hbm, ⟨28, _⟩ => ⟨S262144, .i32⟩
  | .hbm, ⟨29, _⟩ => ⟨S_, .i32⟩
  | .hbm, ⟨30, _⟩ => ⟨S262144, .i32⟩
  | .hbm, ⟨31, _⟩ => ⟨S262144, .i1⟩
  | .hbm, ⟨32, _⟩ => ⟨S_, .i32⟩
  | .hbm, ⟨33, _⟩ => ⟨S262144, .i32⟩
  | .hbm, ⟨34, _⟩ => ⟨S262144, .i32⟩
  | .hbm, ⟨35, _⟩ => ⟨S262144, .i32⟩
  | .hbm, ⟨36, _⟩ => ⟨S262144x1, .i32⟩
  | .hbm, ⟨37, _⟩ => ⟨S262144x1, .i32⟩
  | .hbm, ⟨38, _⟩ => ⟨S262144x2, .i32⟩
  | .hbm, ⟨39, _⟩ => ⟨S8192x8192, .f32⟩
  | .hbm, ⟨40, _⟩ => ⟨S8192x512, .bf16⟩
  | .hbm, ⟨41, _⟩ => ⟨S256x512, .bf16⟩
  | .hbm, ⟨42, _⟩ => ⟨S8192x256, .f32⟩
  | .hbm, ⟨43, _⟩ => ⟨S8192x256, .f32⟩
  | .local _ .vmem, ⟨0, _⟩ => ⟨S1024x512, .bf16⟩
  | .local _ .vmem, ⟨1, _⟩ => ⟨S1024x512, .bf16⟩
  | .local _ .vmem, ⟨2, _⟩ => ⟨S256x512, .bf16⟩
  | .local _ .vmem, ⟨3, _⟩ => ⟨S1024x1, .f32⟩
  | .local _ .vmem, ⟨4, _⟩ => ⟨S1024x1, .f32⟩
  | .local _ .vmem, ⟨5, _⟩ => ⟨S1024x256, .f32⟩
  | .local _ .vmem, ⟨6, _⟩ => ⟨S1024x256, .f32⟩
  | .local _ .vmem, ⟨7, _⟩ => ⟨S1024x2048, .f32⟩
  | .local _ .vmem, ⟨8, _⟩ => ⟨S1024x2048, .f32⟩
  | .local _ .vmem, ⟨9, _⟩ => ⟨S2048x256, .f32⟩
  | .local _ .vmem, ⟨10, _⟩ => ⟨S2048x256, .f32⟩
  | .local _ .vmem, ⟨11, _⟩ => ⟨S1024x256, .f32⟩
  | .local _ .vmem, ⟨12, _⟩ => ⟨S1024x256, .f32⟩
  | .local _ .vmem, ⟨13, _⟩ => ⟨S1024x1, .f32⟩
  | .local _ .vmem, ⟨14, _⟩ => ⟨S1024x1, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192 : S_.BroadcastsInDim S8192 (![] : Fin 0 → Fin S8192.rank)
  bcast_S262144_S262144x1_0 : S262144.BroadcastsInDim S262144x1 (![0] : Fin 1 → Fin S262144x1.rank)
  shapeCasts_S8192_S8192x1 : S8192.ShapeCasts S8192x1
  bcast_S_S8192x8192 : S_.BroadcastsInDim S8192x8192 (![] : Fin 0 → Fin S8192x8192.rank)
  bcast_S_S262144 : S_.BroadcastsInDim S262144 (![] : Fin 0 → Fin S262144.rank)
  concatenates_S262144x1_S262144x1_S262144x2_d1 : Shape.Concatenates [S262144x1, S262144x1] S262144x2 1
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  transposes_S256x512_p1_0_S512x256 : S256x512.Transposes [1, 0] S512x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  scatter_S8192_S262144x1_S262144_n_0_0_1_wf : ScatterDims.WF S8192 S262144x1 S262144 [] [0] [0] 1
  scatter_S8192x8192_S262144x2_S262144_n_01_01_1_wf : ScatterDims.WF S8192x8192 S262144x2 S262144 [] [0, 1] [0, 1] 1
  dot_S1024x512_S512x256_S1024x256_1_0_0_1_n_n_wf : DotDims.WF S1024x512 S512x256 S1024x256 [1] [0] [0] [1] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .f32 = 32 ∨ (Rect.block (s := S8192x256) S1024x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .f32 = 32 ∨ (Rect.block (s := S8192x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S8192x256.size a
  hwx1_4 : ∀ i : grid1.Coords, EltTy.bits .f32 = 32 ∨ (Rect.block (s := S8192x256) S1024x256.size (cc1_transform_4 i) (hinb1_4 i)).WholeWords (EltTy.packing .f32)

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_v28) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S2x262144 : Shape := ⟨2, ![2, 262144]⟩
abbrev S262144 : Shape := ⟨1, ![262144]⟩
abbrev S256x512 : Shape := ⟨2, ![256, 512]⟩
abbrev S512x256 : Shape := ⟨2, ![512, 256]⟩
abbrev S8192x256 : Shape := ⟨2, ![8192, 256]⟩
abbrev S1x262144 : Shape := ⟨2, ![1, 262144]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩

abbrev nBuf : Space → Nat
  | .hbm => 55
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S262144, .f32⟩
  | .hbm, ⟨3, _⟩ => ⟨S256x512, .f32⟩
  | .hbm, ⟨4, _⟩ => ⟨S512x256, .f32⟩
  | .hbm, ⟨5, _⟩ => ⟨S8192x256, .f32⟩
  | .hbm, ⟨6, _⟩ => ⟨S1x262144, .i32⟩
  | .hbm, ⟨7, _⟩ => ⟨S262144, .i32⟩
  | .hbm, ⟨8, _⟩ => ⟨S1x262144, .i32⟩
  | .hbm, ⟨9, _⟩ => ⟨S262144, .i32⟩
  | .hbm, ⟨10, _⟩ => ⟨S_, .f32⟩
  | .hbm, ⟨11, _⟩ => ⟨S8192x8192, .f32⟩
  | .hbm, ⟨12, _⟩ => ⟨S_, .i32⟩
  | .hbm, ⟨13, _⟩ => ⟨S262144, .i32⟩
  | .hbm, ⟨14, _⟩ => ⟨S262144, .i1⟩
  | .hbm, ⟨15, _⟩ => ⟨S_, .i32⟩
  | .hbm, ⟨16, _⟩ => ⟨S262144, .i32⟩
  | .hbm, ⟨17, _⟩ => ⟨S262144, .i32⟩
  | .hbm, ⟨18, _⟩ => ⟨S262144, .i32⟩
  | .hbm, ⟨19, _⟩ => ⟨S_, .i32⟩
  | .hbm, ⟨20, _⟩ => ⟨S262144, .i32⟩
  | .hbm, ⟨21, _⟩ => ⟨S262144, .i1⟩
  | .hbm, ⟨22, _⟩ => ⟨S_, .i32⟩
  | .hbm, ⟨23, _⟩ => ⟨S262144, .i32⟩
  | .hbm, ⟨24, _⟩ => ⟨S262144, .i32⟩
  | .hbm, ⟨25, _⟩ => ⟨S262144, .i32⟩
  | .hbm, ⟨26, _⟩ => ⟨S262144x1, .i32⟩
  | .hbm, ⟨27, _⟩ => ⟨S262144x1, .i32⟩
  | .hbm, ⟨28, _⟩ => ⟨S262144x2, .i32⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192x8192, .i32⟩
  | .hbm, ⟨40, _⟩ => ⟨S8192x8192, .i32⟩
  | .hbm, ⟨41, _⟩ => ⟨S_, .i32⟩
  | .hbm, ⟨42, _⟩ => ⟨S8192x8192, .i32⟩
  | .hbm, ⟨43, _⟩ => ⟨S8192x8192, .i32⟩
  | .hbm, ⟨44, _⟩ => ⟨S8192x8192, .i1⟩
  | .hbm, ⟨45, _⟩ => ⟨S8192x8192, .f32⟩
  | .hbm, ⟨46, _⟩ => ⟨S8192x8192, .f32⟩
  | .hbm, ⟨47, _⟩ => ⟨S8192x1, .f32⟩
  | .hbm, ⟨48, _⟩ => ⟨S8192x256, .f32⟩
  | .hbm, ⟨49, _⟩ => ⟨S8192x256, .f32⟩
  | .hbm, ⟨50, _⟩ => ⟨S8192x8192, .f32⟩
  | .hbm, ⟨51, _⟩ => ⟨S8192x256, .f32⟩
  | .hbm, ⟨52, _⟩ => ⟨S8192x1, .f32⟩
  | .hbm, ⟨53, _⟩ => ⟨S8192x256, .f32⟩
  | .hbm, ⟨54, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]

class Facts₀ : Prop where
  transposes_S256x512_S512x256_1_0 : S256x512.Transposes [1, 0] S512x256
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  transposes_S8192x8192_S8192x8192_1_0 : S8192x8192.Transposes [1, 0] S8192x8192
  dot_S8192x512_S512x256_S8192x256_1_0_0_1_n_n_wf : DotDims.WF S8192x512 S512x256 S8192x256 [1] [0] [0] [1] [] []
  scatter_S8192x8192_S262144x2_S262144_n_01_01_1_wf : ScatterDims.WF S8192x8192 S262144x2 S262144 [] [0, 1] [0, 1] 1
  dot_S8192x8192_S8192x256_S8192x256_1_0_0_1_n_n_wf : DotDims.WF S8192x8192 S8192x256 S8192x256 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.K.Region0.lean ====
/- The first TensorCore region of the kernel program (custom_call 0, `cc0__mm1_kernel`, pipeline 0), at a PARAMETER
   `V` — the TensorCore's buffer contents when the region is entered —: each window's block at a point (`iblk0`),
   what the body leaves in the output window's buffer as a function of the three input blocks (`out0_3`), the body's
   triple (`sound_kernel0`), the pipeline's proof data (`dat0`) and the body obligation (`body_obligation0`).
   Mathematically: at grid point `t` the body reads a [1024,512] block `x0` of the first operand, the whole
   [256,512] second operand `x1` and a [1024,1] column block `x2`, and stores into the [1024,256] output block the
   value of its one payload `k0_pay1 x0 x1 x2` (the product of `x0` by the transpose of `x1`, each row scaled by
   the entry of `x2` of that row). Stated at any float interpretation `F`. -/
import proofs.«162846_j38070590112568_1_alg».proof.Proof.Gen.Kernel.Launch
import proofs.«162846_j38070590112568_1_alg».proof.Proof.Gen.Kernel.Skeleton
import proofs.«162846_j38070590112568_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 0 of @main: custom_call 0, `cc0__mm1_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the whole second operand: its block index is constant, so it is fetched at the first point only and
    every later point finds the block where the first fetch put it): the same statement by the same lemma. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2: as window 0. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x512 := Rect.unit (s := S1024x512) ![0, 0] S1024x512.size inb_S1024x512_S1024x512_0_0
abbrev r0_1 : Rect S256x512 := Rect.unit (s := S256x512) ![0, 0] S256x512.size inb_S256x512_S256x512_0_0
abbrev r0_2 : Rect S1024x1 := Rect.unit (s := S1024x1) ![0, 0] S1024x1.size inb_S1024x1_S1024x1_0_0
abbrev r0_3 : Rect S1024x256 := Rect.unit (s := S1024x256) ![0, 0] S1024x256.size inb_S1024x256_S1024x256_0_0

/-! ## What the body leaves in the output window's buffer -/

/-- Window 3's staging buffer after the body, from the input windows' blocks: its 1 store as pieces
    (`View.canon`; the payload is the skeleton's). -/
def out0_3 (x0 : Vec F S1024x512 .bf16) (x1 : Vec F S256x512 .bf16) (x2 : Vec F S1024x1 .f32) : Vec F S1024x256 .f32 :=
  View.canon [⟨r0_3, k0_pay1 (View.ld x0 r0_0) (View.ld x1 r0_1) (View.ld x2 r0_2)⟩]

/-- Its store tiles the buffer (checked by evaluation), so it covers it. -/
theorem cover0_3 (p0 : Vec F S1024x256 .f32) (y : S1024x256.Idx) :
    ∃ pc ∈ ([⟨r0_3, p0⟩] : List (View.Piece (Elt F) S1024x256 .f32)), y ∈ pc.1.set :=
  View.cover_of_tiled [⟨r0_3, p0⟩] S1024x256.size (by rfl) y

/-! ## The body's triple -/

set_option maxHeartbeats 1000000 in
/-- The kernel body on whole staging memrefs, the inputs' at read contents `xW` and the output's at anything, runs to
    the continuation holding the inputs' as they were and the output's at `out0_3` of the inputs': the printed function
    is its skeleton, which `sl_exec` runs (the body's one load of the output memref reads a value nothing uses). -/
theorem sound_kernel0 (c : Dev nD) (E : Set ℕ) (i : grid0.Coords)
    (arg1 : Memref sig .tc .vmem S1024x512 .bf16) (harg1 : arg1.IsWhole) (arg2 : Memref sig .tc .vmem S256x512 .bf16) (harg2 : arg2.IsWhole)
    (arg3 : Memref sig .tc .vmem S1024x1 .f32) (harg3 : arg3.IsWhole) (arg4 : Memref sig .tc .vmem S1024x256 .f32) (harg4 : arg4.IsWhole)
    (x0 : Vec F S1024x512 .bf16) (x1 : Vec F S256x512 .bf16) (x2 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__mm1_kernel i arg1 harg1 arg2 harg2 arg3 harg3 arg4 harg4) K := by
  simp only [cc0__mm1_kernel_eq_skeleton]; unfold cc0__mm1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the proof data's definition projected, by `dsimp`). -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.K.AccSetup.lean ====
/-
  The second matrix product, B·hs accumulated over four column slabs of B: what every grid point of its pipeline shares.

  The grid is 8 row blocks by 4 slabs; point t is row block t / 4, slab t % 4.  The accumulator (a scratch buffer the
  kernel keeps between points) is zeroed at slab 0, gains one slab's product at every point, and at slab 3 the row
  block of the result, (accumulator + hs) scaled row by row, is stored.  This module fixes, for buffer contents V at the
  pipeline's entry: each window's block at a point, that an input window's staging buffer holds its block at every
  point whether or not it was fetched there, the two branch conditions in closed form over the grid, where the output
  window is idle, and the names of the staging and scratch buffers the body is called with.
-/
import proofs.«162846_j38070590112568_1_alg».proof.Proof.Gen.Kernel.Launch
import proofs.«162846_j38070590112568_1_alg».proof.Proof.Gen.Kernel.Skeleton
import proofs.«162846_j38070590112568_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- Window w's block at point t, read off its array as the pipeline finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window whose body leaves its block in place holds that block at every point: where it is not fetched its
    block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, over the grid -/

/-- "This is slab 0": the body zeroes the accumulator. -/
abbrev isFirstSlab (i : grid1.Coords) : Prop := (Scalar.cmpi .ne (Scalar.extui (Scalar.cmpi .eq (BitVec.ofNat 32 (i 1).val) 0#32)) 0#32) = 1#1
theorem isFirstSlab_iff : ∀ t : Fin cfg1.N, isFirstSlab (grid1.coords t) ↔ t.val % 4 = 0 :=
  (by decide +kernel : ∀ t : Fin grid1.N, isFirstSlab (grid1.coords t) ↔ t.val % 4 = 0)

/-- "This is slab 3": the body stores the row block of the result. -/
abbrev isLastSlab (i : grid1.Coords) : Prop := k1_cond2 i = 1#1
theorem isLastSlab_iff : ∀ t : Fin cfg1.N, isLastSlab (grid1.coords t) ↔ t.val % 4 = 3 :=
  (by decide +kernel : ∀ t : Fin grid1.N, isLastSlab (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
/-- Off slab 3 the output window is idle and its block is not written back. -/
theorem idle1_4 : ∀ t : Fin cfg1.N, ¬isLastSlab (grid1.coords t) → cfg1.idle 4 (grid1.coords t) = true := by decide +kernel
theorem noFlush1_4 : ∀ t : Fin cfg1.N, ¬isLastSlab (grid1.coords t) → (cfg1.win 4).flush t = false := by decide +kernel
/-- At slab 3 it is live. -/
theorem live1_4 : ∀ t : Fin cfg1.N, isLastSlab (grid1.coords t) → cfg1.idle 4 (grid1.coords t) = false := by decide +kernel

/-! ## The buffers the body is called with -/

abbrev outView : View sig .tc .vmem S1024x256 .f32 := (Memref.whole cc1_stg4_0 : Memref sig .tc .vmem S1024x256 .f32).view
abbrev mB (t : Fin cfg1.N) : Memref sig .tc .vmem S1024x2048 .f32 := win1_0.stage (cfg1.slots t 0)
abbrev hmB (t : Fin cfg1.N) : (mB t).IsWhole := hstage1_0 ((cfg1.slots t 0).cast nbuf1_0)
abbrev mHk (t : Fin cfg1.N) : Memref sig .tc .vmem S2048x256 .f32 := win1_1.stage (cfg1.slots t 1)
abbrev hmHk (t : Fin cfg1.N) : (mHk t).IsWhole := hstage1_1 ((cfg1.slots t 1).cast nbuf1_1)
abbrev mHi (t : Fin cfg1.N) : Memref sig .tc .vmem S1024x256 .f32 := win1_2.stage (cfg1.slots t 2)
abbrev hmHi (t : Fin cfg1.N) : (mHi t).IsWhole := hstage1_2 ((cfg1.slots t 2).cast nbuf1_2)
abbrev mD (t : Fin cfg1.N) : Memref sig .tc .vmem S1024x1 .f32 := win1_3.stage (cfg1.slots t 3)
abbrev hmD (t : Fin cfg1.N) : (mD t).IsWhole := hstage1_3 ((cfg1.slots t 3).cast nbuf1_3)
abbrev mO (t : Fin cfg1.N) : Memref sig .tc .vmem S1024x256 .f32 := win1_4.stage (cfg1.slots t 4)
abbrev hmO (t : Fin cfg1.N) : (mO t).IsWhole := hstage1_4 ((cfg1.slots t 4).cast nbuf1_4)
/-- The accumulator. -/
abbrev accM : Memref sig .tc .vmem S1024x256 .f32 := Memref.whole cc1_scratch0
abbrev accView : View sig .tc .vmem S1024x256 .f32 := accM.view

/-- The pipeline's invariant with the accumulator owned at some contents. -/
theorem PhiA1_eq (c : Dev nD) :
    (Pipeline.ΦA spec1 c : sProp 𝕄)
      = iprop(iprop((∃ d0, owns (c : Thread nD τ) (Memref.whole cc0_stg0_0) fullShare d0) ∗ (∃ d1, owns (c : Thread nD τ) (Memref.whole cc0_stg0_1) fullShare d1) ∗ (∃ d2, owns (c : Thread nD τ) (Memref.whole cc0_stg1_0) fullShare d2) ∗ (∃ d3, owns (c : Thread nD τ) (Memref.whole cc0_stg2_0) fullShare d3) ∗ (∃ d4, owns (c : Thread nD τ) (Memref.whole cc0_stg2_1) fullShare d4) ∗ (∃ d5, owns (c : Thread nD τ) (Memref.whole cc0_stg3_0) fullShare d5) ∗ (∃ d6, owns (c : Thread nD τ) (Memref.whole cc0_stg3_1) fullShare d6) ∗ (∃ d, owns (c : Thread nD τ) accM fullShare d)) ∗ (∃ r, prngReg c r)) := by
  unfold Pipeline.ΦA; rw [scopedRest1_eq]; simp only [accM, owns_whole]; try rfl

end Cert.Kernel.Hand

end
-- ==== Proof.K.AccRunFirst.lean ====
/-
  The body at a point of slab 0 (not the last slab): the accumulator is zeroed and gains the slab's product; nothing is stored into the output's block, which comes back as it was handed over.
-/
import proofs.«162846_j38070590112568_1_alg».proof.Proof.K.AccSetup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging buffer and in the accumulator at such a point (last
    store first), with the body's triple on whole staging buffers: the four inputs at their contents come back
    unchanged, and each stored buffer comes back with its pieces written. -/
noncomputable def slabFirstRun (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : isFirstSlab i) (hlast : ¬isLastSlab i)
    (x0 : Vec F S1024x2048 .f32) (x1 : Vec F S2048x256 .f32) (x2 : Vec F S1024x256 .f32) (x3 : Vec F S1024x1 .f32) :
    Σ' (LO : List (View.Piece (Elt F) S1024x256 .f32)), { LAcc : List (View.Piece (Elt F) S1024x256 .f32) //
      ∀ (xi : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LAcc)) -∗ K ⟨⟩))
          ⊢ wp frame (wpE (defs₀ (F := F)) Variants.none c none) E (cc1__mm2_kernel i arg2 harg2 arg3 harg3 arg4 harg4 arg5 harg5 arg6 harg6 arg7 harg7) K } := by
  refine ⟨[], ?_, fun xi E K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.K.AccRunMid.lean ====
/-
  The body at a point of slab 1 or 2: the accumulator, at what the point before left, gains the slab's product; nothing is stored into the output's block, which comes back as it was handed over.
-/
import proofs.«162846_j38070590112568_1_alg».proof.Proof.K.AccSetup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging buffer and in the accumulator at such a point (last
    store first), with the body's triple on whole staging buffers: the four inputs at their contents come back
    unchanged, and each stored buffer comes back with its pieces written. -/
noncomputable def slabMidRun (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : ¬isFirstSlab i) (hlast : ¬isLastSlab i)
    (x0 : Vec F S1024x2048 .f32) (x1 : Vec F S2048x256 .f32) (x2 : Vec F S1024x256 .f32) (x3 : Vec F S1024x1 .f32) (acc : Vec F S1024x256 .f32) :
    Σ' (LO : List (View.Piece (Elt F) S1024x256 .f32)), { LAcc : List (View.Piece (Elt F) S1024x256 .f32) //
      ∀ (xi : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare acc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LAcc)) -∗ K ⟨⟩))
          ⊢ wp frame (wpE (defs₀ (F := F)) Variants.none c none) E (cc1__mm2_kernel i arg2 harg2 arg3 harg3 arg4 harg4 arg5 harg5 arg6 harg6 arg7 harg7) K } := by
  refine ⟨[], ?_, fun xi E K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.K.AccRunLast.lean ====
/-
  The body at a point of slab 3: the accumulator, at what the point before left, gains the last slab's product, and the row block of the result, (accumulator + hs) scaled row by row, is stored into the output's block.
-/
import proofs.«162846_j38070590112568_1_alg».proof.Proof.K.AccSetup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging buffer and in the accumulator at such a point (last
    store first), with the body's triple on whole staging buffers: the four inputs at their contents come back
    unchanged, and each stored buffer comes back with its pieces written. -/
noncomputable def slabLastRun (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : ¬isFirstSlab i) (hlast : isLastSlab i)
    (x0 : Vec F S1024x2048 .f32) (x1 : Vec F S2048x256 .f32) (x2 : Vec F S1024x256 .f32) (x3 : Vec F S1024x1 .f32) (acc : Vec F S1024x256 .f32) :
    Σ' (LO : List (View.Piece (Elt F) S1024x256 .f32)), { LAcc : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare acc
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LAcc)) -∗ K ⟨⟩))
          ⊢ wp frame (wpE (defs₀ (F := F)) Variants.none c none) E (cc1__mm2_kernel i arg2 harg2 arg3 harg3 arg4 harg4 arg5 harg5 arg6 harg6 arg7 harg7) K } := by
  refine ⟨?_, ?_, fun E K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Hand

end
-- ==== Proof.K.Acc.lean ====
/-
  The second matrix product over its 32 grid points: what the output's block and the accumulator hold after each
  point, and the pipeline's proof data.

  After point t the accumulator holds the sum of the products of slabs 0 … t % 4 of row block t / 4 (from zero at slab
  0), as the three cases of the body leave it; the output's block holds (accumulator + hs block) scaled by the dinv
  column at slab 3 and is not consulted elsewhere.  Both are defined by recursion on the point through the cases'
  runs.  The two windows that read the array hs hold it at the two halves of the full share.
-/
import proofs.«162846_j38070590112568_1_alg».proof.Proof.K.AccRunFirst
import proofs.«162846_j38070590112568_1_alg».proof.Proof.K.AccRunMid
import proofs.«162846_j38070590112568_1_alg».proof.Proof.K.AccRunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The output's block after such a point: the run's pieces for it read back over unnamed contents. -/
def outFirst (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : isFirstSlab i) (hlast : ¬isLastSlab i)
    (x0 : Vec F S1024x2048 .f32) (x1 : Vec F S2048x256 .f32) (x2 : Vec F S1024x256 .f32) (x3 : Vec F S1024x1 .f32) : Vec F S1024x256 .f32 :=
  outView.read (Elt F) (outView.writes (Elt F) outView.junk (slabFirstRun c i arg2 harg2 arg3 harg3 arg4 harg4 arg5 harg5 arg6 harg6 arg7 harg7 hfirst hlast x0 x1 x2 x3).1)
/-- The run's pieces for the accumulator tile it. -/
theorem accCoverFirst (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : isFirstSlab i) (hlast : ¬isLastSlab i)
    (x0 : Vec F S1024x2048 .f32) (x1 : Vec F S2048x256 .f32) (x2 : Vec F S1024x256 .f32) (x3 : Vec F S1024x1 .f32) (y : S1024x256.Idx) :
    ∃ pc ∈ (slabFirstRun c i arg2 harg2 arg3 harg3 arg4 harg4 arg5 harg5 arg6 harg6 arg7 harg7 hfirst hlast x0 x1 x2 x3).2.1, y ∈ pc.1.set :=
  View.cover_of_tiledL (slabFirstRun c i arg2 harg2 arg3 harg3 arg4 harg4 arg5 harg5 arg6 harg6 arg7 harg7 hfirst hlast x0 x1 x2 x3).2.1 S1024x256.size (by sl_kernel_rfl) y
/-- The accumulator after such a point: its pieces read back. -/
def accFirst (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : isFirstSlab i) (hlast : ¬isLastSlab i)
    (x0 : Vec F S1024x2048 .f32) (x1 : Vec F S2048x256 .f32) (x2 : Vec F S1024x256 .f32) (x3 : Vec F S1024x1 .f32) : Vec F S1024x256 .f32 :=
  accView.read (Elt F) (accView.writes (Elt F) accView.junk (slabFirstRun c i arg2 harg2 arg3 harg3 arg4 harg4 arg5 harg5 arg6 harg6 arg7 harg7 hfirst hlast x0 x1 x2 x3).2.1)

/-- The output's block after such a point: the run's pieces for it read back over unnamed contents. -/
def outMid (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : ¬isFirstSlab i) (hlast : ¬isLastSlab i)
    (x0 : Vec F S1024x2048 .f32) (x1 : Vec F S2048x256 .f32) (x2 : Vec F S1024x256 .f32) (x3 : Vec F S1024x1 .f32) (acc : Vec F S1024x256 .f32) : Vec F S1024x256 .f32 :=
  outView.read (Elt F) (outView.writes (Elt F) outView.junk (slabMidRun c i arg2 harg2 arg3 harg3 arg4 harg4 arg5 harg5 arg6 harg6 arg7 harg7 hfirst hlast x0 x1 x2 x3 acc).1)
/-- The run's pieces for the accumulator tile it. -/
theorem accCoverMid (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : ¬isFirstSlab i) (hlast : ¬isLastSlab i)
    (x0 : Vec F S1024x2048 .f32) (x1 : Vec F S2048x256 .f32) (x2 : Vec F S1024x256 .f32) (x3 : Vec F S1024x1 .f32) (acc : Vec F S1024x256 .f32) (y : S1024x256.Idx) :
    ∃ pc ∈ (slabMidRun c i arg2 harg2 arg3 harg3 arg4 harg4 arg5 harg5 arg6 harg6 arg7 harg7 hfirst hlast x0 x1 x2 x3 acc).2.1, y ∈ pc.1.set :=
  View.cover_of_tiledL (slabMidRun c i arg2 harg2 arg3 harg3 arg4 harg4 arg5 harg5 arg6 harg6 arg7 harg7 hfirst hlast x0 x1 x2 x3 acc).2.1 S1024x256.size (by sl_kernel_rfl) y
/-- The accumulator after such a point: its pieces read back. -/
def accMid (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : ¬isFirstSlab i) (hlast : ¬isLastSlab i)
    (x0 : Vec F S1024x2048 .f32) (x1 : Vec F S2048x256 .f32) (x2 : Vec F S1024x256 .f32) (x3 : Vec F S1024x1 .f32) (acc : Vec F S1024x256 .f32) : Vec F S1024x256 .f32 :=
  accView.read (Elt F) (accView.writes (Elt F) accView.junk (slabMidRun c i arg2 harg2 arg3 harg3 arg4 harg4 arg5 harg5 arg6 harg6 arg7 harg7 hfirst hlast x0 x1 x2 x3 acc).2.1)

/-- The output's block after such a point: the run's pieces for it read back over unnamed contents. -/
def outLast (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : ¬isFirstSlab i) (hlast : isLastSlab i)
    (x0 : Vec F S1024x2048 .f32) (x1 : Vec F S2048x256 .f32) (x2 : Vec F S1024x256 .f32) (x3 : Vec F S1024x1 .f32) (acc : Vec F S1024x256 .f32) : Vec F S1024x256 .f32 :=
  outView.read (Elt F) (outView.writes (Elt F) outView.junk (slabLastRun c i arg2 harg2 arg3 harg3 arg4 harg4 arg5 harg5 arg6 harg6 arg7 harg7 hfirst hlast x0 x1 x2 x3 acc).1)
/-- The run's pieces for the accumulator tile it. -/
theorem accCoverLast (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : ¬isFirstSlab i) (hlast : isLastSlab i)
    (x0 : Vec F S1024x2048 .f32) (x1 : Vec F S2048x256 .f32) (x2 : Vec F S1024x256 .f32) (x3 : Vec F S1024x1 .f32) (acc : Vec F S1024x256 .f32) (y : S1024x256.Idx) :
    ∃ pc ∈ (slabLastRun c i arg2 harg2 arg3 harg3 arg4 harg4 arg5 harg5 arg6 harg6 arg7 harg7 hfirst hlast x0 x1 x2 x3 acc).2.1, y ∈ pc.1.set :=
  View.cover_of_tiledL (slabLastRun c i arg2 harg2 arg3 harg3 arg4 harg4 arg5 harg5 arg6 harg6 arg7 harg7 hfirst hlast x0 x1 x2 x3 acc).2.1 S1024x256.size (by sl_kernel_rfl) y
/-- The accumulator after such a point: its pieces read back. -/
def accLast (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : ¬isFirstSlab i) (hlast : isLastSlab i)
    (x0 : Vec F S1024x2048 .f32) (x1 : Vec F S2048x256 .f32) (x2 : Vec F S1024x256 .f32) (x3 : Vec F S1024x1 .f32) (acc : Vec F S1024x256 .f32) : Vec F S1024x256 .f32 :=
  accView.read (Elt F) (accView.writes (Elt F) accView.junk (slabLastRun c i arg2 harg2 arg3 harg3 arg4 harg4 arg5 harg5 arg6 harg6 arg7 harg7 hfirst hlast x0 x1 x2 x3 acc).2.1)
/-- At slab 3 the run's pieces for the output tile its block. -/
theorem outCoverLast (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : ¬isFirstSlab i) (hlast : isLastSlab i)
    (x0 : Vec F S1024x2048 .f32) (x1 : Vec F S2048x256 .f32) (x2 : Vec F S1024x256 .f32) (x3 : Vec F S1024x1 .f32) (acc : Vec F S1024x256 .f32) (y : S1024x256.Idx) :
    ∃ pc ∈ (slabLastRun c i arg2 harg2 arg3 harg3 arg4 harg4 arg5 harg5 arg6 harg6 arg7 harg7 hfirst hlast x0 x1 x2 x3 acc).1, y ∈ pc.1.set :=
  View.cover_of_tiledL (slabLastRun c i arg2 harg2 arg3 harg3 arg4 harg4 arg5 harg5 arg6 harg6 arg7 harg7 hfirst hlast x0 x1 x2 x3 acc).1 S1024x256.size (by sl_kernel_rfl) y

variable (V : (c : Dev nD) → (b : Ref sig .tc) → Buf (Elt F) ((c : Thread nD τ).loc b))

/-! ## Point by point -/

/-- What the output's block and the accumulator hold after point n: the case of n, run on the point's blocks, over
    the accumulator as point n - 1 left it. -/
def outsAt1 (c : Dev nD) : (n : ℕ) → n < cfg1.N → Vec F S1024x256 .f32 × Vec F S1024x256 .f32
  | 0, hn => (outFirst c (grid1.coords ⟨0, hn⟩) (mB ⟨0, hn⟩) (hmB ⟨0, hn⟩) (mHk ⟨0, hn⟩) (hmHk ⟨0, hn⟩) (mHi ⟨0, hn⟩) (hmHi ⟨0, hn⟩) (mD ⟨0, hn⟩) (hmD ⟨0, hn⟩) (mO ⟨0, hn⟩) (hmO ⟨0, hn⟩) accM (Memref.isWhole_whole _) ((isFirstSlab_iff ⟨0, hn⟩).mpr (Nat.zero_mod _)) (fun h => (fun h => by (try dsimp only at h); omega) ((isLastSlab_iff ⟨0, hn⟩).mp h)) (iblk1 V c 0 ⟨0, hn⟩) (iblk1 V c 1 ⟨0, hn⟩) (iblk1 V c 2 ⟨0, hn⟩) (iblk1 V c 3 ⟨0, hn⟩), accFirst c (grid1.coords ⟨0, hn⟩) (mB ⟨0, hn⟩) (hmB ⟨0, hn⟩) (mHk ⟨0, hn⟩) (hmHk ⟨0, hn⟩) (mHi ⟨0, hn⟩) (hmHi ⟨0, hn⟩) (mD ⟨0, hn⟩) (hmD ⟨0, hn⟩) (mO ⟨0, hn⟩) (hmO ⟨0, hn⟩) accM (Memref.isWhole_whole _) ((isFirstSlab_iff ⟨0, hn⟩).mpr (Nat.zero_mod _)) (fun h => (fun h => by (try dsimp only at h); omega) ((isLastSlab_iff ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h3 : (n + 1) % 4 = 3 then
        False.elim (by omega)
      else
        (outFirst c (grid1.coords ⟨n + 1, hn⟩) (mB ⟨n + 1, hn⟩) (hmB ⟨n + 1, hn⟩) (mHk ⟨n + 1, hn⟩) (hmHk ⟨n + 1, hn⟩) (mHi ⟨n + 1, hn⟩) (hmHi ⟨n + 1, hn⟩) (mD ⟨n + 1, hn⟩) (hmD ⟨n + 1, hn⟩) (mO ⟨n + 1, hn⟩) (hmO ⟨n + 1, hn⟩) accM (Memref.isWhole_whole _) ((isFirstSlab_iff ⟨n + 1, hn⟩).mpr h0) (fun h => h3 ((isLastSlab_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩), accFirst c (grid1.coords ⟨n + 1, hn⟩) (mB ⟨n + 1, hn⟩) (hmB ⟨n + 1, hn⟩) (mHk ⟨n + 1, hn⟩) (hmHk ⟨n + 1, hn⟩) (mHi ⟨n + 1, hn⟩) (hmHi ⟨n + 1, hn⟩) (mD ⟨n + 1, hn⟩) (hmD ⟨n + 1, hn⟩) (mO ⟨n + 1, hn⟩) (hmO ⟨n + 1, hn⟩) accM (Memref.isWhole_whole _) ((isFirstSlab_iff ⟨n + 1, hn⟩).mpr h0) (fun h => h3 ((isLastSlab_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h3 : (n + 1) % 4 = 3 then
        (outLast c (grid1.coords ⟨n + 1, hn⟩) (mB ⟨n + 1, hn⟩) (hmB ⟨n + 1, hn⟩) (mHk ⟨n + 1, hn⟩) (hmHk ⟨n + 1, hn⟩) (mHi ⟨n + 1, hn⟩) (hmHi ⟨n + 1, hn⟩) (mD ⟨n + 1, hn⟩) (hmD ⟨n + 1, hn⟩) (mO ⟨n + 1, hn⟩) (hmO ⟨n + 1, hn⟩) accM (Memref.isWhole_whole _) (fun h => h0 ((isFirstSlab_iff ⟨n + 1, hn⟩).mp h)) ((isLastSlab_iff ⟨n + 1, hn⟩).mpr h3) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, accLast c (grid1.coords ⟨n + 1, hn⟩) (mB ⟨n + 1, hn⟩) (hmB ⟨n + 1, hn⟩) (mHk ⟨n + 1, hn⟩) (hmHk ⟨n + 1, hn⟩) (mHi ⟨n + 1, hn⟩) (hmHi ⟨n + 1, hn⟩) (mD ⟨n + 1, hn⟩) (hmD ⟨n + 1, hn⟩) (mO ⟨n + 1, hn⟩) (hmO ⟨n + 1, hn⟩) accM (Memref.isWhole_whole _) (fun h => h0 ((isFirstSlab_iff ⟨n + 1, hn⟩).mp h)) ((isLastSlab_iff ⟨n + 1, hn⟩).mpr h3) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (outMid c (grid1.coords ⟨n + 1, hn⟩) (mB ⟨n + 1, hn⟩) (hmB ⟨n + 1, hn⟩) (mHk ⟨n + 1, hn⟩) (hmHk ⟨n + 1, hn⟩) (mHi ⟨n + 1, hn⟩) (hmHi ⟨n + 1, hn⟩) (mD ⟨n + 1, hn⟩) (hmD ⟨n + 1, hn⟩) (mO ⟨n + 1, hn⟩) (hmO ⟨n + 1, hn⟩) accM (Memref.isWhole_whole _) (fun h => h0 ((isFirstSlab_iff ⟨n + 1, hn⟩).mp h)) (fun h => h3 ((isLastSlab_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, accMid c (grid1.coords ⟨n + 1, hn⟩) (mB ⟨n + 1, hn⟩) (hmB ⟨n + 1, hn⟩) (mHk ⟨n + 1, hn⟩) (hmHk ⟨n + 1, hn⟩) (mHi ⟨n + 1, hn⟩) (hmHi ⟨n + 1, hn⟩) (mD ⟨n + 1, hn⟩) (hmD ⟨n + 1, hn⟩) (mO ⟨n + 1, hn⟩) (hmO ⟨n + 1, hn⟩) accM (Memref.isWhole_whole _) (fun h => h0 ((isFirstSlab_iff ⟨n + 1, hn⟩).mp h)) (fun h => h3 ((isLastSlab_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_first (c : Dev nD) (t : Fin cfg1.N) (h0 : t.val % 4 = 0) (h3 : ¬t.val % 4 = 3) :
    outsAt1 V c t.val t.isLt = (outFirst c (grid1.coords t) (mB t) (hmB t) (mHk t) (hmHk t) (mHi t) (hmHi t) (mD t) (hmD t) (mO t) (hmO t) accM (Memref.isWhole_whole _) ((isFirstSlab_iff t).mpr h0) (fun h => h3 ((isLastSlab_iff t).mp h)) (iblk1 V c 0 t) (iblk1 V c 1 t) (iblk1 V c 2 t) (iblk1 V c 3 t), accFirst c (grid1.coords t) (mB t) (hmB t) (mHk t) (hmHk t) (mHi t) (hmHi t) (mD t) (hmD t) (mO t) (hmO t) accM (Memref.isWhole_whole _) ((isFirstSlab_iff t).mpr h0) (fun h => h3 ((isLastSlab_iff t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h3).trans rfl)

theorem outsAt1_mid (c : Dev nD) (t : Fin cfg1.N) (h0 : ¬t.val % 4 = 0) (h3 : ¬t.val % 4 = 3) :
    outsAt1 V c t.val t.isLt = (outMid c (grid1.coords t) (mB t) (hmB t) (mHk t) (hmHk t) (mHi t) (hmHi t) (mD t) (hmD t) (mO t) (hmO t) accM (Memref.isWhole_whole _) (fun h => h0 ((isFirstSlab_iff t).mp h)) (fun h => h3 ((isLastSlab_iff t).mp h)) (iblk1 V c 0 t) (iblk1 V c 1 t) (iblk1 V c 2 t) (iblk1 V c 3 t) (outsAt1 V c (t.val - 1) (Nat.lt_of_le_of_lt (Nat.sub_le _ _) t.isLt)).2, accMid c (grid1.coords t) (mB t) (hmB t) (mHk t) (hmHk t) (mHi t) (hmHi t) (mD t) (hmD t) (mO t) (hmO t) accM (Memref.isWhole_whole _) (fun h => h0 ((isFirstSlab_iff t).mp h)) (fun h => h3 ((isLastSlab_iff t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h3).trans rfl)

theorem outsAt1_last (c : Dev nD) (t : Fin cfg1.N) (h0 : ¬t.val % 4 = 0) (h3 : t.val % 4 = 3) :
    outsAt1 V c t.val t.isLt = (outLast c (grid1.coords t) (mB t) (hmB t) (mHk t) (hmHk t) (mHi t) (hmHi t) (mD t) (hmD t) (mO t) (hmO t) accM (Memref.isWhole_whole _) (fun h => h0 ((isFirstSlab_iff t).mp h)) ((isLastSlab_iff t).mpr h3) (iblk1 V c 0 t) (iblk1 V c 1 t) (iblk1 V c 2 t) (iblk1 V c 3 t) (outsAt1 V c (t.val - 1) (Nat.lt_of_le_of_lt (Nat.sub_le _ _) t.isLt)).2, accLast c (grid1.coords t) (mB t) (hmB t) (mHk t) (hmHk t) (mHi t) (hmHi t) (mD t) (hmD t) (mO t) (hmO t) accM (Memref.isWhole_whole _) (fun h => h0 ((isFirstSlab_iff t).mp h)) ((isLastSlab_iff t).mpr h3) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h3).trans rfl)

/-! ## The invariant: the accumulator at what the point before left -/

/-- The scoped buffers no window of this pipeline stages, the accumulator in the state P, and the generator register. -/
def scopedWith (c : Dev nD) (P : sProp 𝕄) : sProp 𝕄 :=
  iprop(iprop((∃ d0, owns (c : Thread nD τ) (Memref.whole cc0_stg0_0) fullShare d0) ∗ (∃ d1, owns (c : Thread nD τ) (Memref.whole cc0_stg0_1) fullShare d1) ∗ (∃ d2, owns (c : Thread nD τ) (Memref.whole cc0_stg1_0) fullShare d2) ∗ (∃ d3, owns (c : Thread nD τ) (Memref.whole cc0_stg2_0) fullShare d3) ∗ (∃ d4, owns (c : Thread nD τ) (Memref.whole cc0_stg2_1) fullShare d4) ∗ (∃ d5, owns (c : Thread nD τ) (Memref.whole cc0_stg3_0) fullShare d5) ∗ (∃ d6, owns (c : Thread nD τ) (Memref.whole cc0_stg3_1) fullShare d6) ∗ P) ∗ (∃ r, prngReg c r))

theorem PhiA1_scopedWith (c : Dev nD) : (Pipeline.ΦA spec1 c : sProp 𝕄) = scopedWith c (iprop(∃ d, owns (c : Thread nD τ) accM fullShare d)) :=
  PhiA1_eq c

def PhiS1 (c : Dev nD) : (n : ℕ) → n ≤ cfg1.N → sProp 𝕄
  | 0, _ => Pipeline.ΦA spec1 c
  | n + 1, hn => scopedWith c (owns (c : Thread nD τ) accM fullShare ((outsAt1 V c n hn).2))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = scopedWith c (owns (c : Thread nD τ) accM fullShare ((outsAt1 V c n hn).2)) := rfl
theorem PhiS1_pos (c : Dev nD) (n : ℕ) (h : n ≤ cfg1.N) (hz : n ≠ 0) :
    PhiS1 V c n h = scopedWith c (owns (c : Thread nD τ) accM fullShare ((outsAt1 V c (n - 1) (by omega)).2)) := by
  cases n with
  | zero => exact absurd rfl hz
  | succ n => rfl

/-! ## The proof data -/

/-- The arrays as the pipeline finds them; after the body each input's buffer at its block and the output's at the
    recursion's first component; the invariant above; the array hs held by its two windows at the two halves of the
    full share; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (mB t) fullShare ((dat1 V c).before 0 t d))
    ∗ (∃ d, owns (c : Thread nD τ) (mHk t) fullShare ((dat1 V c).before 1 t d))
    ∗ (∃ d, owns (c : Thread nD τ) (mHi t) fullShare ((dat1 V c).before 2 t d))
    ∗ (∃ d, owns (c : Thread nD τ) (mD t) fullShare ((dat1 V c).before 3 t d))
    ∗ (∃ d, owns (c : Thread nD τ) (mO t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point.  The inputs' buffers hold their blocks; the point's slab decides the case; the invariant
    hands over the accumulator at what the point before left (at anything before the first point) and takes it back at
    this point's contents, which the case's pieces cover; off slab 3 the output's buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h3 : t.val % 4 = 3
    · exfalso; omega
    · rw [show (dat1 V c).leavesExact 0 t = owns (c : Thread nD τ) (mB t) fullShare ((dat1 V c).after 0 t) from by
          unfold Dat.leavesExact; rw [live1_0 t], after1_0]
      rw [show (dat1 V c).leavesExact 1 t = owns (c : Thread nD τ) (mHk t) fullShare ((dat1 V c).after 1 t) from by
          unfold Dat.leavesExact; rw [live1_1 t], after1_1]
      rw [show (dat1 V c).leavesExact 2 t = owns (c : Thread nD τ) (mHi t) fullShare ((dat1 V c).after 2 t) from by
          unfold Dat.leavesExact; rw [live1_2 t], after1_2]
      rw [show (dat1 V c).leavesExact 3 t = owns (c : Thread nD τ) (mD t) fullShare ((dat1 V c).after 3 t) from by
          unfold Dat.leavesExact; rw [live1_3 t], after1_3]
      rw [Dat.leavesExact_idle (dat1 V c) 4 t (idle1_4 t (fun h => h3 ((isLastSlab_iff t).mp h))) (noFlush1_4 t (fun h => h3 ((isLastSlab_iff t).mp h)))]
      rw [outsAt1_first V c t h0 h3]
      unfold accFirst scopedWith; (try dsimp only)
      by_cases hz : t.val = 0
      · rw [PhiS1_castSucc V c t, PhiS1_zero V c _ _ hz, PhiA1_scopedWith]; unfold scopedWith
        iintro ⟨⟨⟨A0, A1, A2, A3, A4, A5, A6, HS⟩, Hg⟩, Ho, ⟨%d0, H0⟩, ⟨%d1, H1⟩, ⟨%d2, H2⟩, ⟨%d3, H3⟩, ⟨%d4, H4⟩⟩
        iapply ((slabFirstRun c (grid1.coords t) _ _ _ _ _ _ _ _ _ _ _ _ ((isFirstSlab_iff t).mpr h0) (fun h => h3 ((isLastSlab_iff t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [A0 A1 A2 A3 A4 A5 A6 HS Hg]
        · isplitl [A0 A1 A2 A3 A4 A5 A6 HS]
          · isplitl [A0]; · iexact A0
            isplitl [A1]; · iexact A1
            isplitl [A2]; · iexact A2
            isplitl [A3]; · iexact A3
            isplitl [A4]; · iexact A4
            isplitl [A5]; · iexact A5
            isplitl [A6]; · iexact A6
            unfold owns; iexists _; isplitr
            swap; · iexact HS
            ipureintro; exact View.read_writes_of_cover _ _ _ _ _ (accCoverFirst c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]; unfold scopedWith
        iintro ⟨⟨⟨A0, A1, A2, A3, A4, A5, A6, HS⟩, Hg⟩, Ho, ⟨%d0, H0⟩, ⟨%d1, H1⟩, ⟨%d2, H2⟩, ⟨%d3, H3⟩, ⟨%d4, H4⟩⟩
        iapply ((slabFirstRun c (grid1.coords t) _ _ _ _ _ _ _ _ _ _ _ _ ((isFirstSlab_iff t).mpr h0) (fun h => h3 ((isLastSlab_iff t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [A0 A1 A2 A3 A4 A5 A6 HS Hg]
        · isplitl [A0 A1 A2 A3 A4 A5 A6 HS]
          · isplitl [A0]; · iexact A0
            isplitl [A1]; · iexact A1
            isplitl [A2]; · iexact A2
            isplitl [A3]; · iexact A3
            isplitl [A4]; · iexact A4
            isplitl [A5]; · iexact A5
            isplitl [A6]; · iexact A6
            unfold owns; iexists _; isplitr
            swap; · iexact HS
            ipureintro; exact View.read_writes_of_cover _ _ _ _ _ (accCoverFirst c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h3 : t.val % 4 = 3
    · rw [show (dat1 V c).leavesExact 0 t = owns (c : Thread nD τ) (mB t) fullShare ((dat1 V c).after 0 t) from by
          unfold Dat.leavesExact; rw [live1_0 t], after1_0]
      rw [show (dat1 V c).leavesExact 1 t = owns (c : Thread nD τ) (mHk t) fullShare ((dat1 V c).after 1 t) from by
          unfold Dat.leavesExact; rw [live1_1 t], after1_1]
      rw [show (dat1 V c).leavesExact 2 t = owns (c : Thread nD τ) (mHi t) fullShare ((dat1 V c).after 2 t) from by
          unfold Dat.leavesExact; rw [live1_2 t], after1_2]
      rw [show (dat1 V c).leavesExact 3 t = owns (c : Thread nD τ) (mD t) fullShare ((dat1 V c).after 3 t) from by
          unfold Dat.leavesExact; rw [live1_3 t], after1_3]
      rw [show (dat1 V c).leavesExact 4 t = owns (c : Thread nD τ) (mO t) fullShare ((dat1 V c).after 4 t) from by
          unfold Dat.leavesExact; rw [live1_4 t ((isLastSlab_iff t).mpr h3)], after1_4]
      rw [outsAt1_last V c t h0 h3]
      unfold outLast accLast scopedWith; (try dsimp only)
      rw [PhiS1_castSucc V c t, PhiS1_pos V c _ _ hz]; unfold scopedWith
      iintro ⟨⟨⟨A0, A1, A2, A3, A4, A5, A6, HS⟩, Hg⟩, Ho, ⟨%d0, H0⟩, ⟨%d1, H1⟩, ⟨%d2, H2⟩, ⟨%d3, H3⟩, ⟨%d4, H4⟩⟩
      iapply ((slabLastRun c (grid1.coords t) _ _ _ _ _ _ _ _ _ _ _ _ (fun h => h0 ((isFirstSlab_iff t).mp h)) ((isLastSlab_iff t).mpr h3) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [A0 A1 A2 A3 A4 A5 A6 HS Hg]
      · isplitl [A0 A1 A2 A3 A4 A5 A6 HS]
        · isplitl [A0]; · iexact A0
          isplitl [A1]; · iexact A1
          isplitl [A2]; · iexact A2
          isplitl [A3]; · iexact A3
          isplitl [A4]; · iexact A4
          isplitl [A5]; · iexact A5
          isplitl [A6]; · iexact A6
          unfold owns; iexists _; isplitr
          swap; · iexact HS
          ipureintro; exact View.read_writes_of_cover _ _ _ _ _ (accCoverLast c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outCoverLast c _ _ _ _ _ _ _ _ _ _ _ _ _ _ _ _ _ _ _ _)
    · rw [show (dat1 V c).leavesExact 0 t = owns (c : Thread nD τ) (mB t) fullShare ((dat1 V c).after 0 t) from by
          unfold Dat.leavesExact; rw [live1_0 t], after1_0]
      rw [show (dat1 V c).leavesExact 1 t = owns (c : Thread nD τ) (mHk t) fullShare ((dat1 V c).after 1 t) from by
          unfold Dat.leavesExact; rw [live1_1 t], after1_1]
      rw [show (dat1 V c).leavesExact 2 t = owns (c : Thread nD τ) (mHi t) fullShare ((dat1 V c).after 2 t) from by
          unfold Dat.leavesExact; rw [live1_2 t], after1_2]
      rw [show (dat1 V c).leavesExact 3 t = owns (c : Thread nD τ) (mD t) fullShare ((dat1 V c).after 3 t) from by
          unfold Dat.leavesExact; rw [live1_3 t], after1_3]
      rw [Dat.leavesExact_idle (dat1 V c) 4 t (idle1_4 t (fun h => h3 ((isLastSlab_iff t).mp h))) (noFlush1_4 t (fun h => h3 ((isLastSlab_iff t).mp h)))]
      rw [outsAt1_mid V c t h0 h3]
      unfold accMid scopedWith; (try dsimp only)
      rw [PhiS1_castSucc V c t, PhiS1_pos V c _ _ hz]; unfold scopedWith
      iintro ⟨⟨⟨A0, A1, A2, A3, A4, A5, A6, HS⟩, Hg⟩, Ho, ⟨%d0, H0⟩, ⟨%d1, H1⟩, ⟨%d2, H2⟩, ⟨%d3, H3⟩, ⟨%d4, H4⟩⟩
      iapply ((slabMidRun c (grid1.coords t) _ _ _ _ _ _ _ _ _ _ _ _ (fun h => h0 ((isFirstSlab_iff t).mp h)) (fun h => h3 ((isLastSlab_iff t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [A0 A1 A2 A3 A4 A5 A6 HS Hg]
      · isplitl [A0 A1 A2 A3 A4 A5 A6 HS]
        · isplitl [A0]; · iexact A0
          isplitl [A1]; · iexact A1
          isplitl [A2]; · iexact A2
          isplitl [A3]; · iexact A3
          isplitl [A4]; · iexact A4
          isplitl [A5]; · iexact A5
          isplitl [A6]; · iexact A6
          unfold owns; iexists _; isplitr
          swap; · iexact HS
          ipureintro; exact View.read_writes_of_cover _ _ _ _ _ (accCoverMid c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- What the launch hands the pipeline is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives it back, the accumulator's contents forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_scopedWith]
  unfold scopedWith
  iintro ⟨⟨A0, A1, A2, A3, A4, A5, A6, HS⟩, Hg⟩
  isplitl [A0 A1 A2 A3 A4 A5 A6 HS]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexists _; iexact HS
  iexact Hg

theorem hout1 (c : Dev nD) : (dat1 V c).Φ (Fin.last cfg1.N) ⊢ Pipeline.ΦA spec1 c :=
  Phi1_out V c _ (by rw [Fin.val_last]; have : cfg1.N = 32 := N_1; omega)

end Cert.Kernel.Hand

end
-- ==== Proof.K.AccShare.lean ====
/-
  Two windows of the second matrix product read one array, hs.  The pipeline's proof data holds every window's array
  at a share of its own, so the buffer's full points-to is dealt between the two windows in two halves at the
  pipeline's entry, and the halves are joined again at its exit (both windows being inputs, the array holds the same
  contents throughout).  The other three arrays pass at the full share.
-/
import proofs.«162846_j38070590112568_1_alg».proof.Proof.K.Acc
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

/-- The distinct buffers behind the five windows, one by one. -/
theorem bigSep_arrs1 {M : Type} [URA M] (Φ : Ref sig .tc → sProp M) :
    bigSep (Finset.univ.image (Pipeline.arrRef spec1)) Φ = iprop(Φ main_v27 ∗ Φ main_v30 ∗ Φ main_v12 ∗ Φ main_v31) :=
  Idealize.SL.BI.bigSep_eq_bigSepL_of_eq [main_v27, main_v30, main_v12, main_v31] (by decide) (by decide) Φ

/-- Those buffers, each whole at the full share at contents V'. -/
theorem arrBufs1_form (V' : (b : Ref sig .tc) → Buf (Elt F) ((c : Thread nD τ).loc b)) :
    (Pipeline.arrBufs spec1 c V' : sProp 𝕄)
      = iprop((((c : Thread nD τ).loc main_v27) ↦{fullShare} V' main_v27) ∗ (((c : Thread nD τ).loc main_v30) ↦{fullShare} V' main_v30)
          ∗ (((c : Thread nD τ).loc main_v12) ↦{fullShare} V' main_v12) ∗ (((c : Thread nD τ).loc main_v31) ↦{fullShare} V' main_v31)) := by
  unfold Pipeline.arrBufs
  exact bigSep_arrs1 _

/-- The windows' arrays, window by window: each array is a whole buffer. -/
theorem arrays1_form (dat : Dat τ (Elt F) Unit ℕ (UR sig nD τ) ℕ cfg1 c)
    (G : (w : Fin cfg1.W) → Buf (Elt F) ((cfg1.win w).arr.view.loc (c : Thread nD τ))) :
    (dat.arrays G : sProp 𝕄)
      = iprop((((c : Thread nD τ).loc (Pipeline.arrRef spec1 0)) ↦{dat.share 0} G 0) ∗ (((c : Thread nD τ).loc (Pipeline.arrRef spec1 1)) ↦{dat.share 1} G 1)
          ∗ (((c : Thread nD τ).loc (Pipeline.arrRef spec1 2)) ↦{dat.share 2} G 2) ∗ (((c : Thread nD τ).loc (Pipeline.arrRef spec1 3)) ↦{dat.share 3} G 3)
          ∗ (((c : Thread nD τ).loc (Pipeline.arrRef spec1 4)) ↦{dat.share 4} G 4)) := by
  unfold Dat.arrays
  refine Eq.trans (bigSep_congr fun w _ => ?_) (bigSep_W1 fun w => (((c : Thread nD τ).loc (Pipeline.arrRef spec1 w)) ↦{dat.share w} G w : sProp 𝕄))
  rw [(arr_whole1 w).set_eq_univ]

variable (V : (c : Dev nD) → (b : Ref sig .tc) → Buf (Elt F) ((c : Thread nD τ).loc b))

theorem share1_0 : (dat1 V c).share 0 = fullShare := rfl
theorem share1_1 : (dat1 V c).share 1 = fullShare.left := rfl
theorem share1_2 : (dat1 V c).share 2 = fullShare.right := rfl
theorem share1_3 : (dat1 V c).share 3 = fullShare := rfl
theorem share1_4 : (dat1 V c).share 4 = fullShare := rfl

/-- Entry: the buffers at V', hs dealt in two halves, are the windows' arrays at V'. -/
theorem deal1 (V' : (b : Ref sig .tc) → Buf (Elt F) ((c : Thread nD τ).loc b)) :
    (Pipeline.arrBufs spec1 c V' : sProp 𝕄) ⊢ (dat1 V c).arrays (fun w => V' (Pipeline.arrRef spec1 w)) := by
  refine BIBase.Entails.trans (Entails.of_eq (arrBufs1_form c V')) (BIBase.Entails.trans ?_ (Entails.of_eq (arrays1_form c (dat1 V c) _).symm))
  rw [share1_0, share1_1, share1_2, share1_3, share1_4]
  iintro ⟨HB, HH, HD, HO⟩
  ihave HH2 := (pointsTo_share (PosShare.mem_left_op_right fullShare)).1 $$ HH
  icases HH2 with ⟨HHl, HHr⟩
  isplitl [HB]; · iexact HB
  isplitl [HHl]; · iexact HHl
  isplitl [HHr]; · iexact HHr
  isplitl [HD]; · iexact HD
  iexact HO

/-- Exit: the two halves of hs, both at V', are joined again. -/
theorem gather1 (V' : (b : Ref sig .tc) → Buf (Elt F) ((c : Thread nD τ).loc b)) :
    (dat1 V c).arrays (fun w => V' (Pipeline.arrRef spec1 w)) ⊢ (Pipeline.arrBufs spec1 c V' : sProp 𝕄) := by
  refine BIBase.Entails.trans (Entails.of_eq (arrays1_form c (dat1 V c) _)) (BIBase.Entails.trans ?_ (Entails.of_eq (arrBufs1_form c V').symm))
  rw [share1_0, share1_1, share1_2, share1_3, share1_4]
  iintro ⟨HB, HHl, HHr, HD, HO⟩
  isplitl [HB]; · iexact HB
  isplitl [HHl HHr]
  · iapply (pointsTo_share (PosShare.mem_left_op_right fullShare)).2
    isplitl [HHl]; · iexact HHl
    iexact HHr
  isplitl [HD]; · iexact HD
  iexact HO

end Cert.Kernel.Hand

end
-- ==== Proof.K.Run.lean ====
/-
  The whole program as three segments — the host stretch, the first matrix product, the second — and what every
  unscoped buffer holds at the end.

  Buffer contents at the segment boundaries: W0 at launch; W1 after the host operations; W2 after the first product
  (its result array at what its write-backs leave, everything else as before); W3 after the second (the result array
  of the program likewise).  The first product's windows name four distinct arrays.  The second's name hs twice: at
  its entry the buffer's full points-to is dealt in two halves to the two windows, at its exit the halves, both still
  at the entry contents, are joined again.  Nothing is owed at any boundary; the generator register rides along.
-/
import proofs.«162846_j38070590112568_1_alg».proof.Proof.K.Region0
import proofs.«162846_j38070590112568_1_alg».proof.Proof.K.AccShare
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Contents at the boundaries -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second product: its result array at what the write-backs leave, every other buffer as before. -/
def W3 (c : Dev nD) : Valuation τ sig (Elt F) :=
  Function.update (W2 m ρ c) (Proc.devRef .tc main_v31) ((dat1 (V2 m ρ) c).arrAt 4 cfg1.N)
abbrev V3 : (c : Dev nD) → (b : Ref sig .tc) → Buf (Elt F) ((c : Thread nD τ).loc b) := fun c b => W3 m ρ c b
theorem W3_out (c : Dev nD) : W3 m ρ c (Proc.devRef .tc main_v31) = (dat1 (V2 m ρ) c).arrAt 4 cfg1.N := by
  unfold W3; exact Function.update_self ..
theorem W3_of_ne (c : Dev nD) (b : Ref sig .tc) (hb : b ≠ main_v31) :
    W3 m ρ c (Proc.devRef .tc b) = W2 m ρ c (Proc.devRef .tc b) := by
  unfold W3; exact Function.update_of_ne (StableHlo.devRef_ne_of_ne hb) ..

/-- At the second product's entry its arrays hold the boundary's contents. -/
theorem entry1 (c : Dev nD) :
    ((dat1 (V2 m ρ) c).arrAt · 0) = fun w => V2 m ρ c (Pipeline.arrRef spec1 w) :=
  funext fun w => A_eq1 (V2 m ρ) c w

/-- At its exit: the inputs as entered, the result array at what the write-backs leave. -/
theorem exit1 (c : Dev nD) :
    ((dat1 (V2 m ρ) c).arrAt · cfg1.N) = fun w => V3 m ρ c (Pipeline.arrRef spec1 w) :=
  funext fun w => match w with
    | ⟨0, _⟩ => ((dat1 (V2 m ρ) c).arrAt_in 0 rfl _).trans ((A_eq1 (V2 m ρ) c 0).trans (W3_of_ne m ρ c main_v27 (by decide)).symm)
    | ⟨1, _⟩ => ((dat1 (V2 m ρ) c).arrAt_in 1 rfl _).trans ((A_eq1 (V2 m ρ) c 1).trans (W3_of_ne m ρ c main_v30 (by decide)).symm)
    | ⟨2, _⟩ => ((dat1 (V2 m ρ) c).arrAt_in 2 rfl _).trans ((A_eq1 (V2 m ρ) c 2).trans (W3_of_ne m ρ c main_v30 (by decide)).symm)
    | ⟨3, _⟩ => ((dat1 (V2 m ρ) c).arrAt_in 3 rfl _).trans ((A_eq1 (V2 m ρ) c 3).trans (W3_of_ne m ρ c main_v12 (by decide)).symm)
    | ⟨4, _⟩ => (W3_out m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨4, Finset.mem_univ _, e.symm⟩)

/-! ## The arguments end as launched -/

theorem hostOps0_fresh : (hostOps0 : List (HloOp τ sig (Elt F))).Forall fun op => op.fresh = ∅ := by
  simp only [List.Forall]; repeat' constructor

theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W3_main_arg0 (c : Dev nD) : W3 m ρ c (Proc.devRef .tc main_arg0) = m ((c : Thread nD τ).loc main_arg0) :=
  (W3_of_ne m ρ c main_arg0 (by decide)).trans ((W2_of_ne m ρ c main_arg0 (by decide)).trans (W1_main_arg0 m ρ c))

theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W3_main_arg1 (c : Dev nD) : W3 m ρ c (Proc.devRef .tc main_arg1) = m ((c : Thread nD τ).loc main_arg1) :=
  (W3_of_ne m ρ c main_arg1 (by decide)).trans ((W2_of_ne m ρ c main_arg1 (by decide)).trans (W1_main_arg1 m ρ c))

theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W3_main_arg2 (c : Dev nD) : W3 m ρ c (Proc.devRef .tc main_arg2) = m ((c : Thread nD τ).loc main_arg2) :=
  (W3_of_ne m ρ c main_arg2 (by decide)).trans ((W2_of_ne m ρ c main_arg2 (by decide)).trans (W1_main_arg2 m ρ c))

theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W3_main_arg3 (c : Dev nD) : W3 m ρ c (Proc.devRef .tc main_arg3) = m ((c : Thread nD τ).loc main_arg3) :=
  (W3_of_ne m ρ c main_arg3 (by decide)).trans ((W2_of_ne m ρ c main_arg3 (by decide)).trans (W1_main_arg3 m ρ c))

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The two products as segments -/

set_option backward.isDefEq.respectTransparency.types false in
/-- The first product: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second product: entered from every unscoped buffer at W2, left at W3.  Its arrays come out of the unscoped
    buffers with hs dealt in two halves, and go back with the halves joined. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄)
        ⊢ iprop((dat1 (V2 m ρ) c).arrays ((dat1 (V2 m ρ) c).arrAt · 0) ∗ Pipeline.unscopedRest spec1 c (V2 m ρ c)) := by
      rw [Pipeline.unscopedBufs_split₀ cfgs 1 winFacts₀1.arr_unscoped c (V2 m ρ c), entry1 m ρ c]
      exact sep_mono (deal1 c (V2 m ρ) (V2 m ρ c)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin : iprop((dat1 (V2 m ρ) c).arrays ((dat1 (V2 m ρ) c).arrAt · cfg1.N) ∗ Pipeline.unscopedRest spec1 c (V2 m ρ c))
        ⊢ (unscopedBufs c (V3 m ρ c) : sProp 𝕄) := by
      rw [Pipeline.unscopedBufs_split₀ cfgs 1 winFacts₀1.arr_unscoped c (V3 m ρ c), exit1 m ρ c]
      refine sep_mono (gather1 c (V2 m ρ) (V3 m ρ c)) (Entails.of_eq ?_)
      unfold Pipeline.unscopedRest
      exact bigSep_congr fun b hb => by rw [hrest1 m ρ c b (Finset.mem_sdiff.mp hb).2]
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution terminates, nothing faulting, and every unscoped
    buffer of every core ends at W3. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W3 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c b hb => h c _ (mem_uc b hb))

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c main_arg0 (by decide)).trans (W3_main_arg0 m ρ c),
     (h c main_arg1 (by decide)).trans (W3_main_arg1 m ρ c),
     (h c main_arg2 (by decide)).trans (W3_main_arg2 m ρ c),
     (h c main_arg3 (by decide)).trans (W3_main_arg3 m ρ c)⟩) (run_all m ρ)

/-- The same run with the program's result named: what the second product's write-backs leave. -/
theorem run_result : θ_run defs (onTc (τ := τ) (main (F := F))) ⟨m, fun _ => 0, ρ⟩ (fun r => ∀ c : Dev nD,
      r.2.mem ((c.tc : Thread nD τ).loc main_v31) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c main_v31 (by decide)).trans (W3_out m ρ c),
     (h c main_arg0 (by decide)).trans (W3_main_arg0 m ρ c),
     (h c main_arg1 (by decide)).trans (W3_main_arg1 m ρ c),
     (h c main_arg2 (by decide)).trans (W3_main_arg2 m ρ c),
     (h c main_arg3 (by decide)).trans (W3_main_arg3 m ρ c)⟩) (run_all m ρ)

end Cert.Kernel.Hand

end
-- ==== Proof.KI.Region0.lean ====
/- The first TensorCore region of the kernel program (custom_call 0, `cc0__mm1_kernel`, pipeline 0), at a PARAMETER
   `V` — the TensorCore's buffer contents when the region is entered —: each window's block at a point (`iblk0`),
   what the body leaves in the output window's buffer as a function of the three input blocks (`out0_3`), the body's
   triple (`sound_kernel0`), the pipeline's proof data (`dat0`) and the body obligation (`body_obligation0`).
   Mathematically: at grid point `t` the body reads a [1024,512] block `x0` of the first operand, the whole
   [256,512] second operand `x1` and a [1024,1] column block `x2`, and stores into the [1024,256] output block the
   value of its one payload `k0_pay1 x0 x1 x2` (the product of `x0` by the transpose of `x1`, each row scaled by
   the entry of `x2` of that row). Stated at any float interpretation `F`. -/
import proofs.«162846_j38070590112568_1_alg».proof.Proof.Gen.KernelIdeal.Launch
import proofs.«162846_j38070590112568_1_alg».proof.Proof.Gen.KernelIdeal.Skeleton
import proofs.«162846_j38070590112568_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents (`View.cover_of_tiled`): the elaborator's structural look
-- recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 0 of @main: custom_call 0, `cc0__mm1_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the whole second operand: its block index is constant, so it is fetched at the first point only and
    every later point finds the block where the first fetch put it): the same statement by the same lemma. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2: as window 0. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x512 := Rect.unit (s := S1024x512) ![0, 0] S1024x512.size inb_S1024x512_S1024x512_0_0
abbrev r0_1 : Rect S256x512 := Rect.unit (s := S256x512) ![0, 0] S256x512.size inb_S256x512_S256x512_0_0
abbrev r0_2 : Rect S1024x1 := Rect.unit (s := S1024x1) ![0, 0] S1024x1.size inb_S1024x1_S1024x1_0_0
abbrev r0_3 : Rect S1024x256 := Rect.unit (s := S1024x256) ![0, 0] S1024x256.size inb_S1024x256_S1024x256_0_0

/-! ## What the body leaves in the output window's buffer -/

/-- Window 3's staging buffer after the body, from the input windows' blocks: its 1 store as pieces
    (`View.canon`; the payload is the skeleton's). -/
def out0_3 (x0 : Vec F S1024x512 .bf16) (x1 : Vec F S256x512 .bf16) (x2 : Vec F S1024x1 .f32) : Vec F S1024x256 .f32 :=
  View.canon [⟨r0_3, k0_pay1 (View.ld x0 r0_0) (View.ld x1 r0_1) (View.ld x2 r0_2)⟩]

/-- Its store tiles the buffer (checked by evaluation), so it covers it. -/
theorem cover0_3 (p0 : Vec F S1024x256 .f32) (y : S1024x256.Idx) :
    ∃ pc ∈ ([⟨r0_3, p0⟩] : List (View.Piece (Elt F) S1024x256 .f32)), y ∈ pc.1.set :=
  View.cover_of_tiled [⟨r0_3, p0⟩] S1024x256.size (by rfl) y

/-! ## The body's triple -/

set_option maxHeartbeats 1000000 in
/-- The kernel body on whole staging memrefs, the inputs' at read contents `xW` and the output's at anything, runs to
    the continuation holding the inputs' as they were and the output's at `out0_3` of the inputs': the printed function
    is its skeleton, which `sl_exec` runs (the body's one load of the output memref reads a value nothing uses). -/
theorem sound_kernel0 (c : Dev nD) (E : Set ℕ) (i : grid0.Coords)
    (arg1 : Memref sig .tc .vmem S1024x512 .bf16) (harg1 : arg1.IsWhole) (arg2 : Memref sig .tc .vmem S256x512 .bf16) (harg2 : arg2.IsWhole)
    (arg3 : Memref sig .tc .vmem S1024x1 .f32) (harg3 : arg3.IsWhole) (arg4 : Memref sig .tc .vmem S1024x256 .f32) (harg4 : arg4.IsWhole)
    (x0 : Vec F S1024x512 .bf16) (x1 : Vec F S256x512 .bf16) (x2 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__mm1_kernel i arg1 harg1 arg2 harg2 arg3 harg3 arg4 harg4) K := by
  simp only [cc0__mm1_kernel_eq_skeleton]; unfold cc0__mm1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the proof data's definition projected, by `dsimp`). -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI.AccSetup.lean ====
/-
  The second matrix product, B·hs accumulated over four column slabs of B: what every grid point of its pipeline shares.

  The grid is 8 row blocks by 4 slabs; point t is row block t / 4, slab t % 4.  The accumulator (a scratch buffer the
  kernel keeps between points) is zeroed at slab 0, gains one slab's product at every point, and at slab 3 the row
  block of the result, (accumulator + hs) scaled row by row, is stored.  This module fixes, for buffer contents V at the
  pipeline's entry: each window's block at a point, that an input window's staging buffer holds its block at every
  point whether or not it was fetched there, the two branch conditions in closed form over the grid, where the output
  window is idle, and the names of the staging and scratch buffers the body is called with.
-/
import proofs.«162846_j38070590112568_1_alg».proof.Proof.Gen.KernelIdeal.Launch
import proofs.«162846_j38070590112568_1_alg».proof.Proof.Gen.KernelIdeal.Skeleton
import proofs.«162846_j38070590112568_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- Window w's block at point t, read off its array as the pipeline finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window whose body leaves its block in place holds that block at every point: where it is not fetched its
    block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, over the grid -/

/-- "This is slab 0": the body zeroes the accumulator. -/
abbrev isFirstSlab (i : grid1.Coords) : Prop := (Scalar.cmpi .ne (Scalar.extui (Scalar.cmpi .eq (BitVec.ofNat 32 (i 1).val) 0#32)) 0#32) = 1#1
theorem isFirstSlab_iff : ∀ t : Fin cfg1.N, isFirstSlab (grid1.coords t) ↔ t.val % 4 = 0 :=
  (by decide +kernel : ∀ t : Fin grid1.N, isFirstSlab (grid1.coords t) ↔ t.val % 4 = 0)

/-- "This is slab 3": the body stores the row block of the result. -/
abbrev isLastSlab (i : grid1.Coords) : Prop := k1_cond2 i = 1#1
theorem isLastSlab_iff : ∀ t : Fin cfg1.N, isLastSlab (grid1.coords t) ↔ t.val % 4 = 3 :=
  (by decide +kernel : ∀ t : Fin grid1.N, isLastSlab (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
/-- Off slab 3 the output window is idle and its block is not written back. -/
theorem idle1_4 : ∀ t : Fin cfg1.N, ¬isLastSlab (grid1.coords t) → cfg1.idle 4 (grid1.coords t) = true := by decide +kernel
theorem noFlush1_4 : ∀ t : Fin cfg1.N, ¬isLastSlab (grid1.coords t) → (cfg1.win 4).flush t = false := by decide +kernel
/-- At slab 3 it is live. -/
theorem live1_4 : ∀ t : Fin cfg1.N, isLastSlab (grid1.coords t) → cfg1.idle 4 (grid1.coords t) = false := by decide +kernel

/-! ## The buffers the body is called with -/

abbrev outView : View sig .tc .vmem S1024x256 .f32 := (Memref.whole cc1_stg4_0 : Memref sig .tc .vmem S1024x256 .f32).view
abbrev mB (t : Fin cfg1.N) : Memref sig .tc .vmem S1024x2048 .f32 := win1_0.stage (cfg1.slots t 0)
abbrev hmB (t : Fin cfg1.N) : (mB t).IsWhole := hstage1_0 ((cfg1.slots t 0).cast nbuf1_0)
abbrev mHk (t : Fin cfg1.N) : Memref sig .tc .vmem S2048x256 .f32 := win1_1.stage (cfg1.slots t 1)
abbrev hmHk (t : Fin cfg1.N) : (mHk t).IsWhole := hstage1_1 ((cfg1.slots t 1).cast nbuf1_1)
abbrev mHi (t : Fin cfg1.N) : Memref sig .tc .vmem S1024x256 .f32 := win1_2.stage (cfg1.slots t 2)
abbrev hmHi (t : Fin cfg1.N) : (mHi t).IsWhole := hstage1_2 ((cfg1.slots t 2).cast nbuf1_2)
abbrev mD (t : Fin cfg1.N) : Memref sig .tc .vmem S1024x1 .f32 := win1_3.stage (cfg1.slots t 3)
abbrev hmD (t : Fin cfg1.N) : (mD t).IsWhole := hstage1_3 ((cfg1.slots t 3).cast nbuf1_3)
abbrev mO (t : Fin cfg1.N) : Memref sig .tc .vmem S1024x256 .f32 := win1_4.stage (cfg1.slots t 4)
abbrev hmO (t : Fin cfg1.N) : (mO t).IsWhole := hstage1_4 ((cfg1.slots t 4).cast nbuf1_4)
/-- The accumulator. -/
abbrev accM : Memref sig .tc .vmem S1024x256 .f32 := Memref.whole cc1_scratch0
abbrev accView : View sig .tc .vmem S1024x256 .f32 := accM.view

/-- The pipeline's invariant with the accumulator owned at some contents. -/
theorem PhiA1_eq (c : Dev nD) :
    (Pipeline.ΦA spec1 c : sProp 𝕄)
      = iprop(iprop((∃ d0, owns (c : Thread nD τ) (Memref.whole cc0_stg0_0) fullShare d0) ∗ (∃ d1, owns (c : Thread nD τ) (Memref.whole cc0_stg0_1) fullShare d1) ∗ (∃ d2, owns (c : Thread nD τ) (Memref.whole cc0_stg1_0) fullShare d2) ∗ (∃ d3, owns (c : Thread nD τ) (Memref.whole cc0_stg2_0) fullShare d3) ∗ (∃ d4, owns (c : Thread nD τ) (Memref.whole cc0_stg2_1) fullShare d4) ∗ (∃ d5, owns (c : Thread nD τ) (Memref.whole cc0_stg3_0) fullShare d5) ∗ (∃ d6, owns (c : Thread nD τ) (Memref.whole cc0_stg3_1) fullShare d6) ∗ (∃ d, owns (c : Thread nD τ) accM fullShare d)) ∗ (∃ r, prngReg c r)) := by
  unfold Pipeline.ΦA; rw [scopedRest1_eq]; simp only [accM, owns_whole]; try rfl

end Cert.KernelIdeal.Hand

end
-- ==== Proof.KI.AccRunFirst.lean ====
/-
  The body at a point of slab 0 (not the last slab): the accumulator is zeroed and gains the slab's product; nothing is stored into the output's block, which comes back as it was handed over.
-/
import proofs.«162846_j38070590112568_1_alg».proof.Proof.KI.AccSetup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging buffer and in the accumulator at such a point (last
    store first), with the body's triple on whole staging buffers: the four inputs at their contents come back
    unchanged, and each stored buffer comes back with its pieces written. -/
noncomputable def slabFirstRun (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : isFirstSlab i) (hlast : ¬isLastSlab i)
    (x0 : Vec F S1024x2048 .f32) (x1 : Vec F S2048x256 .f32) (x2 : Vec F S1024x256 .f32) (x3 : Vec F S1024x1 .f32) :
    Σ' (LO : List (View.Piece (Elt F) S1024x256 .f32)), { LAcc : List (View.Piece (Elt F) S1024x256 .f32) //
      ∀ (xi : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LAcc)) -∗ K ⟨⟩))
          ⊢ wp frame (wpE (defs₀ (F := F)) Variants.none c none) E (cc1__mm2_kernel i arg2 harg2 arg3 harg3 arg4 harg4 arg5 harg5 arg6 harg6 arg7 harg7) K } := by
  refine ⟨[], ?_, fun xi E K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.KI.AccRunMid.lean ====
/-
  The body at a point of slab 1 or 2: the accumulator, at what the point before left, gains the slab's product; nothing is stored into the output's block, which comes back as it was handed over.
-/
import proofs.«162846_j38070590112568_1_alg».proof.Proof.KI.AccSetup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging buffer and in the accumulator at such a point (last
    store first), with the body's triple on whole staging buffers: the four inputs at their contents come back
    unchanged, and each stored buffer comes back with its pieces written. -/
noncomputable def slabMidRun (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : ¬isFirstSlab i) (hlast : ¬isLastSlab i)
    (x0 : Vec F S1024x2048 .f32) (x1 : Vec F S2048x256 .f32) (x2 : Vec F S1024x256 .f32) (x3 : Vec F S1024x1 .f32) (acc : Vec F S1024x256 .f32) :
    Σ' (LO : List (View.Piece (Elt F) S1024x256 .f32)), { LAcc : List (View.Piece (Elt F) S1024x256 .f32) //
      ∀ (xi : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare acc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LAcc)) -∗ K ⟨⟩))
          ⊢ wp frame (wpE (defs₀ (F := F)) Variants.none c none) E (cc1__mm2_kernel i arg2 harg2 arg3 harg3 arg4 harg4 arg5 harg5 arg6 harg6 arg7 harg7) K } := by
  refine ⟨[], ?_, fun xi E K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.KI.AccRunLast.lean ====
/-
  The body at a point of slab 3: the accumulator, at what the point before left, gains the last slab's product, and the row block of the result, (accumulator + hs) scaled row by row, is stored into the output's block.
-/
import proofs.«162846_j38070590112568_1_alg».proof.Proof.KI.AccSetup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging buffer and in the accumulator at such a point (last
    store first), with the body's triple on whole staging buffers: the four inputs at their contents come back
    unchanged, and each stored buffer comes back with its pieces written. -/
noncomputable def slabLastRun (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : ¬isFirstSlab i) (hlast : isLastSlab i)
    (x0 : Vec F S1024x2048 .f32) (x1 : Vec F S2048x256 .f32) (x2 : Vec F S1024x256 .f32) (x3 : Vec F S1024x1 .f32) (acc : Vec F S1024x256 .f32) :
    Σ' (LO : List (View.Piece (Elt F) S1024x256 .f32)), { LAcc : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare acc
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LAcc)) -∗ K ⟨⟩))
          ⊢ wp frame (wpE (defs₀ (F := F)) Variants.none c none) E (cc1__mm2_kernel i arg2 harg2 arg3 harg3 arg4 harg4 arg5 harg5 arg6 harg6 arg7 harg7) K } := by
  refine ⟨?_, ?_, fun E K => ?run⟩
  case run =>
    simp only [cc1__mm2_kernel_eq_skeleton]; unfold cc1__mm2_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Hand

end
-- ==== Proof.KI.Acc.lean ====
/-
  The second matrix product over its 32 grid points: what the output's block and the accumulator hold after each
  point, and the pipeline's proof data.

  After point t the accumulator holds the sum of the products of slabs 0 … t % 4 of row block t / 4 (from zero at slab
  0), as the three cases of the body leave it; the output's block holds (accumulator + hs block) scaled by the dinv
  column at slab 3 and is not consulted elsewhere.  Both are defined by recursion on the point through the cases'
  runs.  The two windows that read the array hs hold it at the two halves of the full share.
-/
import proofs.«162846_j38070590112568_1_alg».proof.Proof.KI.AccRunFirst
import proofs.«162846_j38070590112568_1_alg».proof.Proof.KI.AccRunMid
import proofs.«162846_j38070590112568_1_alg».proof.Proof.KI.AccRunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The output's block after such a point: the run's pieces for it read back over unnamed contents. -/
def outFirst (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : isFirstSlab i) (hlast : ¬isLastSlab i)
    (x0 : Vec F S1024x2048 .f32) (x1 : Vec F S2048x256 .f32) (x2 : Vec F S1024x256 .f32) (x3 : Vec F S1024x1 .f32) : Vec F S1024x256 .f32 :=
  outView.read (Elt F) (outView.writes (Elt F) outView.junk (slabFirstRun c i arg2 harg2 arg3 harg3 arg4 harg4 arg5 harg5 arg6 harg6 arg7 harg7 hfirst hlast x0 x1 x2 x3).1)
/-- The run's pieces for the accumulator tile it. -/
theorem accCoverFirst (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : isFirstSlab i) (hlast : ¬isLastSlab i)
    (x0 : Vec F S1024x2048 .f32) (x1 : Vec F S2048x256 .f32) (x2 : Vec F S1024x256 .f32) (x3 : Vec F S1024x1 .f32) (y : S1024x256.Idx) :
    ∃ pc ∈ (slabFirstRun c i arg2 harg2 arg3 harg3 arg4 harg4 arg5 harg5 arg6 harg6 arg7 harg7 hfirst hlast x0 x1 x2 x3).2.1, y ∈ pc.1.set :=
  View.cover_of_tiledL (slabFirstRun c i arg2 harg2 arg3 harg3 arg4 harg4 arg5 harg5 arg6 harg6 arg7 harg7 hfirst hlast x0 x1 x2 x3).2.1 S1024x256.size (by sl_kernel_rfl) y
/-- The accumulator after such a point: its pieces read back. -/
def accFirst (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : isFirstSlab i) (hlast : ¬isLastSlab i)
    (x0 : Vec F S1024x2048 .f32) (x1 : Vec F S2048x256 .f32) (x2 : Vec F S1024x256 .f32) (x3 : Vec F S1024x1 .f32) : Vec F S1024x256 .f32 :=
  accView.read (Elt F) (accView.writes (Elt F) accView.junk (slabFirstRun c i arg2 harg2 arg3 harg3 arg4 harg4 arg5 harg5 arg6 harg6 arg7 harg7 hfirst hlast x0 x1 x2 x3).2.1)

/-- The output's block after such a point: the run's pieces for it read back over unnamed contents. -/
def outMid (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : ¬isFirstSlab i) (hlast : ¬isLastSlab i)
    (x0 : Vec F S1024x2048 .f32) (x1 : Vec F S2048x256 .f32) (x2 : Vec F S1024x256 .f32) (x3 : Vec F S1024x1 .f32) (acc : Vec F S1024x256 .f32) : Vec F S1024x256 .f32 :=
  outView.read (Elt F) (outView.writes (Elt F) outView.junk (slabMidRun c i arg2 harg2 arg3 harg3 arg4 harg4 arg5 harg5 arg6 harg6 arg7 harg7 hfirst hlast x0 x1 x2 x3 acc).1)
/-- The run's pieces for the accumulator tile it. -/
theorem accCoverMid (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : ¬isFirstSlab i) (hlast : ¬isLastSlab i)
    (x0 : Vec F S1024x2048 .f32) (x1 : Vec F S2048x256 .f32) (x2 : Vec F S1024x256 .f32) (x3 : Vec F S1024x1 .f32) (acc : Vec F S1024x256 .f32) (y : S1024x256.Idx) :
    ∃ pc ∈ (slabMidRun c i arg2 harg2 arg3 harg3 arg4 harg4 arg5 harg5 arg6 harg6 arg7 harg7 hfirst hlast x0 x1 x2 x3 acc).2.1, y ∈ pc.1.set :=
  View.cover_of_tiledL (slabMidRun c i arg2 harg2 arg3 harg3 arg4 harg4 arg5 harg5 arg6 harg6 arg7 harg7 hfirst hlast x0 x1 x2 x3 acc).2.1 S1024x256.size (by sl_kernel_rfl) y
/-- The accumulator after such a point: its pieces read back. -/
def accMid (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : ¬isFirstSlab i) (hlast : ¬isLastSlab i)
    (x0 : Vec F S1024x2048 .f32) (x1 : Vec F S2048x256 .f32) (x2 : Vec F S1024x256 .f32) (x3 : Vec F S1024x1 .f32) (acc : Vec F S1024x256 .f32) : Vec F S1024x256 .f32 :=
  accView.read (Elt F) (accView.writes (Elt F) accView.junk (slabMidRun c i arg2 harg2 arg3 harg3 arg4 harg4 arg5 harg5 arg6 harg6 arg7 harg7 hfirst hlast x0 x1 x2 x3 acc).2.1)

/-- The output's block after such a point: the run's pieces for it read back over unnamed contents. -/
def outLast (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : ¬isFirstSlab i) (hlast : isLastSlab i)
    (x0 : Vec F S1024x2048 .f32) (x1 : Vec F S2048x256 .f32) (x2 : Vec F S1024x256 .f32) (x3 : Vec F S1024x1 .f32) (acc : Vec F S1024x256 .f32) : Vec F S1024x256 .f32 :=
  outView.read (Elt F) (outView.writes (Elt F) outView.junk (slabLastRun c i arg2 harg2 arg3 harg3 arg4 harg4 arg5 harg5 arg6 harg6 arg7 harg7 hfirst hlast x0 x1 x2 x3 acc).1)
/-- The run's pieces for the accumulator tile it. -/
theorem accCoverLast (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : ¬isFirstSlab i) (hlast : isLastSlab i)
    (x0 : Vec F S1024x2048 .f32) (x1 : Vec F S2048x256 .f32) (x2 : Vec F S1024x256 .f32) (x3 : Vec F S1024x1 .f32) (acc : Vec F S1024x256 .f32) (y : S1024x256.Idx) :
    ∃ pc ∈ (slabLastRun c i arg2 harg2 arg3 harg3 arg4 harg4 arg5 harg5 arg6 harg6 arg7 harg7 hfirst hlast x0 x1 x2 x3 acc).2.1, y ∈ pc.1.set :=
  View.cover_of_tiledL (slabLastRun c i arg2 harg2 arg3 harg3 arg4 harg4 arg5 harg5 arg6 harg6 arg7 harg7 hfirst hlast x0 x1 x2 x3 acc).2.1 S1024x256.size (by sl_kernel_rfl) y
/-- The accumulator after such a point: its pieces read back. -/
def accLast (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : ¬isFirstSlab i) (hlast : isLastSlab i)
    (x0 : Vec F S1024x2048 .f32) (x1 : Vec F S2048x256 .f32) (x2 : Vec F S1024x256 .f32) (x3 : Vec F S1024x1 .f32) (acc : Vec F S1024x256 .f32) : Vec F S1024x256 .f32 :=
  accView.read (Elt F) (accView.writes (Elt F) accView.junk (slabLastRun c i arg2 harg2 arg3 harg3 arg4 harg4 arg5 harg5 arg6 harg6 arg7 harg7 hfirst hlast x0 x1 x2 x3 acc).2.1)
/-- At slab 3 the run's pieces for the output tile its block. -/
theorem outCoverLast (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : ¬isFirstSlab i) (hlast : isLastSlab i)
    (x0 : Vec F S1024x2048 .f32) (x1 : Vec F S2048x256 .f32) (x2 : Vec F S1024x256 .f32) (x3 : Vec F S1024x1 .f32) (acc : Vec F S1024x256 .f32) (y : S1024x256.Idx) :
    ∃ pc ∈ (slabLastRun c i arg2 harg2 arg3 harg3 arg4 harg4 arg5 harg5 arg6 harg6 arg7 harg7 hfirst hlast x0 x1 x2 x3 acc).1, y ∈ pc.1.set :=
  View.cover_of_tiledL (slabLastRun c i arg2 harg2 arg3 harg3 arg4 harg4 arg5 harg5 arg6 harg6 arg7 harg7 hfirst hlast x0 x1 x2 x3 acc).1 S1024x256.size (by sl_kernel_rfl) y

variable (V : (c : Dev nD) → (b : Ref sig .tc) → Buf (Elt F) ((c : Thread nD τ).loc b))

/-! ## Point by point -/

/-- What the output's block and the accumulator hold after point n: the case of n, run on the point's blocks, over
    the accumulator as point n - 1 left it. -/
def outsAt1 (c : Dev nD) : (n : ℕ) → n < cfg1.N → Vec F S1024x256 .f32 × Vec F S1024x256 .f32
  | 0, hn => (outFirst c (grid1.coords ⟨0, hn⟩) (mB ⟨0, hn⟩) (hmB ⟨0, hn⟩) (mHk ⟨0, hn⟩) (hmHk ⟨0, hn⟩) (mHi ⟨0, hn⟩) (hmHi ⟨0, hn⟩) (mD ⟨0, hn⟩) (hmD ⟨0, hn⟩) (mO ⟨0, hn⟩) (hmO ⟨0, hn⟩) accM (Memref.isWhole_whole _) ((isFirstSlab_iff ⟨0, hn⟩).mpr (Nat.zero_mod _)) (fun h => (fun h => by (try dsimp only at h); omega) ((isLastSlab_iff ⟨0, hn⟩).mp h)) (iblk1 V c 0 ⟨0, hn⟩) (iblk1 V c 1 ⟨0, hn⟩) (iblk1 V c 2 ⟨0, hn⟩) (iblk1 V c 3 ⟨0, hn⟩), accFirst c (grid1.coords ⟨0, hn⟩) (mB ⟨0, hn⟩) (hmB ⟨0, hn⟩) (mHk ⟨0, hn⟩) (hmHk ⟨0, hn⟩) (mHi ⟨0, hn⟩) (hmHi ⟨0, hn⟩) (mD ⟨0, hn⟩) (hmD ⟨0, hn⟩) (mO ⟨0, hn⟩) (hmO ⟨0, hn⟩) accM (Memref.isWhole_whole _) ((isFirstSlab_iff ⟨0, hn⟩).mpr (Nat.zero_mod _)) (fun h => (fun h => by (try dsimp only at h); omega) ((isLastSlab_iff ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      if h3 : (n + 1) % 4 = 3 then
        False.elim (by omega)
      else
        (outFirst c (grid1.coords ⟨n + 1, hn⟩) (mB ⟨n + 1, hn⟩) (hmB ⟨n + 1, hn⟩) (mHk ⟨n + 1, hn⟩) (hmHk ⟨n + 1, hn⟩) (mHi ⟨n + 1, hn⟩) (hmHi ⟨n + 1, hn⟩) (mD ⟨n + 1, hn⟩) (hmD ⟨n + 1, hn⟩) (mO ⟨n + 1, hn⟩) (hmO ⟨n + 1, hn⟩) accM (Memref.isWhole_whole _) ((isFirstSlab_iff ⟨n + 1, hn⟩).mpr h0) (fun h => h3 ((isLastSlab_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩), accFirst c (grid1.coords ⟨n + 1, hn⟩) (mB ⟨n + 1, hn⟩) (hmB ⟨n + 1, hn⟩) (mHk ⟨n + 1, hn⟩) (hmHk ⟨n + 1, hn⟩) (mHi ⟨n + 1, hn⟩) (hmHi ⟨n + 1, hn⟩) (mD ⟨n + 1, hn⟩) (hmD ⟨n + 1, hn⟩) (mO ⟨n + 1, hn⟩) (hmO ⟨n + 1, hn⟩) accM (Memref.isWhole_whole _) ((isFirstSlab_iff ⟨n + 1, hn⟩).mpr h0) (fun h => h3 ((isLastSlab_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h3 : (n + 1) % 4 = 3 then
        (outLast c (grid1.coords ⟨n + 1, hn⟩) (mB ⟨n + 1, hn⟩) (hmB ⟨n + 1, hn⟩) (mHk ⟨n + 1, hn⟩) (hmHk ⟨n + 1, hn⟩) (mHi ⟨n + 1, hn⟩) (hmHi ⟨n + 1, hn⟩) (mD ⟨n + 1, hn⟩) (hmD ⟨n + 1, hn⟩) (mO ⟨n + 1, hn⟩) (hmO ⟨n + 1, hn⟩) accM (Memref.isWhole_whole _) (fun h => h0 ((isFirstSlab_iff ⟨n + 1, hn⟩).mp h)) ((isLastSlab_iff ⟨n + 1, hn⟩).mpr h3) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, accLast c (grid1.coords ⟨n + 1, hn⟩) (mB ⟨n + 1, hn⟩) (hmB ⟨n + 1, hn⟩) (mHk ⟨n + 1, hn⟩) (hmHk ⟨n + 1, hn⟩) (mHi ⟨n + 1, hn⟩) (hmHi ⟨n + 1, hn⟩) (mD ⟨n + 1, hn⟩) (hmD ⟨n + 1, hn⟩) (mO ⟨n + 1, hn⟩) (hmO ⟨n + 1, hn⟩) accM (Memref.isWhole_whole _) (fun h => h0 ((isFirstSlab_iff ⟨n + 1, hn⟩).mp h)) ((isLastSlab_iff ⟨n + 1, hn⟩).mpr h3) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (outMid c (grid1.coords ⟨n + 1, hn⟩) (mB ⟨n + 1, hn⟩) (hmB ⟨n + 1, hn⟩) (mHk ⟨n + 1, hn⟩) (hmHk ⟨n + 1, hn⟩) (mHi ⟨n + 1, hn⟩) (hmHi ⟨n + 1, hn⟩) (mD ⟨n + 1, hn⟩) (hmD ⟨n + 1, hn⟩) (mO ⟨n + 1, hn⟩) (hmO ⟨n + 1, hn⟩) accM (Memref.isWhole_whole _) (fun h => h0 ((isFirstSlab_iff ⟨n + 1, hn⟩).mp h)) (fun h => h3 ((isLastSlab_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, accMid c (grid1.coords ⟨n + 1, hn⟩) (mB ⟨n + 1, hn⟩) (hmB ⟨n + 1, hn⟩) (mHk ⟨n + 1, hn⟩) (hmHk ⟨n + 1, hn⟩) (mHi ⟨n + 1, hn⟩) (hmHi ⟨n + 1, hn⟩) (mD ⟨n + 1, hn⟩) (hmD ⟨n + 1, hn⟩) (mO ⟨n + 1, hn⟩) (hmO ⟨n + 1, hn⟩) accM (Memref.isWhole_whole _) (fun h => h0 ((isFirstSlab_iff ⟨n + 1, hn⟩).mp h)) (fun h => h3 ((isLastSlab_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_first (c : Dev nD) (t : Fin cfg1.N) (h0 : t.val % 4 = 0) (h3 : ¬t.val % 4 = 3) :
    outsAt1 V c t.val t.isLt = (outFirst c (grid1.coords t) (mB t) (hmB t) (mHk t) (hmHk t) (mHi t) (hmHi t) (mD t) (hmD t) (mO t) (hmO t) accM (Memref.isWhole_whole _) ((isFirstSlab_iff t).mpr h0) (fun h => h3 ((isLastSlab_iff t).mp h)) (iblk1 V c 0 t) (iblk1 V c 1 t) (iblk1 V c 2 t) (iblk1 V c 3 t), accFirst c (grid1.coords t) (mB t) (hmB t) (mHk t) (hmHk t) (mHi t) (hmHi t) (mD t) (hmD t) (mO t) (hmO t) accM (Memref.isWhole_whole _) ((isFirstSlab_iff t).mpr h0) (fun h => h3 ((isLastSlab_iff t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h3).trans rfl)

theorem outsAt1_mid (c : Dev nD) (t : Fin cfg1.N) (h0 : ¬t.val % 4 = 0) (h3 : ¬t.val % 4 = 3) :
    outsAt1 V c t.val t.isLt = (outMid c (grid1.coords t) (mB t) (hmB t) (mHk t) (hmHk t) (mHi t) (hmHi t) (mD t) (hmD t) (mO t) (hmO t) accM (Memref.isWhole_whole _) (fun h => h0 ((isFirstSlab_iff t).mp h)) (fun h => h3 ((isLastSlab_iff t).mp h)) (iblk1 V c 0 t) (iblk1 V c 1 t) (iblk1 V c 2 t) (iblk1 V c 3 t) (outsAt1 V c (t.val - 1) (Nat.lt_of_le_of_lt (Nat.sub_le _ _) t.isLt)).2, accMid c (grid1.coords t) (mB t) (hmB t) (mHk t) (hmHk t) (mHi t) (hmHi t) (mD t) (hmD t) (mO t) (hmO t) accM (Memref.isWhole_whole _) (fun h => h0 ((isFirstSlab_iff t).mp h)) (fun h => h3 ((isLastSlab_iff t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h3).trans rfl)

theorem outsAt1_last (c : Dev nD) (t : Fin cfg1.N) (h0 : ¬t.val % 4 = 0) (h3 : t.val % 4 = 3) :
    outsAt1 V c t.val t.isLt = (outLast c (grid1.coords t) (mB t) (hmB t) (mHk t) (hmHk t) (mHi t) (hmHi t) (mD t) (hmD t) (mO t) (hmO t) accM (Memref.isWhole_whole _) (fun h => h0 ((isFirstSlab_iff t).mp h)) ((isLastSlab_iff t).mpr h3) (iblk1 V c 0 t) (iblk1 V c 1 t) (iblk1 V c 2 t) (iblk1 V c 3 t) (outsAt1 V c (t.val - 1) (Nat.lt_of_le_of_lt (Nat.sub_le _ _) t.isLt)).2, accLast c (grid1.coords t) (mB t) (hmB t) (mHk t) (hmHk t) (mHi t) (hmHi t) (mD t) (hmD t) (mO t) (hmO t) accM (Memref.isWhole_whole _) (fun h => h0 ((isFirstSlab_iff t).mp h)) ((isLastSlab_iff t).mpr h3) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h3).trans rfl)

/-! ## The invariant: the accumulator at what the point before left -/

/-- The scoped buffers no window of this pipeline stages, the accumulator in the state P, and the generator register. -/
def scopedWith (c : Dev nD) (P : sProp 𝕄) : sProp 𝕄 :=
  iprop(iprop((∃ d0, owns (c : Thread nD τ) (Memref.whole cc0_stg0_0) fullShare d0) ∗ (∃ d1, owns (c : Thread nD τ) (Memref.whole cc0_stg0_1) fullShare d1) ∗ (∃ d2, owns (c : Thread nD τ) (Memref.whole cc0_stg1_0) fullShare d2) ∗ (∃ d3, owns (c : Thread nD τ) (Memref.whole cc0_stg2_0) fullShare d3) ∗ (∃ d4, owns (c : Thread nD τ) (Memref.whole cc0_stg2_1) fullShare d4) ∗ (∃ d5, owns (c : Thread nD τ) (Memref.whole cc0_stg3_0) fullShare d5) ∗ (∃ d6, owns (c : Thread nD τ) (Memref.whole cc0_stg3_1) fullShare d6) ∗ P) ∗ (∃ r, prngReg c r))

theorem PhiA1_scopedWith (c : Dev nD) : (Pipeline.ΦA spec1 c : sProp 𝕄) = scopedWith c (iprop(∃ d, owns (c : Thread nD τ) accM fullShare d)) :=
  PhiA1_eq c

def PhiS1 (c : Dev nD) : (n : ℕ) → n ≤ cfg1.N → sProp 𝕄
  | 0, _ => Pipeline.ΦA spec1 c
  | n + 1, hn => scopedWith c (owns (c : Thread nD τ) accM fullShare ((outsAt1 V c n hn).2))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = scopedWith c (owns (c : Thread nD τ) accM fullShare ((outsAt1 V c n hn).2)) := rfl
theorem PhiS1_pos (c : Dev nD) (n : ℕ) (h : n ≤ cfg1.N) (hz : n ≠ 0) :
    PhiS1 V c n h = scopedWith c (owns (c : Thread nD τ) accM fullShare ((outsAt1 V c (n - 1) (by omega)).2)) := by
  cases n with
  | zero => exact absurd rfl hz
  | succ n => rfl

/-! ## The proof data -/

/-- The arrays as the pipeline finds them; after the body each input's buffer at its block and the output's at the
    recursion's first component; the invariant above; the array hs held by its two windows at the two halves of the
    full share; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (mB t) fullShare ((dat1 V c).before 0 t d))
    ∗ (∃ d, owns (c : Thread nD τ) (mHk t) fullShare ((dat1 V c).before 1 t d))
    ∗ (∃ d, owns (c : Thread nD τ) (mHi t) fullShare ((dat1 V c).before 2 t d))
    ∗ (∃ d, owns (c : Thread nD τ) (mD t) fullShare ((dat1 V c).before 3 t d))
    ∗ (∃ d, owns (c : Thread nD τ) (mO t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point.  The inputs' buffers hold their blocks; the point's slab decides the case; the invariant
    hands over the accumulator at what the point before left (at anything before the first point) and takes it back at
    this point's contents, which the case's pieces cover; off slab 3 the output's buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h3 : t.val % 4 = 3
    · exfalso; omega
    · rw [show (dat1 V c).leavesExact 0 t = owns (c : Thread nD τ) (mB t) fullShare ((dat1 V c).after 0 t) from by
          unfold Dat.leavesExact; rw [live1_0 t], after1_0]
      rw [show (dat1 V c).leavesExact 1 t = owns (c : Thread nD τ) (mHk t) fullShare ((dat1 V c).after 1 t) from by
          unfold Dat.leavesExact; rw [live1_1 t], after1_1]
      rw [show (dat1 V c).leavesExact 2 t = owns (c : Thread nD τ) (mHi t) fullShare ((dat1 V c).after 2 t) from by
          unfold Dat.leavesExact; rw [live1_2 t], after1_2]
      rw [show (dat1 V c).leavesExact 3 t = owns (c : Thread nD τ) (mD t) fullShare ((dat1 V c).after 3 t) from by
          unfold Dat.leavesExact; rw [live1_3 t], after1_3]
      rw [Dat.leavesExact_idle (dat1 V c) 4 t (idle1_4 t (fun h => h3 ((isLastSlab_iff t).mp h))) (noFlush1_4 t (fun h => h3 ((isLastSlab_iff t).mp h)))]
      rw [outsAt1_first V c t h0 h3]
      unfold accFirst scopedWith; (try dsimp only)
      by_cases hz : t.val = 0
      · rw [PhiS1_castSucc V c t, PhiS1_zero V c _ _ hz, PhiA1_scopedWith]; unfold scopedWith
        iintro ⟨⟨⟨A0, A1, A2, A3, A4, A5, A6, HS⟩, Hg⟩, Ho, ⟨%d0, H0⟩, ⟨%d1, H1⟩, ⟨%d2, H2⟩, ⟨%d3, H3⟩, ⟨%d4, H4⟩⟩
        iapply ((slabFirstRun c (grid1.coords t) _ _ _ _ _ _ _ _ _ _ _ _ ((isFirstSlab_iff t).mpr h0) (fun h => h3 ((isLastSlab_iff t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [A0 A1 A2 A3 A4 A5 A6 HS Hg]
        · isplitl [A0 A1 A2 A3 A4 A5 A6 HS]
          · isplitl [A0]; · iexact A0
            isplitl [A1]; · iexact A1
            isplitl [A2]; · iexact A2
            isplitl [A3]; · iexact A3
            isplitl [A4]; · iexact A4
            isplitl [A5]; · iexact A5
            isplitl [A6]; · iexact A6
            unfold owns; iexists _; isplitr
            swap; · iexact HS
            ipureintro; exact View.read_writes_of_cover _ _ _ _ _ (accCoverFirst c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]; unfold scopedWith
        iintro ⟨⟨⟨A0, A1, A2, A3, A4, A5, A6, HS⟩, Hg⟩, Ho, ⟨%d0, H0⟩, ⟨%d1, H1⟩, ⟨%d2, H2⟩, ⟨%d3, H3⟩, ⟨%d4, H4⟩⟩
        iapply ((slabFirstRun c (grid1.coords t) _ _ _ _ _ _ _ _ _ _ _ _ ((isFirstSlab_iff t).mpr h0) (fun h => h3 ((isLastSlab_iff t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [A0 A1 A2 A3 A4 A5 A6 HS Hg]
        · isplitl [A0 A1 A2 A3 A4 A5 A6 HS]
          · isplitl [A0]; · iexact A0
            isplitl [A1]; · iexact A1
            isplitl [A2]; · iexact A2
            isplitl [A3]; · iexact A3
            isplitl [A4]; · iexact A4
            isplitl [A5]; · iexact A5
            isplitl [A6]; · iexact A6
            unfold owns; iexists _; isplitr
            swap; · iexact HS
            ipureintro; exact View.read_writes_of_cover _ _ _ _ _ (accCoverFirst c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h3 : t.val % 4 = 3
    · rw [show (dat1 V c).leavesExact 0 t = owns (c : Thread nD τ) (mB t) fullShare ((dat1 V c).after 0 t) from by
          unfold Dat.leavesExact; rw [live1_0 t], after1_0]
      rw [show (dat1 V c).leavesExact 1 t = owns (c : Thread nD τ) (mHk t) fullShare ((dat1 V c).after 1 t) from by
          unfold Dat.leavesExact; rw [live1_1 t], after1_1]
      rw [show (dat1 V c).leavesExact 2 t = owns (c : Thread nD τ) (mHi t) fullShare ((dat1 V c).after 2 t) from by
          unfold Dat.leavesExact; rw [live1_2 t], after1_2]
      rw [show (dat1 V c).leavesExact 3 t = owns (c : Thread nD τ) (mD t) fullShare ((dat1 V c).after 3 t) from by
          unfold Dat.leavesExact; rw [live1_3 t], after1_3]
      rw [show (dat1 V c).leavesExact 4 t = owns (c : Thread nD τ) (mO t) fullShare ((dat1 V c).after 4 t) from by
          unfold Dat.leavesExact; rw [live1_4 t ((isLastSlab_iff t).mpr h3)], after1_4]
      rw [outsAt1_last V c t h0 h3]
      unfold outLast accLast scopedWith; (try dsimp only)
      rw [PhiS1_castSucc V c t, PhiS1_pos V c _ _ hz]; unfold scopedWith
      iintro ⟨⟨⟨A0, A1, A2, A3, A4, A5, A6, HS⟩, Hg⟩, Ho, ⟨%d0, H0⟩, ⟨%d1, H1⟩, ⟨%d2, H2⟩, ⟨%d3, H3⟩, ⟨%d4, H4⟩⟩
      iapply ((slabLastRun c (grid1.coords t) _ _ _ _ _ _ _ _ _ _ _ _ (fun h => h0 ((isFirstSlab_iff t).mp h)) ((isLastSlab_iff t).mpr h3) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [A0 A1 A2 A3 A4 A5 A6 HS Hg]
      · isplitl [A0 A1 A2 A3 A4 A5 A6 HS]
        · isplitl [A0]; · iexact A0
          isplitl [A1]; · iexact A1
          isplitl [A2]; · iexact A2
          isplitl [A3]; · iexact A3
          isplitl [A4]; · iexact A4
          isplitl [A5]; · iexact A5
          isplitl [A6]; · iexact A6
          unfold owns; iexists _; isplitr
          swap; · iexact HS
          ipureintro; exact View.read_writes_of_cover _ _ _ _ _ (accCoverLast c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outCoverLast c _ _ _ _ _ _ _ _ _ _ _ _ _ _ _ _ _ _ _ _)
    · rw [show (dat1 V c).leavesExact 0 t = owns (c : Thread nD τ) (mB t) fullShare ((dat1 V c).after 0 t) from by
          unfold Dat.leavesExact; rw [live1_0 t], after1_0]
      rw [show (dat1 V c).leavesExact 1 t = owns (c : Thread nD τ) (mHk t) fullShare ((dat1 V c).after 1 t) from by
          unfold Dat.leavesExact; rw [live1_1 t], after1_1]
      rw [show (dat1 V c).leavesExact 2 t = owns (c : Thread nD τ) (mHi t) fullShare ((dat1 V c).after 2 t) from by
          unfold Dat.leavesExact; rw [live1_2 t], after1_2]
      rw [show (dat1 V c).leavesExact 3 t = owns (c : Thread nD τ) (mD t) fullShare ((dat1 V c).after 3 t) from by
          unfold Dat.leavesExact; rw [live1_3 t], after1_3]
      rw [Dat.leavesExact_idle (dat1 V c) 4 t (idle1_4 t (fun h => h3 ((isLastSlab_iff t).mp h))) (noFlush1_4 t (fun h => h3 ((isLastSlab_iff t).mp h)))]
      rw [outsAt1_mid V c t h0 h3]
      unfold accMid scopedWith; (try dsimp only)
      rw [PhiS1_castSucc V c t, PhiS1_pos V c _ _ hz]; unfold scopedWith
      iintro ⟨⟨⟨A0, A1, A2, A3, A4, A5, A6, HS⟩, Hg⟩, Ho, ⟨%d0, H0⟩, ⟨%d1, H1⟩, ⟨%d2, H2⟩, ⟨%d3, H3⟩, ⟨%d4, H4⟩⟩
      iapply ((slabMidRun c (grid1.coords t) _ _ _ _ _ _ _ _ _ _ _ _ (fun h => h0 ((isFirstSlab_iff t).mp h)) (fun h => h3 ((isLastSlab_iff t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [A0 A1 A2 A3 A4 A5 A6 HS Hg]
      · isplitl [A0 A1 A2 A3 A4 A5 A6 HS]
        · isplitl [A0]; · iexact A0
          isplitl [A1]; · iexact A1
          isplitl [A2]; · iexact A2
          isplitl [A3]; · iexact A3
          isplitl [A4]; · iexact A4
          isplitl [A5]; · iexact A5
          isplitl [A6]; · iexact A6
          unfold owns; iexists _; isplitr
          swap; · iexact HS
          ipureintro; exact View.read_writes_of_cover _ _ _ _ _ (accCoverMid c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- What the launch hands the pipeline is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives it back, the accumulator's contents forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_scopedWith]
  unfold scopedWith
  iintro ⟨⟨A0, A1, A2, A3, A4, A5, A6, HS⟩, Hg⟩
  isplitl [A0 A1 A2 A3 A4 A5 A6 HS]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexists _; iexact HS
  iexact Hg

theorem hout1 (c : Dev nD) : (dat1 V c).Φ (Fin.last cfg1.N) ⊢ Pipeline.ΦA spec1 c :=
  Phi1_out V c _ (by rw [Fin.val_last]; have : cfg1.N = 32 := N_1; omega)

end Cert.KernelIdeal.Hand

end
-- ==== Proof.KI.AccShare.lean ====
/-
  Two windows of the second matrix product read one array, hs.  The pipeline's proof data holds every window's array
  at a share of its own, so the buffer's full points-to is dealt between the two windows in two halves at the
  pipeline's entry, and the halves are joined again at its exit (both windows being inputs, the array holds the same
  contents throughout).  The other three arrays pass at the full share.
-/
import proofs.«162846_j38070590112568_1_alg».proof.Proof.KI.Acc
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

/-- The distinct buffers behind the five windows, one by one. -/
theorem bigSep_arrs1 {M : Type} [URA M] (Φ : Ref sig .tc → sProp M) :
    bigSep (Finset.univ.image (Pipeline.arrRef spec1)) Φ = iprop(Φ main_v27 ∗ Φ main_v30 ∗ Φ main_v12 ∗ Φ main_v31) :=
  Idealize.SL.BI.bigSep_eq_bigSepL_of_eq [main_v27, main_v30, main_v12, main_v31] (by decide) (by decide) Φ

/-- Those buffers, each whole at the full share at contents V'. -/
theorem arrBufs1_form (V' : (b : Ref sig .tc) → Buf (Elt F) ((c : Thread nD τ).loc b)) :
    (Pipeline.arrBufs spec1 c V' : sProp 𝕄)
      = iprop((((c : Thread nD τ).loc main_v27) ↦{fullShare} V' main_v27) ∗ (((c : Thread nD τ).loc main_v30) ↦{fullShare} V' main_v30)
          ∗ (((c : Thread nD τ).loc main_v12) ↦{fullShare} V' main_v12) ∗ (((c : Thread nD τ).loc main_v31) ↦{fullShare} V' main_v31)) := by
  unfold Pipeline.arrBufs
  exact bigSep_arrs1 _

/-- The windows' arrays, window by window: each array is a whole buffer. -/
theorem arrays1_form (dat : Dat τ (Elt F) Unit ℕ (UR sig nD τ) ℕ cfg1 c)
    (G : (w : Fin cfg1.W) → Buf (Elt F) ((cfg1.win w).arr.view.loc (c : Thread nD τ))) :
    (dat.arrays G : sProp 𝕄)
      = iprop((((c : Thread nD τ).loc (Pipeline.arrRef spec1 0)) ↦{dat.share 0} G 0) ∗ (((c : Thread nD τ).loc (Pipeline.arrRef spec1 1)) ↦{dat.share 1} G 1)
          ∗ (((c : Thread nD τ).loc (Pipeline.arrRef spec1 2)) ↦{dat.share 2} G 2) ∗ (((c : Thread nD τ).loc (Pipeline.arrRef spec1 3)) ↦{dat.share 3} G 3)
          ∗ (((c : Thread nD τ).loc (Pipeline.arrRef spec1 4)) ↦{dat.share 4} G 4)) := by
  unfold Dat.arrays
  refine Eq.trans (bigSep_congr fun w _ => ?_) (bigSep_W1 fun w => (((c : Thread nD τ).loc (Pipeline.arrRef spec1 w)) ↦{dat.share w} G w : sProp 𝕄))
  rw [(arr_whole1 w).set_eq_univ]

variable (V : (c : Dev nD) → (b : Ref sig .tc) → Buf (Elt F) ((c : Thread nD τ).loc b))

theorem share1_0 : (dat1 V c).share 0 = fullShare := rfl
theorem share1_1 : (dat1 V c).share 1 = fullShare.left := rfl
theorem share1_2 : (dat1 V c).share 2 = fullShare.right := rfl
theorem share1_3 : (dat1 V c).share 3 = fullShare := rfl
theorem share1_4 : (dat1 V c).share 4 = fullShare := rfl

/-- Entry: the buffers at V', hs dealt in two halves, are the windows' arrays at V'. -/
theorem deal1 (V' : (b : Ref sig .tc) → Buf (Elt F) ((c : Thread nD τ).loc b)) :
    (Pipeline.arrBufs spec1 c V' : sProp 𝕄) ⊢ (dat1 V c).arrays (fun w => V' (Pipeline.arrRef spec1 w)) := by
  refine BIBase.Entails.trans (Entails.of_eq (arrBufs1_form c V')) (BIBase.Entails.trans ?_ (Entails.of_eq (arrays1_form c (dat1 V c) _).symm))
  rw [share1_0, share1_1, share1_2, share1_3, share1_4]
  iintro ⟨HB, HH, HD, HO⟩
  ihave HH2 := (pointsTo_share (PosShare.mem_left_op_right fullShare)).1 $$ HH
  icases HH2 with ⟨HHl, HHr⟩
  isplitl [HB]; · iexact HB
  isplitl [HHl]; · iexact HHl
  isplitl [HHr]; · iexact HHr
  isplitl [HD]; · iexact HD
  iexact HO

/-- Exit: the two halves of hs, both at V', are joined again. -/
theorem gather1 (V' : (b : Ref sig .tc) → Buf (Elt F) ((c : Thread nD τ).loc b)) :
    (dat1 V c).arrays (fun w => V' (Pipeline.arrRef spec1 w)) ⊢ (Pipeline.arrBufs spec1 c V' : sProp 𝕄) := by
  refine BIBase.Entails.trans (Entails.of_eq (arrays1_form c (dat1 V c) _)) (BIBase.Entails.trans ?_ (Entails.of_eq (arrBufs1_form c V').symm))
  rw [share1_0, share1_1, share1_2, share1_3, share1_4]
  iintro ⟨HB, HHl, HHr, HD, HO⟩
  isplitl [HB]; · iexact HB
  isplitl [HHl HHr]
  · iapply (pointsTo_share (PosShare.mem_left_op_right fullShare)).2
    isplitl [HHl]; · iexact HHl
    iexact HHr
  isplitl [HD]; · iexact HD
  iexact HO

end Cert.KernelIdeal.Hand

end
-- ==== Proof.KI.Run.lean ====
/-
  The whole program as three segments — the host stretch, the first matrix product, the second — and what every
  unscoped buffer holds at the end.

  Buffer contents at the segment boundaries: W0 at launch; W1 after the host operations; W2 after the first product
  (its result array at what its write-backs leave, everything else as before); W3 after the second (the result array
  of the program likewise).  The first product's windows name four distinct arrays.  The second's name hs twice: at
  its entry the buffer's full points-to is dealt in two halves to the two windows, at its exit the halves, both still
  at the entry contents, are joined again.  Nothing is owed at any boundary; the generator register rides along.
-/
import proofs.«162846_j38070590112568_1_alg».proof.Proof.KI.Region0
import proofs.«162846_j38070590112568_1_alg».proof.Proof.KI.AccShare
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Contents at the boundaries -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second product: its result array at what the write-backs leave, every other buffer as before. -/
def W3 (c : Dev nD) : Valuation τ sig (Elt F) :=
  Function.update (W2 m ρ c) (Proc.devRef .tc main_v31) ((dat1 (V2 m ρ) c).arrAt 4 cfg1.N)
abbrev V3 : (c : Dev nD) → (b : Ref sig .tc) → Buf (Elt F) ((c : Thread nD τ).loc b) := fun c b => W3 m ρ c b
theorem W3_out (c : Dev nD) : W3 m ρ c (Proc.devRef .tc main_v31) = (dat1 (V2 m ρ) c).arrAt 4 cfg1.N := by
  unfold W3; exact Function.update_self ..
theorem W3_of_ne (c : Dev nD) (b : Ref sig .tc) (hb : b ≠ main_v31) :
    W3 m ρ c (Proc.devRef .tc b) = W2 m ρ c (Proc.devRef .tc b) := by
  unfold W3; exact Function.update_of_ne (StableHlo.devRef_ne_of_ne hb) ..

/-- At the second product's entry its arrays hold the boundary's contents. -/
theorem entry1 (c : Dev nD) :
    ((dat1 (V2 m ρ) c).arrAt · 0) = fun w => V2 m ρ c (Pipeline.arrRef spec1 w) :=
  funext fun w => A_eq1 (V2 m ρ) c w

/-- At its exit: the inputs as entered, the result array at what the write-backs leave. -/
theorem exit1 (c : Dev nD) :
    ((dat1 (V2 m ρ) c).arrAt · cfg1.N) = fun w => V3 m ρ c (Pipeline.arrRef spec1 w) :=
  funext fun w => match w with
    | ⟨0, _⟩ => ((dat1 (V2 m ρ) c).arrAt_in 0 rfl _).trans ((A_eq1 (V2 m ρ) c 0).trans (W3_of_ne m ρ c main_v27 (by decide)).symm)
    | ⟨1, _⟩ => ((dat1 (V2 m ρ) c).arrAt_in 1 rfl _).trans ((A_eq1 (V2 m ρ) c 1).trans (W3_of_ne m ρ c main_v30 (by decide)).symm)
    | ⟨2, _⟩ => ((dat1 (V2 m ρ) c).arrAt_in 2 rfl _).trans ((A_eq1 (V2 m ρ) c 2).trans (W3_of_ne m ρ c main_v30 (by decide)).symm)
    | ⟨3, _⟩ => ((dat1 (V2 m ρ) c).arrAt_in 3 rfl _).trans ((A_eq1 (V2 m ρ) c 3).trans (W3_of_ne m ρ c main_v12 (by decide)).symm)
    | ⟨4, _⟩ => (W3_out m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨4, Finset.mem_univ _, e.symm⟩)

/-! ## The arguments end as launched -/

theorem hostOps0_fresh : (hostOps0 : List (HloOp τ sig (Elt F))).Forall fun op => op.fresh = ∅ := by
  simp only [List.Forall]; repeat' constructor

theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W3_main_arg0 (c : Dev nD) : W3 m ρ c (Proc.devRef .tc main_arg0) = m ((c : Thread nD τ).loc main_arg0) :=
  (W3_of_ne m ρ c main_arg0 (by decide)).trans ((W2_of_ne m ρ c main_arg0 (by decide)).trans (W1_main_arg0 m ρ c))

theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W3_main_arg1 (c : Dev nD) : W3 m ρ c (Proc.devRef .tc main_arg1) = m ((c : Thread nD τ).loc main_arg1) :=
  (W3_of_ne m ρ c main_arg1 (by decide)).trans ((W2_of_ne m ρ c main_arg1 (by decide)).trans (W1_main_arg1 m ρ c))

theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W3_main_arg2 (c : Dev nD) : W3 m ρ c (Proc.devRef .tc main_arg2) = m ((c : Thread nD τ).loc main_arg2) :=
  (W3_of_ne m ρ c main_arg2 (by decide)).trans ((W2_of_ne m ρ c main_arg2 (by decide)).trans (W1_main_arg2 m ρ c))

theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W3_main_arg3 (c : Dev nD) : W3 m ρ c (Proc.devRef .tc main_arg3) = m ((c : Thread nD τ).loc main_arg3) :=
  (W3_of_ne m ρ c main_arg3 (by decide)).trans ((W2_of_ne m ρ c main_arg3 (by decide)).trans (W1_main_arg3 m ρ c))

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The two products as segments -/

set_option backward.isDefEq.respectTransparency.types false in
/-- The first product: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second product: entered from every unscoped buffer at W2, left at W3.  Its arrays come out of the unscoped
    buffers with hs dealt in two halves, and go back with the halves joined. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄)
        ⊢ iprop((dat1 (V2 m ρ) c).arrays ((dat1 (V2 m ρ) c).arrAt · 0) ∗ Pipeline.unscopedRest spec1 c (V2 m ρ c)) := by
      rw [Pipeline.unscopedBufs_split₀ cfgs 1 winFacts₀1.arr_unscoped c (V2 m ρ c), entry1 m ρ c]
      exact sep_mono (deal1 c (V2 m ρ) (V2 m ρ c)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin : iprop((dat1 (V2 m ρ) c).arrays ((dat1 (V2 m ρ) c).arrAt · cfg1.N) ∗ Pipeline.unscopedRest spec1 c (V2 m ρ c))
        ⊢ (unscopedBufs c (V3 m ρ c) : sProp 𝕄) := by
      rw [Pipeline.unscopedBufs_split₀ cfgs 1 winFacts₀1.arr_unscoped c (V3 m ρ c), exit1 m ρ c]
      refine sep_mono (gather1 c (V2 m ρ) (V3 m ρ c)) (Entails.of_eq ?_)
      unfold Pipeline.unscopedRest
      exact bigSep_congr fun b hb => by rw [hrest1 m ρ c b (Finset.mem_sdiff.mp hb).2]
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution terminates, nothing faulting, and every unscoped
    buffer of every core ends at W3. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W3 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c b hb => h c _ (mem_uc b hb))

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c main_arg0 (by decide)).trans (W3_main_arg0 m ρ c),
     (h c main_arg1 (by decide)).trans (W3_main_arg1 m ρ c),
     (h c main_arg2 (by decide)).trans (W3_main_arg2 m ρ c),
     (h c main_arg3 (by decide)).trans (W3_main_arg3 m ρ c)⟩) (run_all m ρ)

/-- The same run with the program's result named: what the second product's write-backs leave. -/
theorem run_result : θ_run defs (onTc (τ := τ) (main (F := F))) ⟨m, fun _ => 0, ρ⟩ (fun r => ∀ c : Dev nD,
      r.2.mem ((c.tc : Thread nD τ).loc main_v31) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c main_v31 (by decide)).trans (W3_out m ρ c),
     (h c main_arg0 (by decide)).trans (W3_main_arg0 m ρ c),
     (h c main_arg1 (by decide)).trans (W3_main_arg1 m ρ c),
     (h c main_arg2 (by decide)).trans (W3_main_arg2 m ρ c),
     (h c main_arg3 (by decide)).trans (W3_main_arg3 m ρ c)⟩) (run_all m ρ)

end Cert.KernelIdeal.Hand

end
-- ==== Proof.Spec.lean ====
/-
  The mathematical content of the two kernels of a graph-convolution layer, stated on plain arrays of extended reals:
  no program is imported.  With `x : [8192,512]`, `w : [256,512]`, a column `dv : [8192,1]` of row scales and a dense
  matrix `B : [8192,8192]`:

  * `hsOf x w dv` is the matrix `x·wᵀ` with row `r` scaled by `dv[r,0]`;
  * `blockSum B hs kb` is the part of the product `B·hs` contributed by the `kb`-th slab of 2048 columns of `B`;
  * `outOf B hs dv` is `(B·hs + hs)`, the product accumulated slab by slab from the left, with row `r` scaled by `dv[r,0]`.
-/
import Idealize.ShloMosaic.PureOps.Ideal
import Idealize.ShloMosaic.Lib.ValueIdx

noncomputable section

open scoped BigOperators

namespace Cert.Gcn

open Idealize.ShloMosaic Idealize.ShloMosaic.ValueIdx

abbrev SX : Shape := ⟨2, ![8192, 512]⟩
abbrev SW : Shape := ⟨2, ![256, 512]⟩
abbrev SD : Shape := ⟨2, ![8192, 1]⟩
abbrev SB : Shape := ⟨2, ![8192, 8192]⟩
abbrev SO : Shape := ⟨2, ![8192, 256]⟩

/-- The row coordinate of an index of the `[8192,256]` result, as a number below 8192. -/
abbrev row (j : SO.Idx) : Fin 8192 := j 0
/-- The column coordinate of an index of the `[8192,256]` result, as a number below 256. -/
abbrev col (j : SO.Idx) : Fin 256 := j 1

/-- The `kk`-th node of the `kb`-th slab of 2048 nodes. -/
abbrev slabIx (kb : Fin 4) (kk : Fin 2048) : Fin 8192 :=
  ⟨2048 * kb.val + kk.val, by have := kb.isLt; have := kk.isLt; omega⟩

/-- first kernel: rows of x·Wᵀ scaled by dv -/
def hsOf (x : SX.Idx → EReal) (w : SW.Idx → EReal) (dv : SD.Idx → EReal) : SO.Idx → EReal :=
  fun j => (∑ k : Fin 512, x (ix2 (row j) k) * w (ix2 (col j) k)) * dv (ix2 (row j) (0 : Fin 1))

/-- one 2048-wide slab of B·hs -/
def blockSum (B : SB.Idx → EReal) (hs : SO.Idx → EReal) (kb : Fin 4) (j : SO.Idx) : EReal :=
  ∑ kk : Fin 2048, B (ix2 (row j) (slabIx kb kk)) * hs (ix2 (slabIx kb kk) (col j))

/-- second kernel -/
def outOf (B : SB.Idx → EReal) (hs : SO.Idx → EReal) (dv : SD.Idx → EReal) : SO.Idx → EReal :=
  fun j => ((((blockSum B hs 0 j + blockSum B hs 1 j) + blockSum B hs 2 j) + blockSum B hs 3 j) + hs j)
    * dv (ix2 (row j) (0 : Fin 1))

end Cert.Gcn

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.KI.Region0Value.lean ====
/- The first TensorCore region's output array, read: after the region's 8 write-backs the [8192,256] output
   array holds, at `(r, d)`, the inner product of row `r` of the first operand (as the region finds it) with row
   `d` of the second, times the entry on row `r` of the one-column third operand (`Cert.Gcn.hsOf`).
   The steps: the body's one payload read at an index `(p, q)` of its block (`pay_apply`: a product into the zero
   splat against a transpose, then a column broadcast along the rows and an entrywise product); each input window's
   block at grid point `t` as rows of its array (`iblk0_W_apply`, from the index maps decided over the 8 points);
   what point `t` writes back is block `t` of the one whole-array function (`flushed3_eq`); the 8 blocks cover the
   array, row `r` by point `r / 1024` (`cover3`); so the array ends holding that function (`arrAt0_3`).
   Stated on the extended reals. -/
import proofs.«162846_j38070590112568_1_alg».proof.Proof.KI.Region0
import proofs.«162846_j38070590112568_1_alg».proof.Proof.Spec
import proofs.«162846_j38070590112568_1_alg».proof.Proof.LibPlainDot
import proofs.«162846_j38070590112568_1_alg».proof.Proof.LibKeepdims
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-- The all-zero offsets, however spelt. -/
theorem hz : (![0, 0] : Fin 2 → Nat) = fun _ => 0 := funext fun a => by fin_cases a <;> rfl

/-- A [1024,512] by [512,256] product into the zero splat, read at `(p, q)`: the sum over the shared coordinate. -/
theorem mm_apply (a : FVec Ideal S1024x512 .bf16) (b : FVec Ideal S512x256 .bf16) (p : Fin 1024) (q : Fin 256) :
    matmul dot_S1024x512_S512x256_S1024x256_1_0_0_1_n_n none a b (constant (F := Ideal) S1024x256 .f32 0x00000000#32) (ix2 p q)
      = ∑ k : Fin 512, a (ix2 p k) * b (ix2 k q) :=
  PlainDot.matmul_zero_apply 1024 512 256 none a b p q

/-- THE PAYLOAD AT AN INDEX: entry `(p, q)` of the stored block is the inner product of row `p` of the first
    block with row `q` of the second operand (the product is taken against its transpose), times the entry of the
    column block on row `p`. -/
theorem pay_apply (x0 : Vec Ideal S1024x512 .bf16) (x1 : Vec Ideal S256x512 .bf16) (x2 : Vec Ideal S1024x1 .f32)
    (p : Fin 1024) (q : Fin 256) :
    k0_pay1 x0 x1 x2 (ix2 p q) = (∑ k : Fin 512, x0 (ix2 p k) * x1 (ix2 q k)) * x2 (ix2 p (0 : Fin 1)) := by
  unfold k0_pay1
  simp only [shapeCast_self]
  refine (mulf_apply _ _ _).trans ?_
  refine congrArg₂ (· * ·) ?_ ?_
  · refine (mm_apply x0 _ p q).trans ?_
    refine Finset.sum_congr rfl fun k _ => ?_
    refine congrArg (x0 (ix2 p k) * ·) ?_
    exact transpose_apply [1, 0] x1 transposes_S256x512_p1_0_S512x256 (ix2 k q) (ix2 q k)
      (fun b => match b with | ⟨0, _⟩ => rfl | ⟨1, _⟩ => rfl)
  · exact Cert.LibKeepdims.broadcastTo_a1_ab_apply x2 broadcasts_S1024x1_S1024x256 p q

section Region
-- the TensorCore's buffer contents when the region is entered
variable (V : (c : Dev nD) → (b : Ref sig .tc) → Buf (Elt Ideal) ((c : Thread nD τ).loc b))

/-- The printed index maps, decided over the grid's 8 points: the row-blocked windows sit at block row `t`, the
    whole second operand at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Window 0's block at point `t` is rows `1024 t … 1024 t + 1023` of its array. -/
theorem iblk0_0_apply (c : Dev nD) (t : Fin cfg0.N) (x : S1024x512.Idx) (k : S8192x512.Idx)
    (hk0 : (k 0).val = 1024 * t.val + (x 0).val) (hk1 : (k 1).val = (x 1).val) :
    (iblk0 V c 0 t : Vec Ideal S1024x512 .bf16) x = (V c main_v28 : S8192x512.Idx → EReal) k := by
  obtain ⟨e0, e1, -⟩ := idx_facts t
  unfold iblk0
  rw [View.read_apply]
  show V c main_v28 _ = V c main_v28 _
  refine congrArg (V c main_v28) ?_
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 512 + 1 * (x 1).val = (k 1).val; rw [e1, hk1]; omega

/-- Window 1's block at every point is its whole array. -/
theorem iblk0_1_apply (c : Dev nD) (t : Fin cfg0.N) (x : S256x512.Idx) (k : S256x512.Idx)
    (hk0 : (k 0).val = (x 0).val) (hk1 : (k 1).val = (x 1).val) :
    (iblk0 V c 1 t : Vec Ideal S256x512 .bf16) x = (V c main_v29 : S256x512.Idx → EReal) k := by
  obtain ⟨-, -, e2, e3, -⟩ := idx_facts t
  unfold iblk0
  rw [View.read_apply]
  show V c main_v29 _ = V c main_v29 _
  refine congrArg (V c main_v29) ?_
  funext a
  apply Fin.ext
  match a with
  | ⟨0, _⟩ => show win0_1.index t (0 : Fin 2) * 256 + 1 * (x 0).val = (k 0).val; rw [e2, hk0]; omega
  | ⟨1, _⟩ => show win0_1.index t (1 : Fin 2) * 512 + 1 * (x 1).val = (k 1).val; rw [e3, hk1]; omega

/-- Window 2's block at point `t` is rows `1024 t … 1024 t + 1023` of its one-column array. -/
theorem iblk0_2_apply (c : Dev nD) (t : Fin cfg0.N) (x : S1024x1.Idx) (k : S8192x1.Idx)
    (hk0 : (k 0).val = 1024 * t.val + (x 0).val) (hk1 : (k 1).val = (x 1).val) :
    (iblk0 V c 2 t : Vec Ideal S1024x1 .f32) x = (V c main_v12 : S8192x1.Idx → EReal) k := by
  obtain ⟨-, -, -, -, e4, e5, -⟩ := idx_facts t
  unfold iblk0
  rw [View.read_apply]
  show V c main_v12 _ = V c main_v12 _
  refine congrArg (V c main_v12) ?_
  funext a
  apply Fin.ext
  match a with
  | ⟨0, _⟩ => show win0_2.index t (0 : Fin 2) * 1024 + 1 * (x 0).val = (k 0).val; rw [e4, hk0]; omega
  | ⟨1, _⟩ => show win0_2.index t (1 : Fin 2) * 1 + 1 * (x 1).val = (k 1).val; rw [e5, hk1]; omega

/-- The stored block's entry `j` at point `t` is the scaled product at the array index `i` on row
    `1024 t + j₀`, column `j₁`. -/
theorem blk_hs (c : Dev nD) (t : Fin cfg0.N) (j : S1024x256.Idx) (i : S8192x256.Idx)
    (hi0 : (i 0).val = 1024 * t.val + (j 0).val) (hi1 : (i 1).val = (j 1).val) :
    k0_pay1 (iblk0 V c 0 t) (iblk0 V c 1 t) (iblk0 V c 2 t) j
      = Cert.Gcn.hsOf (V c main_v28) (V c main_v29) (V c main_v12) i := by
  obtain ⟨p, q, rfl⟩ : ∃ (p : Fin 1024) (q : Fin 256), j = ix2 p q := ⟨j 0, j 1, eq_ix2 j⟩
  refine (pay_apply (iblk0 V c 0 t) (iblk0 V c 1 t) (iblk0 V c 2 t) p q).trans ?_
  unfold Cert.Gcn.hsOf
  refine congrArg₂ (· * ·) (Finset.sum_congr rfl fun k _ => congrArg₂ (· * ·) ?_ ?_) ?_
  · exact iblk0_0_apply V c t (ix2 p k) (ix2 (Cert.Gcn.row i) k) hi0 rfl
  · exact iblk0_1_apply V c t (ix2 q k) (ix2 (Cert.Gcn.col i) k) hi1 rfl
  · exact iblk0_2_apply V c t (ix2 p (0 : Fin 1)) (ix2 (Cert.Gcn.row i) (0 : Fin 1)) hi0 rfl

/-- WHAT POINT `t` WRITES BACK is block `t` of the scaled product of the arrays as the region finds them. -/
theorem flushed3_eq (c : Dev nD) (t : Fin cfg0.N) :
    (dat0 V c).flushed 3 t
      = ((cfg0.win 3).blk t).view.read (Elt Ideal) (Cert.Gcn.hsOf (V c main_v28) (V c main_v29) (V c main_v12)) := by
  show (cfg0.win 3).cut (grid0.coords t) ((dat0 V c).after 3 t) = _
  rw [after0_3]
  unfold out0_3
  rw [View.canon_unit_zero hz]
  simp only [View.ld_unit_zero (S := S1024x512) hz, View.ld_unit_zero (S := S256x512) hz, View.ld_unit_zero (S := S1024x1) hz]
  obtain ⟨-, -, -, -, -, -, e6, e7⟩ := idx_facts t
  funext j
  show k0_pay1 (iblk0 V c 0 t) (iblk0 V c 1 t) (iblk0 V c 2 t) j
    = Cert.Gcn.hsOf (V c main_v28) (V c main_v29) (V c main_v12) (((cfg0.win 3).blk t).view.emb j)
  refine blk_hs V c t j _ ?_ ?_
  · show win0_3.index t (0 : Fin 2) * 1024 + 1 * (j 0).val = 1024 * t.val + (j 0).val
    rw [e6]; omega
  · show win0_3.index t (1 : Fin 2) * 256 + 1 * (j 1).val = (j 1).val
    rw [e7]; omega

/-- An index of the array is in point `t`'s block iff each coordinate is in the block's range on its axis. -/
theorem mem_blk3 (t : Fin cfg0.N) (i : S8192x256.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v30).slice (win0_3.rect t)).set ↔ _
  rw [View.set_slice_whole, Rect.mem_set_unit]
  exact Iff.rfl

/-- Every index of the array is in some point's block: row `r` is in the block of point `r / 1024`. -/
theorem cover3 (i : S8192x256.Idx) :
    ∃ t : Fin cfg0.N, (cfg0.win 3).flush t = true ∧ i ∈ ((cfg0.win 3).blk t).view.set := by
  have hi0 : (i 0).val < 8192 := (i 0).isLt
  have hi1 : (i 1).val < 256 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, e6, e7⟩ := idx_facts t
  refine ⟨t, flush0_3 t, ?_⟩
  rw [mem_blk3]
  intro a
  match a with
  | ⟨0, _⟩ =>
    show win0_3.index t (0 : Fin 2) * 1024 ≤ (i 0).val ∧ (i 0).val < win0_3.index t (0 : Fin 2) * 1024 + 1024
    rw [e6, ht]; omega
  | ⟨1, _⟩ =>
    show win0_3.index t (1 : Fin 2) * 256 ≤ (i 1).val ∧ (i 1).val < win0_3.index t (1 : Fin 2) * 256 + 256
    rw [e7]; omega

/-- THE OUTPUT ARRAY after the region's 8 write-backs: the product of the first operand by the transpose of the
    second, each row scaled by the column's entry of that row — all three as the region finds them. -/
theorem arrAt0_3 (c : Dev nD) :
    (dat0 (F := Ideal) V c).arrAt 3 cfg0.N = Cert.Gcn.hsOf (V c main_v28) (V c main_v29) (V c main_v12) :=
  (dat0 V c).arrAt_eq_of_cover 3 (Cert.Gcn.hsOf (V c main_v28) (V c main_v29) (V c main_v12))
    (fun t _ => flushed3_eq V c t) cover3

end Region

end Cert.KernelIdeal.HandValue

end
-- ==== Proof.KI.AccValuePieces.lean ====
/-
  The second matrix product's body, case by case: what its stores leave in the accumulator and in the output's block,
  as the body's arithmetic applied to the point's blocks.

  At slab 0 the accumulator is stored the zero splat, read back, and stored that plus the slab's product; at slabs 1
  and 2 it is read and stored itself plus the slab's product; at slab 3 likewise, and the output's block is then
  stored (the accumulator just stored + the row block of the addend), each row scaled by the column block's entry on
  that row.  Every store and load goes through a whole buffer, so each buffer reads back the last thing stored.
  Stated for any float instance.
-/
import proofs.«162846_j38070590112568_1_alg».proof.Proof.KI.Acc
import Idealize.ShloMosaic.Lib.Pipeline.Value
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)

variable {F : FTy → Type} [FloatOps F]

/-- The all-zero offsets, however spelt. -/
theorem zeroOff2 : (![0, 0] : Fin 2 → Nat) = fun _ => 0 := funext fun a => by fin_cases a <;> rfl

/-- At slab 0 the accumulator is first stored the zero splat, then read back and stored the splat plus the slab's product. -/
theorem accFirst_eq (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : isFirstSlab i) (hlast : ¬isLastSlab i)
    (x0 : Vec F S1024x2048 .f32) (x1 : Vec F S2048x256 .f32) (x2 : Vec F S1024x256 .f32) (x3 : Vec F S1024x1 .f32) :
    accFirst c i arg2 harg2 arg3 harg3 arg4 harg4 arg5 harg5 arg6 harg6 arg7 harg7 hfirst hlast x0 x1 x2 x3 = k1_pay2 x0 x1 (k1_pay1 (F := F)) := by
  unfold accFirst
  rw [View.read_writes_eq_canon _ _ _ (accCoverFirst c i arg2 harg2 arg3 harg3 arg4 harg4 arg5 harg5 arg6 harg6 arg7 harg7 hfirst hlast x0 x1 x2 x3)]
  unfold slabFirstRun
  dsimp only
  try sl_unfold_words
  rw [View.canon_cons_unit_zero zeroOff2, View.readCov_unit_zero (S := S1024x256) _ zeroOff2]
  simp only [View.readAt_eq_ld, harg2.read_unread, harg3.read_unread, harg4.read_unread, harg5.read_unread, harg7.read_unread,
    View.ld_unit_zero (S := S1024x2048) zeroOff2, View.ld_unit_zero (S := S2048x256) zeroOff2, View.ld_unit_zero (S := S1024x256) zeroOff2, View.ld_unit_zero (S := S1024x1) zeroOff2]

/-- At slabs 1 and 2 the accumulator gains the slab's product. -/
theorem accMid_eq (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : ¬isFirstSlab i) (hlast : ¬isLastSlab i)
    (x0 : Vec F S1024x2048 .f32) (x1 : Vec F S2048x256 .f32) (x2 : Vec F S1024x256 .f32) (x3 : Vec F S1024x1 .f32) (acc : Vec F S1024x256 .f32) :
    accMid c i arg2 harg2 arg3 harg3 arg4 harg4 arg5 harg5 arg6 harg6 arg7 harg7 hfirst hlast x0 x1 x2 x3 acc = k1_pay2 x0 x1 acc := by
  unfold accMid
  rw [View.read_writes_eq_canon _ _ _ (accCoverMid c i arg2 harg2 arg3 harg3 arg4 harg4 arg5 harg5 arg6 harg6 arg7 harg7 hfirst hlast x0 x1 x2 x3 acc)]
  unfold slabMidRun
  dsimp only
  try sl_unfold_words
  rw [View.canon_unit_zero zeroOff2]
  simp only [View.readAt_eq_ld, harg2.read_unread, harg3.read_unread, harg4.read_unread, harg5.read_unread, harg7.read_unread,
    View.ld_unit_zero (S := S1024x2048) zeroOff2, View.ld_unit_zero (S := S2048x256) zeroOff2, View.ld_unit_zero (S := S1024x256) zeroOff2, View.ld_unit_zero (S := S1024x1) zeroOff2]

/-- At slab 3 the accumulator gains the slab's product. -/
theorem accLast_eq (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : ¬isFirstSlab i) (hlast : isLastSlab i)
    (x0 : Vec F S1024x2048 .f32) (x1 : Vec F S2048x256 .f32) (x2 : Vec F S1024x256 .f32) (x3 : Vec F S1024x1 .f32) (acc : Vec F S1024x256 .f32) :
    accLast c i arg2 harg2 arg3 harg3 arg4 harg4 arg5 harg5 arg6 harg6 arg7 harg7 hfirst hlast x0 x1 x2 x3 acc = k1_pay2 x0 x1 acc := by
  unfold accLast
  rw [View.read_writes_eq_canon _ _ _ (accCoverLast c i arg2 harg2 arg3 harg3 arg4 harg4 arg5 harg5 arg6 harg6 arg7 harg7 hfirst hlast x0 x1 x2 x3 acc)]
  unfold slabLastRun
  dsimp only
  try sl_unfold_words
  rw [View.canon_unit_zero zeroOff2]
  simp only [View.readAt_eq_ld, harg2.read_unread, harg3.read_unread, harg4.read_unread, harg5.read_unread, harg7.read_unread,
    View.ld_unit_zero (S := S1024x2048) zeroOff2, View.ld_unit_zero (S := S2048x256) zeroOff2, View.ld_unit_zero (S := S1024x256) zeroOff2, View.ld_unit_zero (S := S1024x1) zeroOff2]

/-- At slab 3 the output's block is stored the third payload of the accumulator just stored, the row block of the
    addend and the column block of row scales. -/
theorem outLast_eq (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : ¬isFirstSlab i) (hlast : isLastSlab i)
    (x0 : Vec F S1024x2048 .f32) (x1 : Vec F S2048x256 .f32) (x2 : Vec F S1024x256 .f32) (x3 : Vec F S1024x1 .f32) (acc : Vec F S1024x256 .f32) :
    outLast c i arg2 harg2 arg3 harg3 arg4 harg4 arg5 harg5 arg6 harg6 arg7 harg7 hfirst hlast x0 x1 x2 x3 acc = k1_pay3 (k1_pay2 x0 x1 acc) x2 x3 := by
  unfold outLast
  rw [View.read_writes_eq_canon _ _ _ (outCoverLast c i arg2 harg2 arg3 harg3 arg4 harg4 arg5 harg5 arg6 harg6 arg7 harg7 hfirst hlast x0 x1 x2 x3 acc)]
  unfold slabLastRun
  dsimp only
  try sl_unfold_words
  rw [View.canon_unit_zero zeroOff2, View.readCov_unit_zero (S := S1024x256) _ zeroOff2]
  simp only [View.readAt_eq_ld, harg2.read_unread, harg3.read_unread, harg4.read_unread, harg5.read_unread, harg7.read_unread,
    View.ld_unit_zero (S := S1024x2048) zeroOff2, View.ld_unit_zero (S := S2048x256) zeroOff2, View.ld_unit_zero (S := S1024x256) zeroOff2, View.ld_unit_zero (S := S1024x1) zeroOff2]

end Cert.KernelIdeal.HandValue

end
-- ==== Proof.KI.AccValueBlocks.lean ====
/-
  The second matrix product on the extended reals: the body's arithmetic read at an index, and each window's block at
  a grid point as a part of its array.

  The accumulating payload at (p, q) is the accumulator's entry plus ∑ over the 2048 shared coordinates of
  (first block)[p, ·] · (second block)[·, q]; the stored result at (p, q) is (accumulator + addend)[p, q] times the
  column block's entry on row p; the zero splat reads 0.  Grid point t is row block t / 4, slab t % 4: the dense
  matrix's block is rows 1024 (t/4) …, columns 2048 (t%4) …; the [8192,256] array is read twice, as rows
  2048 (t%4) … (the slab's factor) and as rows 1024 (t/4) … (the addend); the one-column array as rows 1024 (t/4) ….
-/
import proofs.«162846_j38070590112568_1_alg».proof.Proof.KI.AccValuePieces
import proofs.«162846_j38070590112568_1_alg».proof.Proof.Spec
import proofs.«162846_j38070590112568_1_alg».proof.Proof.LibPlainDot
import proofs.«162846_j38070590112568_1_alg».proof.Proof.LibKeepdims
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The body's arithmetic at an index -/

/-- The zero splat reads zero. -/
theorem pay1_apply (p : Fin 1024) (q : Fin 256) : k1_pay1 (F := Ideal) (ix2 p q) = 0 := by
  unfold k1_pay1
  simp only [shapeCast_self]
  exact Ideal.ofBits_zero_f32

/-- A [1024,2048] by [2048,256] product into the zero splat, read at `(p, q)`: the sum over the shared coordinate. -/
theorem mm1_apply (a : FVec Ideal S1024x2048 .bf16) (b : FVec Ideal S2048x256 .bf16) (p : Fin 1024) (q : Fin 256) :
    matmul dot_S1024x2048_S2048x256_S1024x256_1_0_0_1_n_n none a b (constant (F := Ideal) S1024x256 .f32 0x00000000#32) (ix2 p q)
      = ∑ k : Fin 2048, a (ix2 p k) * b (ix2 k q) :=
  PlainDot.matmul_zero_apply 1024 2048 256 none a b p q

/-- THE ACCUMULATING PAYLOAD AT AN INDEX: entry `(p, q)` of what is stored is the accumulator's entry plus the inner
    product of row `p` of the first block with column `q` of the second (rounding to the narrower format is the
    identity on the extended reals). -/
theorem pay2_apply (x0 : Vec Ideal S1024x2048 .f32) (x1 : Vec Ideal S2048x256 .f32) (acc : Vec Ideal S1024x256 .f32)
    (p : Fin 1024) (q : Fin 256) :
    k1_pay2 x0 x1 acc (ix2 p q) = acc (ix2 p q) + ∑ kk : Fin 2048, x0 (ix2 p kk) * x1 (ix2 kk q) := by
  unfold k1_pay2
  simp only [shapeCast_self]
  refine (addf_apply _ _ _).trans ?_
  refine congrArg (acc (ix2 p q) + ·) ?_
  exact mm1_apply _ _ p q

/-- THE STORED RESULT AT AN INDEX: (accumulator + addend) at `(p, q)`, times the column's entry on row `p`. -/
theorem pay3_apply (a : Vec Ideal S1024x256 .f32) (h : Vec Ideal S1024x256 .f32) (d : Vec Ideal S1024x1 .f32)
    (p : Fin 1024) (q : Fin 256) :
    k1_pay3 a h d (ix2 p q) = (a (ix2 p q) + h (ix2 p q)) * d (ix2 p (0 : Fin 1)) := by
  unfold k1_pay3
  simp only [shapeCast_self]
  refine (mulf_apply _ _ _).trans ?_
  refine congrArg₂ (· * ·) (addf_apply _ _ _) ?_
  exact Cert.LibKeepdims.broadcastTo_a1_ab_apply d broadcasts_S1024x1_S1024x256 p q

section Region
-- the TensorCore's buffer contents when the region is entered
variable (V : (c : Dev nD) → (b : Ref sig .tc) → Buf (Elt Ideal) ((c : Thread nD τ).loc b))

/-! ## The windows' blocks as parts of their arrays -/

/-- The printed index maps, decided over the grid's 32 points: point `t` is row block `t / 4`, slab `t % 4`. -/
theorem idx_facts1 : ∀ t : Fin cfg1.N, win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = t.val / 4 ∧ win1_3.index t (1 : Fin 2) = 0
    ∧ win1_4.index t (0 : Fin 2) = t.val / 4 ∧ win1_4.index t (1 : Fin 2) = 0 :=
  (by decide +kernel : ∀ t : Fin grid1.N, _)

/-- Window 0's block at point `t`: rows `1024 (t/4) …`, columns `2048 (t%4) …` of the dense matrix. -/
theorem iblk1_0_apply (c : Dev nD) (t : Fin cfg1.N) (x : S1024x2048.Idx) (k : S8192x8192.Idx)
    (hk0 : (k 0).val = 1024 * (t.val / 4) + (x 0).val) (hk1 : (k 1).val = 2048 * (t.val % 4) + (x 1).val) :
    (iblk1 V c 0 t : Vec Ideal S1024x2048 .f32) x = (V c main_v27 : S8192x8192.Idx → EReal) k := by
  obtain ⟨e0, e1, -⟩ := idx_facts1 t
  unfold iblk1
  rw [View.read_apply]
  show V c main_v27 _ = V c main_v27 _
  refine congrArg (V c main_v27) ?_
  funext a
  apply Fin.ext
  match a with
  | ⟨0, _⟩ => show win1_0.index t (0 : Fin 2) * 1024 + 1 * (x 0).val = (k 0).val; rw [e0, hk0]; omega
  | ⟨1, _⟩ => show win1_0.index t (1 : Fin 2) * 2048 + 1 * (x 1).val = (k 1).val; rw [e1, hk1]; omega

/-- Window 1's block at point `t`: rows `2048 (t%4) …` of the [8192,256] array. -/
theorem iblk1_1_apply (c : Dev nD) (t : Fin cfg1.N) (x : S2048x256.Idx) (k : S8192x256.Idx)
    (hk0 : (k 0).val = 2048 * (t.val % 4) + (x 0).val) (hk1 : (k 1).val = (x 1).val) :
    (iblk1 V c 1 t : Vec Ideal S2048x256 .f32) x = (V c main_v30 : S8192x256.Idx → EReal) k := by
  obtain ⟨-, -, e0, e1, -⟩ := idx_facts1 t
  unfold iblk1
  rw [View.read_apply]
  show V c main_v30 _ = V c main_v30 _
  refine congrArg (V c main_v30) ?_
  funext a
  apply Fin.ext
  match a with
  | ⟨0, _⟩ => show win1_1.index t (0 : Fin 2) * 2048 + 1 * (x 0).val = (k 0).val; rw [e0, hk0]; omega
  | ⟨1, _⟩ => show win1_1.index t (1 : Fin 2) * 256 + 1 * (x 1).val = (k 1).val; rw [e1, hk1]; omega

/-- Window 2's block at point `t`: rows `1024 (t/4) …` of the [8192,256] array. -/
theorem iblk1_2_apply (c : Dev nD) (t : Fin cfg1.N) (x : S1024x256.Idx) (k : S8192x256.Idx)
    (hk0 : (k 0).val = 1024 * (t.val / 4) + (x 0).val) (hk1 : (k 1).val = (x 1).val) :
    (iblk1 V c 2 t : Vec Ideal S1024x256 .f32) x = (V c main_v30 : S8192x256.Idx → EReal) k := by
  obtain ⟨-, -, -, -, e0, e1, -⟩ := idx_facts1 t
  unfold iblk1
  rw [View.read_apply]
  show V c main_v30 _ = V c main_v30 _
  refine congrArg (V c main_v30) ?_
  funext a
  apply Fin.ext
  match a with
  | ⟨0, _⟩ => show win1_2.index t (0 : Fin 2) * 1024 + 1 * (x 0).val = (k 0).val; rw [e0, hk0]; omega
  | ⟨1, _⟩ => show win1_2.index t (1 : Fin 2) * 256 + 1 * (x 1).val = (k 1).val; rw [e1, hk1]; omega

/-- Window 3's block at point `t`: rows `1024 (t/4) …` of the one-column array. -/
theorem iblk1_3_apply (c : Dev nD) (t : Fin cfg1.N) (x : S1024x1.Idx) (k : S8192x1.Idx)
    (hk0 : (k 0).val = 1024 * (t.val / 4) + (x 0).val) (hk1 : (k 1).val = (x 1).val) :
    (iblk1 V c 3 t : Vec Ideal S1024x1 .f32) x = (V c main_v12 : S8192x1.Idx → EReal) k := by
  obtain ⟨-, -, -, -, -, -, e0, e1, -⟩ := idx_facts1 t
  unfold iblk1
  rw [View.read_apply]
  show V c main_v12 _ = V c main_v12 _
  refine congrArg (V c main_v12) ?_
  funext a
  apply Fin.ext
  match a with
  | ⟨0, _⟩ => show win1_3.index t (0 : Fin 2) * 1024 + 1 * (x 0).val = (k 0).val; rw [e0, hk0]; omega
  | ⟨1, _⟩ => show win1_3.index t (1 : Fin 2) * 1 + 1 * (x 1).val = (k 1).val; rw [e1, hk1]; omega

end Region

end Cert.KernelIdeal.HandValue

end
-- ==== Proof.KI.AccValue.lean ====
/-
  The second TensorCore region's output array, read: after the region's 8 write-backs the [8192,256] result holds, at
  (r, d), ((S₀ + S₁) + S₂) + S₃ + hs[r, d], times the one-column array's entry on row r, where
  S_k = ∑ over the 2048 nodes of slab k of B[r, ·] · hs[·, d] — all three arrays as the region finds them
  (`Cert.Gcn.outOf`).

  The steps: each case of the body at an index (p, q) of its block, from the body's arithmetic; the product of the two
  factor blocks of grid point t is slab t % 4 of B·hs on row 1024 (t/4) + p (`slab_sum`); by induction on the point,
  the accumulator after point n holds the slabs 0 … n % 4 of its row block, accumulated from the left, starting again
  from zero at every slab 0 (`acc_inv`: 0 + x = x on the extended reals is the one law used); at a point of slab 3
  the output's block is therefore the result's row block (`out_last`); what such a point writes back is block t / 4
  of the one whole-array function (`flushed4_eq`); these 8 blocks cover the array, row r by point 4 (r / 1024) + 3
  (`cover4`); so the array ends holding that function (`arrAt1_4`).  Stated on the extended reals.
-/
import proofs.«162846_j38070590112568_1_alg».proof.Proof.KI.AccValueBlocks
import proofs.«162846_j38070590112568_1_alg».proof.Proof.Spec
import proofs.«162846_j38070590112568_1_alg».proof.Proof.LibPlainDot
import proofs.«162846_j38070590112568_1_alg».proof.Proof.LibKeepdims
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## What each case leaves, at an index -/

/-- Slab 0: the accumulator ends at the slab's product (the zero it started from adds nothing). -/
theorem accFirst_apply (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : isFirstSlab i) (hlast : ¬isLastSlab i)
    (x0 : Vec Ideal S1024x2048 .f32) (x1 : Vec Ideal S2048x256 .f32) (x2 : Vec Ideal S1024x256 .f32) (x3 : Vec Ideal S1024x1 .f32) (p : Fin 1024) (q : Fin 256) :
    accFirst (F := Ideal) c i arg2 harg2 arg3 harg3 arg4 harg4 arg5 harg5 arg6 harg6 arg7 harg7 hfirst hlast x0 x1 x2 x3 (ix2 p q) = ∑ kk : Fin 2048, x0 (ix2 p kk) * x1 (ix2 kk q) := by
  rw [accFirst_eq]
  refine (pay2_apply x0 x1 _ p q).trans ?_
  rw [pay1_apply, zero_add]

/-- Slabs 1 and 2: the accumulator gains the slab's product. -/
theorem accMid_apply (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : ¬isFirstSlab i) (hlast : ¬isLastSlab i)
    (x0 : Vec Ideal S1024x2048 .f32) (x1 : Vec Ideal S2048x256 .f32) (x2 : Vec Ideal S1024x256 .f32) (x3 : Vec Ideal S1024x1 .f32) (acc : Vec Ideal S1024x256 .f32) (p : Fin 1024) (q : Fin 256) :
    accMid (F := Ideal) c i arg2 harg2 arg3 harg3 arg4 harg4 arg5 harg5 arg6 harg6 arg7 harg7 hfirst hlast x0 x1 x2 x3 acc (ix2 p q)
      = acc (ix2 p q) + ∑ kk : Fin 2048, x0 (ix2 p kk) * x1 (ix2 kk q) := by
  rw [accMid_eq]
  exact pay2_apply x0 x1 acc p q

/-- Slab 3: the accumulator gains the slab's product. -/
theorem accLast_apply (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : ¬isFirstSlab i) (hlast : isLastSlab i)
    (x0 : Vec Ideal S1024x2048 .f32) (x1 : Vec Ideal S2048x256 .f32) (x2 : Vec Ideal S1024x256 .f32) (x3 : Vec Ideal S1024x1 .f32) (acc : Vec Ideal S1024x256 .f32) (p : Fin 1024) (q : Fin 256) :
    accLast (F := Ideal) c i arg2 harg2 arg3 harg3 arg4 harg4 arg5 harg5 arg6 harg6 arg7 harg7 hfirst hlast x0 x1 x2 x3 acc (ix2 p q)
      = acc (ix2 p q) + ∑ kk : Fin 2048, x0 (ix2 p kk) * x1 (ix2 kk q) := by
  rw [accLast_eq]
  exact pay2_apply x0 x1 acc p q

/-- Slab 3: the output's block is (the full accumulator + the addend), each row scaled by the column's entry. -/
theorem outLast_apply (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1024x256 .f32) (harg6 : arg6.IsWhole) (arg7 : Memref sig .tc .vmem S1024x256 .f32) (harg7 : arg7.IsWhole) (hfirst : ¬isFirstSlab i) (hlast : isLastSlab i)
    (x0 : Vec Ideal S1024x2048 .f32) (x1 : Vec Ideal S2048x256 .f32) (x2 : Vec Ideal S1024x256 .f32) (x3 : Vec Ideal S1024x1 .f32) (acc : Vec Ideal S1024x256 .f32) (p : Fin 1024) (q : Fin 256) :
    outLast (F := Ideal) c i arg2 harg2 arg3 harg3 arg4 harg4 arg5 harg5 arg6 harg6 arg7 harg7 hfirst hlast x0 x1 x2 x3 acc (ix2 p q)
      = ((acc (ix2 p q) + ∑ kk : Fin 2048, x0 (ix2 p kk) * x1 (ix2 kk q)) + x2 (ix2 p q)) * x3 (ix2 p (0 : Fin 1)) := by
  rw [outLast_eq]
  refine (pay3_apply _ x2 x3 p q).trans ?_
  rw [pay2_apply]

/-! ## The accumulator, point by point -/

/-- The slabs 0 … n of the product B·hs at an index, accumulated from the left. -/
def slabsTo (B : Cert.Gcn.SB.Idx → EReal) (hs : Cert.Gcn.SO.Idx → EReal) : ℕ → Cert.Gcn.SO.Idx → EReal
  | 0, j => Cert.Gcn.blockSum B hs 0 j
  | n + 1, j => slabsTo B hs n j + Cert.Gcn.blockSum B hs ⟨(n + 1) % 4, Nat.mod_lt _ (by decide)⟩ j

theorem slabsTo_zero (B : Cert.Gcn.SB.Idx → EReal) (hs : Cert.Gcn.SO.Idx → EReal) (j : Cert.Gcn.SO.Idx) :
    slabsTo B hs 0 j = Cert.Gcn.blockSum B hs 0 j := rfl
theorem slabsTo_succ (B : Cert.Gcn.SB.Idx → EReal) (hs : Cert.Gcn.SO.Idx → EReal) (n : ℕ) (j : Cert.Gcn.SO.Idx) :
    slabsTo B hs (n + 1) j = slabsTo B hs n j + Cert.Gcn.blockSum B hs ⟨(n + 1) % 4, Nat.mod_lt _ (by decide)⟩ j := rfl

section Region
-- the TensorCore's buffer contents when the region is entered
variable (V : (c : Dev nD) → (b : Ref sig .tc) → Buf (Elt Ideal) ((c : Thread nD τ).loc b))

/-- The product of the two factor blocks of point `t` at `(p, q)` is slab `t % 4` of B·hs at the array index on row
    `1024 (t/4) + p`, column `q`. -/
theorem slab_sum (c : Dev nD) (t : Fin cfg1.N) (kb : Fin 4) (hkb : kb.val = t.val % 4) (p : Fin 1024) (q : Fin 256)
    (j : Cert.Gcn.SO.Idx) (hj0 : (j 0).val = 1024 * (t.val / 4) + p.val) (hj1 : (j 1).val = q.val)
    (x0 : Vec Ideal S1024x2048 .f32) (x1 : Vec Ideal S2048x256 .f32) (e0 : x0 = iblk1 V c 0 t) (e1 : x1 = iblk1 V c 1 t) :
    (∑ kk : Fin 2048, x0 (ix2 p kk) * x1 (ix2 kk q)) = Cert.Gcn.blockSum (V c main_v27) (V c main_v30) kb j := by
  subst e0 e1
  unfold Cert.Gcn.blockSum
  refine Finset.sum_congr rfl fun kk _ => congrArg₂ (· * ·) ?_ ?_
  · exact iblk1_0_apply V c t (ix2 p kk) (ix2 (Cert.Gcn.row j) (Cert.Gcn.slabIx kb kk)) hj0
      (by show 2048 * kb.val + kk.val = 2048 * (t.val % 4) + kk.val; rw [hkb])
  · exact iblk1_1_apply V c t (ix2 kk q) (ix2 (Cert.Gcn.slabIx kb kk) (Cert.Gcn.col j))
      (by show 2048 * kb.val + kk.val = 2048 * (t.val % 4) + kk.val; rw [hkb]) hj1

/-- At a point of slab 0 the accumulator holds slab 0 of the row block's product. -/
theorem acc_first (c : Dev nD) (t : Fin cfg1.N) (h0 : t.val % 4 = 0) (p : Fin 1024) (q : Fin 256)
    (j : Cert.Gcn.SO.Idx) (hj0 : (j 0).val = 1024 * (t.val / 4) + p.val) (hj1 : (j 1).val = q.val) :
    (outsAt1 V c t.val t.isLt).2 (ix2 p q) = slabsTo (V c main_v27) (V c main_v30) (t.val % 4) j := by
  have h3 : ¬t.val % 4 = 3 := by omega
  rw [outsAt1_first V c t h0 h3]
  dsimp only
  refine (accFirst_apply c (grid1.coords t) (mB t) (hmB t) (mHk t) (hmHk t) (mHi t) (hmHi t) (mD t) (hmD t) (mO t) (hmO t) accM (Memref.isWhole_whole _) ((isFirstSlab_iff t).mpr h0) (fun h => h3 ((isLastSlab_iff t).mp h)) (iblk1 V c 0 t) (iblk1 V c 1 t) (iblk1 V c 2 t) (iblk1 V c 3 t) p q).trans ?_
  rw [h0, slabsTo_zero]
  exact slab_sum V c t 0 h0.symm p q j hj0 hj1 (iblk1 V c 0 t) (iblk1 V c 1 t) rfl rfl

/-- At a point of a later slab the accumulator holds what the point before left plus this slab. -/
theorem acc_next (c : Dev nD) (t : Fin cfg1.N) (h0 : ¬t.val % 4 = 0)
    (ih : ∀ (p : Fin 1024) (q : Fin 256) (j : Cert.Gcn.SO.Idx), (j 0).val = 1024 * ((t.val - 1) / 4) + p.val → (j 1).val = q.val →
      (outsAt1 V c (t.val - 1) (Nat.lt_of_le_of_lt (Nat.sub_le _ _) t.isLt)).2 (ix2 p q) = slabsTo (V c main_v27) (V c main_v30) ((t.val - 1) % 4) j)
    (p : Fin 1024) (q : Fin 256)
    (j : Cert.Gcn.SO.Idx) (hj0 : (j 0).val = 1024 * (t.val / 4) + p.val) (hj1 : (j 1).val = q.val) :
    (outsAt1 V c t.val t.isLt).2 (ix2 p q) = slabsTo (V c main_v27) (V c main_v30) (t.val % 4) j := by
  have hdiv : (t.val - 1) / 4 = t.val / 4 := by omega
  have hmod : t.val % 4 = (t.val - 1) % 4 + 1 := by omega
  have hkb : ((t.val - 1) % 4 + 1) % 4 = t.val % 4 := by omega
  have hprev := ih p q j (by rw [hdiv]; exact hj0) hj1
  have hslab := slab_sum V c t ⟨((t.val - 1) % 4 + 1) % 4, Nat.mod_lt _ (by decide)⟩ hkb p q j hj0 hj1 (iblk1 V c 0 t) (iblk1 V c 1 t) rfl rfl
  by_cases h3 : t.val % 4 = 3
  · rw [outsAt1_last V c t h0 h3]
    dsimp only
    refine (accLast_apply c (grid1.coords t) (mB t) (hmB t) (mHk t) (hmHk t) (mHi t) (hmHi t) (mD t) (hmD t) (mO t) (hmO t) accM (Memref.isWhole_whole _) (fun h => h0 ((isFirstSlab_iff t).mp h)) ((isLastSlab_iff t).mpr h3) (iblk1 V c 0 t) (iblk1 V c 1 t) (iblk1 V c 2 t) (iblk1 V c 3 t) (outsAt1 V c (t.val - 1) (Nat.lt_of_le_of_lt (Nat.sub_le _ _) t.isLt)).2 p q).trans ?_
    rw [hmod, slabsTo_succ]
    exact congrArg₂ (· + ·) hprev hslab
  · rw [outsAt1_mid V c t h0 h3]
    dsimp only
    refine (accMid_apply c (grid1.coords t) (mB t) (hmB t) (mHk t) (hmHk t) (mHi t) (hmHi t) (mD t) (hmD t) (mO t) (hmO t) accM (Memref.isWhole_whole _) (fun h => h0 ((isFirstSlab_iff t).mp h)) (fun h => h3 ((isLastSlab_iff t).mp h)) (iblk1 V c 0 t) (iblk1 V c 1 t) (iblk1 V c 2 t) (iblk1 V c 3 t) (outsAt1 V c (t.val - 1) (Nat.lt_of_le_of_lt (Nat.sub_le _ _) t.isLt)).2 p q).trans ?_
    rw [hmod, slabsTo_succ]
    exact congrArg₂ (· + ·) hprev hslab

/-- THE INVARIANT: after point `n` the accumulator holds, at `(p, q)`, the slabs 0 … `n % 4` of the product on row
    `1024 (n/4) + p`, column `q`, accumulated from the left. -/
theorem acc_inv (c : Dev nD) : ∀ (n : ℕ) (hn : n < cfg1.N) (p : Fin 1024) (q : Fin 256) (j : Cert.Gcn.SO.Idx),
    (j 0).val = 1024 * (n / 4) + p.val → (j 1).val = q.val →
    (outsAt1 V c n hn).2 (ix2 p q) = slabsTo (V c main_v27) (V c main_v30) (n % 4) j := by
  intro n
  induction n with
  | zero =>
    intro hn p q j hj0 hj1
    exact acc_first V c ⟨0, hn⟩ rfl p q j hj0 hj1
  | succ n ih =>
    intro hn p q j hj0 hj1
    by_cases h0 : (n + 1) % 4 = 0
    · exact acc_first V c ⟨n + 1, hn⟩ h0 p q j hj0 hj1
    · exact acc_next V c ⟨n + 1, hn⟩ h0 (fun p q j a b => ih (Nat.lt_of_succ_lt hn) p q j a b) p q j hj0 hj1

/-- At a point of slab 3 the output's block holds the result's row block. -/
theorem out_last (c : Dev nD) (t : Fin cfg1.N) (h3 : t.val % 4 = 3) (p : Fin 1024) (q : Fin 256)
    (j : Cert.Gcn.SO.Idx) (hj0 : (j 0).val = 1024 * (t.val / 4) + p.val) (hj1 : (j 1).val = q.val) :
    (outsAt1 V c t.val t.isLt).1 (ix2 p q) = Cert.Gcn.outOf (V c main_v27) (V c main_v30) (V c main_v12) j := by
  have h0 : ¬t.val % 4 = 0 := by omega
  have hdiv : (t.val - 1) / 4 = t.val / 4 := by omega
  have hmod : (t.val - 1) % 4 = 2 := by omega
  have hprev := acc_inv V c (t.val - 1) (Nat.lt_of_le_of_lt (Nat.sub_le _ _) t.isLt) p q j (by rw [hdiv]; exact hj0) hj1
  rw [hmod] at hprev
  have hslab := slab_sum V c t 3 h3.symm p q j hj0 hj1 (iblk1 V c 0 t) (iblk1 V c 1 t) rfl rfl
  rw [outsAt1_last V c t h0 h3]
  dsimp only
  refine (outLast_apply c (grid1.coords t) (mB t) (hmB t) (mHk t) (hmHk t) (mHi t) (hmHi t) (mD t) (hmD t) (mO t) (hmO t) accM (Memref.isWhole_whole _) (fun h => h0 ((isFirstSlab_iff t).mp h)) ((isLastSlab_iff t).mpr h3) (iblk1 V c 0 t) (iblk1 V c 1 t) (iblk1 V c 2 t) (iblk1 V c 3 t) (outsAt1 V c (t.val - 1) (Nat.lt_of_le_of_lt (Nat.sub_le _ _) t.isLt)).2 p q).trans ?_
  unfold Cert.Gcn.outOf
  refine congrArg₂ (· * ·) (congrArg₂ (· + ·) ?_ ?_) ?_
  · exact (congrArg₂ (· + ·) hprev hslab).trans rfl
  · exact iblk1_2_apply V c t (ix2 p q) j hj0 hj1
  · exact iblk1_3_apply V c t (ix2 p (0 : Fin 1)) (ix2 (Cert.Gcn.row j) (0 : Fin 1)) hj0 rfl

/-! ## The output array -/

/-- WHAT A POINT OF SLAB 3 WRITES BACK is its row block of the result computed from the arrays as the region finds them. -/
theorem flushed4_eq (c : Dev nD) (t : Fin cfg1.N) (hf : (cfg1.win 4).flush t = true) :
    (dat1 V c).flushed 4 t
      = ((cfg1.win 4).blk t).view.read (Elt Ideal) (Cert.Gcn.outOf (V c main_v27) (V c main_v30) (V c main_v12)) := by
  have h3 : t.val % 4 = 3 := (flush1_4 t).mp hf
  show (cfg1.win 4).cut (grid1.coords t) ((dat1 V c).after 4 t) = _
  rw [after1_4]
  obtain ⟨-, -, -, -, -, -, -, -, e8, e9⟩ := idx_facts1 t
  funext j
  obtain ⟨p, q, rfl⟩ : ∃ (p : Fin 1024) (q : Fin 256), j = ix2 p q := ⟨j 0, j 1, eq_ix2 j⟩
  show (outsAt1 V c t.val t.isLt).1 (ix2 p q)
    = Cert.Gcn.outOf (V c main_v27) (V c main_v30) (V c main_v12) (((cfg1.win 4).blk t).view.emb (ix2 p q))
  refine out_last V c t h3 p q _ ?_ ?_
  · show win1_4.index t (0 : Fin 2) * 1024 + 1 * p.val = 1024 * (t.val / 4) + p.val
    rw [e8]; omega
  · show win1_4.index t (1 : Fin 2) * 256 + 1 * q.val = q.val
    rw [e9]; omega

/-- An index of the array is in point `t`'s block iff each coordinate is in the block's range on its axis. -/
theorem mem_blk4 (t : Fin cfg1.N) (i : S8192x256.Idx) :
    i ∈ ((cfg1.win 4).blk t).view.set ↔ ∀ a : Fin 2, win1_4.index t a * S1024x256.size a ≤ (i a).val
      ∧ (i a).val < win1_4.index t a * S1024x256.size a + S1024x256.size a := by
  show i ∈ ((View.whole main_v31).slice (win1_4.rect t)).set ↔ _
  rw [View.set_slice_whole, Rect.mem_set_unit]
  exact Iff.rfl

/-- Every index of the array is in the block of a point that writes back: row `r` in that of point `4 (r / 1024) + 3`. -/
theorem cover4 (i : S8192x256.Idx) :
    ∃ t : Fin cfg1.N, (cfg1.win 4).flush t = true ∧ i ∈ ((cfg1.win 4).blk t).view.set := by
  have hi0 : (i 0).val < 8192 := (i 0).isLt
  have hi1 : (i 1).val < 256 := (i 1).isLt
  have hN : cfg1.N = 32 := N_1
  obtain ⟨t, ht⟩ : ∃ t : Fin cfg1.N, t.val = 4 * ((i 0).val / 1024) + 3 :=
    ⟨⟨4 * ((i 0).val / 1024) + 3, by rw [hN]; omega⟩, rfl⟩
  obtain ⟨-, -, -, -, -, -, -, -, e8, e9⟩ := idx_facts1 t
  refine ⟨t, (flush1_4 t).mpr (by rw [ht]; omega), ?_⟩
  rw [mem_blk4]
  intro a
  match a with
  | ⟨0, _⟩ =>
    show win1_4.index t (0 : Fin 2) * 1024 ≤ (i 0).val ∧ (i 0).val < win1_4.index t (0 : Fin 2) * 1024 + 1024
    rw [e8, ht]; omega
  | ⟨1, _⟩ =>
    show win1_4.index t (1 : Fin 2) * 256 ≤ (i 1).val ∧ (i 1).val < win1_4.index t (1 : Fin 2) * 256 + 256
    rw [e9]; omega

/-- THE OUTPUT ARRAY after the region's 8 write-backs: (B·hs accumulated slab by slab from the left, plus hs), each
    row scaled by the column's entry of that row — all three arrays as the region finds them. -/
theorem arrAt1_4 (c : Dev nD) :
    (dat1 (F := Ideal) V c).arrAt 4 cfg1.N = Cert.Gcn.outOf (V c main_v27) (V c main_v30) (V c main_v12) :=
  (dat1 V c).arrAt_eq_of_cover 4 (Cert.Gcn.outOf (V c main_v27) (V c main_v30) (V c main_v12))
    (fun t hf => flushed4_eq V c t hf) cover4

end Region

end Cert.KernelIdeal.HandValue

end
-- ==== Proof.KI.Result.lean ====
/-
  The program's result as one function of what the host operations leave.

  The second product ends with its result array at (B·hs summed over four slabs, plus hs) scaled row by row by dinv,
  where B, hs and dinv are the contents of three arrays at its entry.  Of these, B and dinv are what the host
  operations left (the first product only reads dinv and does not touch B), and hs is the first product's result,
  the rows of x·Wᵀ scaled by dinv.
-/
import proofs.«162846_j38070590112568_1_alg».proof.Proof.KI.Run
import proofs.«162846_j38070590112568_1_alg».proof.Proof.KI.Region0Value
import proofs.«162846_j38070590112568_1_alg».proof.Proof.KI.AccValue

set_option maxRecDepth 16384

noncomputable section

namespace Cert.KernelIdeal.HandValue

open Cert.KernelIdeal Cert.KernelIdeal.Gen Cert.KernelIdeal.Hand
open Idealize.ShloMosaic Idealize.ShloMosaic.TcCoe
open Idealize.SL Idealize.SL.Sem
open Idealize.ShloMosaic.Pipeline (Dat)

variable (m : (ℓ : Loc nD τ sig) → Buf (Elt Ideal) ℓ) (ρ : Dev nD → PrngReg)

/-- What the second product's write-backs leave in the result array, from the contents after the host operations. -/
theorem result_eq (c : Dev nD) :
    (dat1 (F := Ideal) (V2 m ρ) c).arrAt 4 cfg1.N
      = Cert.Gcn.outOf (V1 m ρ c main_v27) (Cert.Gcn.hsOf (V1 m ρ c main_v28) (V1 m ρ c main_v29) (V1 m ρ c main_v12)) (V1 m ρ c main_v12) := by
  have e27 : V2 m ρ c main_v27 = V1 m ρ c main_v27 := W2_of_ne m ρ c main_v27 (by decide)
  have e12 : V2 m ρ c main_v12 = V1 m ρ c main_v12 :=
    (W2_arr m ρ c 2).trans (((dat0 (V1 m ρ) c).arrAt_in 2 rfl _).trans (A_eq0 (V1 m ρ) c 2))
  have e30 : V2 m ρ c main_v30 = Cert.Gcn.hsOf (V1 m ρ c main_v28) (V1 m ρ c main_v29) (V1 m ρ c main_v12) :=
    (W2_arr m ρ c 3).trans (arrAt0_3 (V1 m ρ) c)
  rw [arrAt1_4 (V2 m ρ) c, e27, e12, e30]

end Cert.KernelIdeal.HandValue

end
-- ==== Proof.HostVals.lean ====
/-
  What the kernel program's 38 host operations leave in the four arrays its two kernels read, as pure terms of the
  argument arrays (at the ideal instance): the column of inverse square roots of the degrees, the dense matrix of summed
  edge weights, and the two unchanged copies of the feature and weight matrices.
-/
import proofs.«162846_j38070590112568_1_alg».proof.Proof.Gen.KernelIdeal.Launch
import Idealize.ShloMosaic.Lib.StableHlo.Run
import Idealize.ShloMosaic.Lib.ValueIdx

noncomputable section

namespace Cert.Gcn

open Cert.KernelIdeal Cert.KernelIdeal.Gen Idealize.ShloMosaic Idealize.ShloMosaic.StableHlo Idealize.ShloMosaic.TcCoe

/-- Row 0 of the edge list (the sources), as a vector. -/
def srcK (ei : IVec S2x262144 32) : IVec S262144 32 :=
  shapeCast S262144 (extractStridedSlice S1x262144 ![0, 0] ei slices_S2x262144_S1x262144_0_0) shapeCasts_S1x262144_S262144
/-- Row 1 of the edge list (the destinations), as a vector. -/
def dstK (ei : IVec S2x262144 32) : IVec S262144 32 :=
  shapeCast S262144 (extractStridedSlice S1x262144 ![1, 0] ei slices_S2x262144_S1x262144_1_0) shapeCasts_S1x262144_S262144
/-- A node number with a negative value moved up by the number of nodes. -/
def wrapK (v : IVec S262144 32) : IVec S262144 32 :=
  select (cmpi .slt v (broadcastInDim S262144 ![] bcast_S_S262144 (constantI S_ 32 0#32)))
    (addi v (broadcastInDim S262144 ![] bcast_S_S262144 (constantI S_ 32 8192#32))) v
/-- The degrees: the edge weights summed at their (raw) sources, plus one. -/
def degK (ei : IVec S2x262144 32) (w : FVec Ideal S262144 .f32) : FVec Ideal S8192 .f32 :=
  addf (Host.scatterAdd scatter_S8192_S262144x1_S262144_n_0_0_1
      (broadcastInDim S8192 ![] bcast_S_S8192 (constant (F := Ideal) S_ .f32 0x00000000#32))
      (broadcastInDim S262144x1 ![0] bcast_S262144_S262144x1_0 (srcK ei)) w)
    (broadcastInDim S8192 ![] bcast_S_S8192 (constant (F := Ideal) S_ .f32 0x3F800000#32))
/-- The column of inverse square roots of the degrees. -/
def dvK (ei : IVec S2x262144 32) (w : FVec Ideal S262144 .f32) : FVec Ideal S8192x1 .f32 :=
  shapeCast S8192x1 (Host.divf (broadcastInDim S8192 ![] bcast_S_S8192 (constant (F := Ideal) S_ .f32 0x3F800000#32))
    (Host.sqrt (degK ei w))) shapeCasts_S8192_S8192x1
/-- The pairs (destination, source), negatives moved up. -/
def pairsK (ei : IVec S2x262144 32) : IVec S262144x2 32 :=
  concatenate S262144x2 1 [⟨S262144x1, broadcastInDim S262144x1 ![0] bcast_S262144_S262144x1_0 (wrapK (dstK ei))⟩,
    ⟨S262144x1, broadcastInDim S262144x1 ![0] bcast_S262144_S262144x1_0 (wrapK (srcK ei))⟩] concatenates_S262144x1_S262144x1_S262144x2_d1
/-- The dense matrix: the edge weights summed at (destination, source). -/
def BK (ei : IVec S2x262144 32) (w : FVec Ideal S262144 .f32) : FVec Ideal S8192x8192 .f32 :=
  Host.scatterAdd scatter_S8192x8192_S262144x2_S262144_n_01_01_1
    (broadcastInDim S8192x8192 ![] bcast_S_S8192x8192 (constant (F := Ideal) S_ .f32 0x00000000#32)) (pairsK ei) w

variable (V : Valuation τ sig (Elt Ideal))

/-- After the host operations the column of row scales holds `dvK` of the edge list and the weights. -/
theorem after_v12 :
    (StableHlo.after (hostOps0 (F := Ideal)) V (Proc.devRef .tc main_v12) : (⟨S8192x1, .f32⟩ : BufTy).Contents (Elt Ideal))
      = dvK (V (Proc.devRef .tc main_arg1)) (V (Proc.devRef .tc main_arg2)) := by
  dsimp only [hostOps0]
  after_results
  rfl

set_option maxHeartbeats 1600000 in
/-- After the host operations the dense matrix holds `BK` of the edge list and the weights. -/
theorem after_v27 :
    (StableHlo.after (hostOps0 (F := Ideal)) V (Proc.devRef .tc main_v27) : (⟨S8192x8192, .f32⟩ : BufTy).Contents (Elt Ideal))
      = BK (V (Proc.devRef .tc main_arg1)) (V (Proc.devRef .tc main_arg2)) := by
  dsimp only [hostOps0]
  after_results_simp
  rfl

/-- The narrowed copy of the features is the features (a format change is the identity on extended reals). -/
theorem after_v28 :
    (StableHlo.after (hostOps0 (F := Ideal)) V (Proc.devRef .tc main_v28) : (⟨S8192x512, .bf16⟩ : BufTy).Contents (Elt Ideal))
      = (V (Proc.devRef .tc main_arg0) : (⟨S8192x512, .f32⟩ : BufTy).Contents (Elt Ideal)) := by
  dsimp only [hostOps0]
  after_results
  rfl

/-- The narrowed copy of the weight matrix is the weight matrix. -/
theorem after_v29 :
    (StableHlo.after (hostOps0 (F := Ideal)) V (Proc.devRef .tc main_v29) : (⟨S256x512, .bf16⟩ : BufTy).Contents (Elt Ideal))
      = (V (Proc.devRef .tc main_arg3) : (⟨S256x512, .f32⟩ : BufTy).Contents (Elt Ideal)) := by
  dsimp only [hostOps0]
  after_results
  rfl

end Cert.Gcn

end
-- ==== Proof.LibRowScatter.lean ====
/-
  Where the updates of a row scatter land.

  What `x.at[idx].add(u)` of a table `x : [N, D]` (or a vector `x : [N]`) at a vector of row numbers lowers to: a
  scatter with inserted window axis 0, scatter-dims-to-operand-dims [0], the row numbers an `[E, 1]` array, and the
  updates `[E, D]` with window axis 1 (or `[E]` with no window axis). The update (e, j') lands at the table's entry
  (i, j) exactly when the row number `idx[e, 0]`, read as a signed integer and NOT clamped, is i, and j' = j; an
  update whose row number is outside 0 … N − 1 lands nowhere.
-/
import Idealize.ShloMosaic.Lib.ValueIdx

noncomputable section

namespace Idealize.ShloMosaic.RowScatter

open Idealize.ShloMosaic Idealize.ShloMosaic.ValueIdx

/-- The dimension numbers of a row scatter into a table: operand `[N, D]`, row numbers `[E, 1]`, updates `[E, D]`. -/
abbrev rowDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The dimension numbers of a scatter into a vector: operand `[N]`, row numbers `[E, 1]`, updates `[E]`. -/
abbrev vecDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Table

variable {N E D w : Nat} (wf : ScatterDims.WF ⟨2, ![N, D]⟩ ⟨2, ![E, 1]⟩ ⟨2, ![E, D]⟩ [1] [0] [0] 1)
  (idx : IVec ⟨2, ![E, 1]⟩ w) (e : Fin E) (j' : Fin D)

/-- On the row axis the window starts at the update's row number, read signed. -/
theorem row_start_zero : (rowDims N E D wf).start (ix2 e j') idx 0 = (idx (ix2 e (0 : Fin 1))).toInt := by
  unfold ScatterDims.start
  rw [dif_pos (show (0 : Fin 2) ∈ (rowDims N E D wf).scatterDimsToOperandDims from List.mem_singleton.mpr rfl)]
  have hsi : (rowDims N E D wf).siIdx (ix2 e j') ⟨List.idxOf (0 : Fin 2) (rowDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero. -/
theorem row_start_one : (rowDims N E D wf).start (ix2 e j') idx 1 = 0 := by
  unfold ScatterDims.start
  rw [dif_neg (show (1 : Fin 2) ∉ (rowDims N E D wf).scatterDimsToOperandDims from fun h =>
    absurd (show (1 : Nat) = 0 from congrArg Fin.val (List.mem_singleton.mp h)) (by decide))]

/-- The row axis is inserted: no window coordinate. -/
theorem row_window_zero : (rowDims N E D wf).window (ix2 e j') 0 = 0 := by
  unfold ScatterDims.window
  rw [dif_neg (show (0 : Fin 2) ∉ (rowDims N E D wf).sKept by simp [ScatterDims.sKept, Shape.kept, List.mem_filter, List.mem_finRange])]

/-- The column axis carries the update's column. -/
theorem row_window_one : (rowDims N E D wf).window (ix2 e j') 1 = j'.val := by
  unfold ScatterDims.window
  rw [dif_pos (show (1 : Fin 2) ∈ (rowDims N E D wf).sKept by simp [ScatterDims.sKept, Shape.kept, List.mem_filter, List.mem_finRange])]
  rfl

/-- WHERE A TABLE UPDATE LANDS: update (e, j') lands at (i, j) iff its row number read signed is i and j' = j. -/
theorem row_resultIdx_iff (i : Fin N) (j : Fin D) :
    (rowDims N E D wf).resultIdx? (ix2 e j') idx = some (ix2 i j)
      ↔ (idx (ix2 e (0 : Fin 1))).toInt = (i.val : Int) ∧ j' = j := by
  unfold ScatterDims.resultIdx?
  have hi := i.isLt
  have hj := j'.isLt
  split
  · rename_i h
    rw [Option.some.injEq]
    constructor
    · intro heq
      have e0 := congrArg (fun f => (f 0).val) heq
      have e1 := congrArg (fun f => (f 1).val) heq
      have h0 := h 0
      simp only [row_start_zero, row_start_one, row_window_zero, row_window_one] at e0 e1 h0
      change _ = i.val at e0
      change _ = j.val at e1
      refine ⟨by omega, Fin.ext (by omega)⟩
    · rintro ⟨hr, rfl⟩
      funext a; refine Fin.ext ?_
      match a with
      | ⟨0, _⟩ =>
        show ((rowDims N E D wf).start (ix2 e j') idx 0 + ((rowDims N E D wf).window (ix2 e j') 0 : Nat)).toNat = i.val
        rw [row_start_zero, row_window_zero, hr]; simp
      | ⟨1, _⟩ =>
        show ((rowDims N E D wf).start (ix2 e j') idx 1 + ((rowDims N E D wf).window (ix2 e j') 1 : Nat)).toNat = j'.val
        rw [row_start_one, row_window_one]; simp
  · rename_i h
    constructor
    · intro heq; exact absurd heq (by simp)
    · rintro ⟨hr, rfl⟩
      exfalso; apply h
      intro a
      match a with
      | ⟨0, _⟩ =>
        show 0 ≤ (rowDims N E D wf).start (ix2 e j') idx 0 + ((rowDims N E D wf).window (ix2 e j') 0 : Nat)
          ∧ (rowDims N E D wf).start (ix2 e j') idx 0 + ((rowDims N E D wf).window (ix2 e j') 0 : Nat) < (N : Int)
        rw [row_start_zero, row_window_zero, hr]; constructor <;> omega
      | ⟨1, _⟩ =>
        show 0 ≤ (rowDims N E D wf).start (ix2 e j') idx 1 + ((rowDims N E D wf).window (ix2 e j') 1 : Nat)
          ∧ (rowDims N E D wf).start (ix2 e j') idx 1 + ((rowDims N E D wf).window (ix2 e j') 1 : Nat) < (D : Int)
        rw [row_start_one, row_window_one]; constructor <;> omega

end Table

section Vector

variable {N E w : Nat} (wf : ScatterDims.WF ⟨1, ![N]⟩ ⟨2, ![E, 1]⟩ ⟨1, ![E]⟩ [] [0] [0] 1)
  (idx : IVec ⟨2, ![E, 1]⟩ w) (e : Fin E)

/-- The window starts at the update's row number, read signed. -/
theorem vec_start_zero : (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one axis is inserted: no window coordinate. -/
theorem vec_window_zero : (vecDims N E wf).window (ix1 e) 0 = 0 := by
  unfold ScatterDims.window
  rw [dif_neg (show (0 : Fin 1) ∉ (vecDims N E wf).sKept by simp [ScatterDims.sKept, Shape.kept, List.mem_filter, List.mem_finRange])]

/-- WHERE A VECTOR UPDATE LANDS: update e lands at i iff its row number read signed is i. -/
theorem vec_resultIdx_iff (i : Fin N) :
    (vecDims N E wf).resultIdx? (ix1 e) idx = some (ix1 i) ↔ (idx (ix2 e (0 : Fin 1))).toInt = (i.val : Int) := by
  unfold ScatterDims.resultIdx?
  have hi := i.isLt
  split
  · rename_i h
    rw [Option.some.injEq]
    constructor
    · intro heq
      have e0 := congrArg (fun f => (f 0).val) heq
      have h0 := h 0
      simp only [vec_start_zero, vec_window_zero] at e0 h0
      change _ = i.val at e0
      omega
    · intro hr
      funext a; refine Fin.ext ?_
      match a with
      | ⟨0, _⟩ =>
        show ((vecDims N E wf).start (ix1 e) idx 0 + ((vecDims N E wf).window (ix1 e) 0 : Nat)).toNat = i.val
        rw [vec_start_zero, vec_window_zero, hr]; simp
  · rename_i h
    constructor
    · intro heq; exact absurd heq (by simp)
    · intro hr
      exfalso; apply h
      intro a
      match a with
      | ⟨0, _⟩ =>
        show 0 ≤ (vecDims N E wf).start (ix1 e) idx 0 + ((vecDims N E wf).window (ix1 e) 0 : Nat)
          ∧ (vecDims N E wf).start (ix1 e) idx 0 + ((vecDims N E wf).window (ix1 e) 0 : Nat) < (N : Int)
        rw [vec_start_zero, vec_window_zero, hr]; constructor <;> omega

end Vector

end Idealize.ShloMosaic.RowScatter

end
-- ==== Proof.LibScatterSum.lean ====
/-
  A row scatter-add read at an index, on the extended reals.

  The host's accumulating scatter of updates `[E, D]` (or `[E]`) into a table `[N, D]` (or a vector `[N]`) at row
  numbers `[E, 1]`: the entry (i, j) of the result is the operand's entry plus the sum, over the updates e whose row
  number read signed is i, of the update's entry (e, j). Updates whose row number is outside 0 … N − 1 contribute
  nothing.
-/
import Idealize.ShloMosaic.Lib.ValueIdx
import Idealize.ShloMosaic.PureOps.Ideal
import proofs.«162846_j38070590112568_1_alg».proof.Proof.LibRowScatter

noncomputable section

open scoped BigOperators

namespace Idealize.ShloMosaic.RowScatter

open Idealize.ShloMosaic Idealize.ShloMosaic.ValueIdx

/-- THE TABLE SCATTER-ADD READ AT (i, j). -/
theorem rowScatterAdd_apply {N E D w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (i : Fin N) (j : Fin D) :
    Ideal.hostScatterAdd (rowDims N E D wf) x idx upd (ix2 i j)
      = x (ix2 i j) + ∑ e ∈ Finset.univ.filter (fun e : Fin E => (idx (ix2 e (0 : Fin 1))).toInt = (i.val : Int)), upd (ix2 e j) := by
  unfold Ideal.hostScatterAdd
  congr 1
  symm
  refine Finset.sum_bij (fun e _ => ix2 e j) ?_ ?_ ?_ ?_
  · intro e he
    rw [Finset.mem_filter] at he ⊢
    exact ⟨Finset.mem_univ _, (row_resultIdx_iff wf idx e j i j).mpr ⟨he.2, rfl⟩⟩
  · intro e₁ _ e₂ _ h
    have h0 := congrFun h 0
    exact Fin.ext (congrArg Fin.val h0)
  · intro p hp
    rw [Finset.mem_filter] at hp
    obtain ⟨e, j', rfl⟩ : ∃ (e : Fin E) (j' : Fin D), p = ix2 e j' := ⟨p 0, p 1, eq_ix2 p⟩
    obtain ⟨h1, rfl⟩ := (row_resultIdx_iff wf idx e j' i j).mp hp.2
    exact ⟨e, Finset.mem_filter.mpr ⟨Finset.mem_univ _, h1⟩, rfl⟩
  · intro e _; rfl

/-- THE VECTOR SCATTER-ADD READ AT i. -/
theorem vecScatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Ideal.hostScatterAdd (vecDims N E wf) x idx upd (ix1 i)
      = x (ix1 i) + ∑ e ∈ Finset.univ.filter (fun e : Fin E => (idx (ix2 e (0 : Fin 1))).toInt = (i.val : Int)), upd (ix1 e) := by
  unfold Ideal.hostScatterAdd
  congr 1
  symm
  refine Finset.sum_bij (fun e _ => ix1 e) ?_ ?_ ?_ ?_
  · intro e he
    rw [Finset.mem_filter] at he ⊢
    exact ⟨Finset.mem_univ _, (vec_resultIdx_iff wf idx e i).mpr he.2⟩
  · intro e₁ _ e₂ _ h
    have h0 := congrFun h 0
    exact Fin.ext (congrArg Fin.val h0)
  · intro p hp
    rw [Finset.mem_filter] at hp
    obtain ⟨e, rfl⟩ : ∃ e : Fin E, p = ix1 e := ⟨p 0, eq_ix1 p⟩
    exact ⟨e, Finset.mem_filter.mpr ⟨Finset.mem_univ _, (vec_resultIdx_iff wf idx e i).mp hp.2⟩, rfl⟩
  · intro e _; rfl

end Idealize.ShloMosaic.RowScatter

end
-- ==== Proof.LibPointScatter.lean ====
/-
  Where the updates of a point scatter land, and the point scatter-add read at an index on the extended reals.

  What `x.at[r, c].add(u)` of a matrix `x : [N, M]` at two vectors of coordinates lowers to: a scatter with both
  operand axes inserted window axes, scatter-dims-to-operand-dims [0, 1], the coordinate pairs an `[E, 2]` array and
  the updates `[E]` with no window axis. Update e lands at the entry (i, j) exactly when its first coordinate
  `idx[e, 0]`, read as a signed integer and NOT clamped, is i and its second coordinate `idx[e, 1]`, read likewise, is
  j; an update with a coordinate outside the matrix lands nowhere. Hence the entry (i, j) of the accumulating scatter is
  the operand's entry plus the sum of the updates e whose coordinate pair is (i, j).
-/
import Idealize.ShloMosaic.Lib.ValueIdx
import Idealize.ShloMosaic.PureOps.Ideal

noncomputable section

open scoped BigOperators

namespace Idealize.ShloMosaic.PointScatter

open Idealize.ShloMosaic Idealize.ShloMosaic.ValueIdx

/-- The dimension numbers of a point scatter into a matrix: operand `[N, M]`, coordinate pairs `[E, 2]`, updates `[E]`. -/
abbrev ptDims (N M E : Nat)
    (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

section Landing

variable {N M E w : Nat} (wf : ScatterDims.WF ⟨2, ![N, M]⟩ ⟨2, ![E, 2]⟩ ⟨1, ![E]⟩ [] [0, 1] [0, 1] 1)
  (idx : IVec ⟨2, ![E, 2]⟩ w) (e : Fin E)

/-- On the row axis the window starts at the update's first coordinate, read signed. -/
theorem pt_start_zero : (ptDims N M E wf).start (ix1 e) idx 0 = (idx (ix2 e (0 : Fin 2))).toInt := by
  unfold ScatterDims.start
  rw [dif_pos (show (0 : Fin 2) ∈ (ptDims N M E wf).scatterDimsToOperandDims by simp)]
  have hsi : (ptDims N M E wf).siIdx (ix1 e) ⟨List.idxOf (0 : Fin 2) (ptDims N M E wf).scatterDimsToOperandDims,
      List.idxOf_lt_length_iff.2 (by simp)⟩ = ix2 e (0 : Fin 2) := by
    funext b; refine Fin.ext ?_
    match b with
    | ⟨0, _⟩ => rfl
    | ⟨1, _⟩ => rfl
  rw [hsi]

/-- On the column axis the window starts at the update's second coordinate, read signed. -/
theorem pt_start_one : (ptDims N M E wf).start (ix1 e) idx 1 = (idx (ix2 e (1 : Fin 2))).toInt := by
  unfold ScatterDims.start
  rw [dif_pos (show (1 : Fin 2) ∈ (ptDims N M E wf).scatterDimsToOperandDims by simp)]
  have hsi : (ptDims N M E wf).siIdx (ix1 e) ⟨List.idxOf (1 : Fin 2) (ptDims N M E wf).scatterDimsToOperandDims,
      List.idxOf_lt_length_iff.2 (by simp)⟩ = ix2 e (1 : Fin 2) := by
    funext b; refine Fin.ext ?_
    match b with
    | ⟨0, _⟩ => rfl
    | ⟨1, _⟩ => rfl
  rw [hsi]

/-- Both axes are inserted: no window coordinate. -/
theorem pt_window (a : Fin 2) : (ptDims N M E wf).window (ix1 e) a = 0 := by
  unfold ScatterDims.window
  rw [dif_neg]
  simp only [ScatterDims.sKept, Shape.kept, List.mem_filter, List.mem_finRange, true_and]
  match a with
  | ⟨0, _⟩ => simp
  | ⟨1, _⟩ => simp

/-- WHERE A POINT UPDATE LANDS: update e lands at (i, j) iff its coordinates read signed are i and j. -/
theorem pt_resultIdx_iff (i : Fin N) (j : Fin M) :
    (ptDims N M E wf).resultIdx? (ix1 e) idx = some (ix2 i j)
      ↔ (idx (ix2 e (0 : Fin 2))).toInt = (i.val : Int) ∧ (idx (ix2 e (1 : Fin 2))).toInt = (j.val : Int) := by
  unfold ScatterDims.resultIdx?
  have hi := i.isLt
  have hj := j.isLt
  split
  · rename_i h
    rw [Option.some.injEq]
    constructor
    · intro heq
      have e0 := congrArg (fun f => (f 0).val) heq
      have e1 := congrArg (fun f => (f 1).val) heq
      have h0 := h 0
      have h1 := h 1
      simp only [pt_start_zero, pt_start_one, pt_window] at e0 e1 h0 h1
      change _ = i.val at e0
      change _ = j.val at e1
      constructor <;> omega
    · rintro ⟨hr, hc⟩
      funext a; refine Fin.ext ?_
      match a with
      | ⟨0, _⟩ =>
        show ((ptDims N M E wf).start (ix1 e) idx 0 + ((ptDims N M E wf).window (ix1 e) 0 : Nat)).toNat = i.val
        rw [pt_start_zero, pt_window, hr]; simp
      | ⟨1, _⟩ =>
        show ((ptDims N M E wf).start (ix1 e) idx 1 + ((ptDims N M E wf).window (ix1 e) 1 : Nat)).toNat = j.val
        rw [pt_start_one, pt_window, hc]; simp
  · rename_i h
    constructor
    · intro heq; exact absurd heq (by simp)
    · rintro ⟨hr, hc⟩
      exfalso; apply h
      intro a
      match a with
      | ⟨0, _⟩ =>
        show 0 ≤ (ptDims N M E wf).start (ix1 e) idx 0 + ((ptDims N M E wf).window (ix1 e) 0 : Nat)
          ∧ (ptDims N M E wf).start (ix1 e) idx 0 + ((ptDims N M E wf).window (ix1 e) 0 : Nat) < (N : Int)
        rw [pt_start_zero, pt_window, hr]; constructor <;> omega
      | ⟨1, _⟩ =>
        show 0 ≤ (ptDims N M E wf).start (ix1 e) idx 1 + ((ptDims N M E wf).window (ix1 e) 1 : Nat)
          ∧ (ptDims N M E wf).start (ix1 e) idx 1 + ((ptDims N M E wf).window (ix1 e) 1 : Nat) < (M : Int)
        rw [pt_start_one, pt_window, hc]; constructor <;> omega

end Landing

/-- THE POINT SCATTER-ADD READ AT (i, j). -/
theorem ptScatterAdd_apply {N M E w : Nat} (wf : ScatterDims.WF ⟨2, ![N, M]⟩ ⟨2, ![E, 2]⟩ ⟨1, ![E]⟩ [] [0, 1] [0, 1] 1)
    (x : (⟨2, ![N, M]⟩ : Shape).Idx → EReal) (idx : IVec ⟨2, ![E, 2]⟩ w) (upd : (⟨1, ![E]⟩ : Shape).Idx → EReal)
    (i : Fin N) (j : Fin M) :
    Ideal.hostScatterAdd (ptDims N M E wf) x idx upd (ix2 i j)
      = x (ix2 i j) + ∑ e ∈ Finset.univ.filter (fun e : Fin E =>
          (idx (ix2 e (0 : Fin 2))).toInt = (i.val : Int) ∧ (idx (ix2 e (1 : Fin 2))).toInt = (j.val : Int)), upd (ix1 e) := by
  unfold Ideal.hostScatterAdd
  congr 1
  symm
  refine Finset.sum_bij (fun e _ => ix1 e) ?_ ?_ ?_ ?_
  · intro e he
    rw [Finset.mem_filter] at he ⊢
    exact ⟨Finset.mem_univ _, (pt_resultIdx_iff wf idx e i j).mpr he.2⟩
  · intro e₁ _ e₂ _ h
    have h0 := congrFun h 0
    exact Fin.ext (congrArg Fin.val h0)
  · intro p hp
    rw [Finset.mem_filter] at hp
    obtain ⟨e, rfl⟩ : ∃ e : Fin E, p = ix1 e := ⟨p 0, eq_ix1 p⟩
    exact ⟨e, Finset.mem_filter.mpr ⟨Finset.mem_univ _, (pt_resultIdx_iff wf idx e i j).mp hp.2⟩, rfl⟩
  · intro e _; rfl

end Idealize.ShloMosaic.PointScatter

end
-- ==== Proof.Wrap.lean ====
/-
  The index normalisation both programs apply to a node number before using it as a coordinate: a negative word is
  moved up by the number of nodes, 8192. On a word that is not negative it does nothing.
-/
import Idealize.ShloMosaic.Lib.ValueIdx

noncomputable section

namespace Cert.Gcn

open Idealize.ShloMosaic Idealize.ShloMosaic.ValueIdx

/-- A node number with a negative value moved up by the number of nodes, on one word. -/
def wrapW (v : BitVec 32) : BitVec 32 :=
  Scalar.select (IntOp.cmpi .slt v 0#32) (IntOp.addi v 8192#32) v

/-- A word that is not negative is left as it is. -/
theorem wrapW_of_nonneg {v : BitVec 32} (h : 0 ≤ v.toInt) : wrapW v = v := by
  unfold wrapW
  have : IntOp.cmpi .slt v 0#32 = 0#1 := by
    show BitVec.ofBool (v.slt 0#32) = 0#1
    have : v.slt 0#32 = false := by
      rw [BitVec.slt]; simp only [BitVec.toInt_zero, decide_eq_false_iff_not, not_lt]; exact h
    rw [this]; rfl
  rw [this]; exact select_zero _ _

end Cert.Gcn

end
-- ==== Proof.IdealAt.lean ====
/-
  Two of the host's operations at the ideal instance, for rewriting: the square root at an index, and the accumulating
  scatter as the exact sum.
-/
import Idealize.ShloMosaic.Lib.ValueIdx
import Idealize.ShloMosaic.PureOps.Ideal

noncomputable section

namespace Cert.Gcn

open Idealize.ShloMosaic Idealize.ShloMosaic.ValueIdx

/-- The host's square root at an index is the ideal instance's square root of the element. -/
theorem hostSqrt_apply {s : Shape} {φ : FTy} (a : FVec Ideal s φ) (i : s.Idx) : Host.sqrt a i = Ideal.sqrt (a i) := rfl

/-- The host's accumulating scatter at the ideal instance is the exact sum. -/
theorem hostScatterAdd_eq {s si u : Shape} {φ : FTy} {wd : Nat} (d : ScatterDims s si u) (x : FVec Ideal s φ) (idx : IVec si wd)
    (upd : FVec Ideal u φ) : Host.scatterAdd d x idx upd = Ideal.hostScatterAdd d x idx upd := rfl

end Cert.Gcn

end
-- ==== Proof.HostAt.lean ====
/-
  The kernel program's host values read at an index: the row scale of node r is the reciprocal of the square root of
  the degree, the degree being one plus the edge weights summed over the edges whose source, read as a signed number, is r;
  the dense matrix at (j, i) is the sum of the weights of the edges whose (normalised) destination is j and (normalised) source is i.
-/
import proofs.«162846_j38070590112568_1_alg».proof.Proof.HostVals
import proofs.«162846_j38070590112568_1_alg».proof.Proof.LibScatterSum
import proofs.«162846_j38070590112568_1_alg».proof.Proof.LibPointScatter
import proofs.«162846_j38070590112568_1_alg».proof.Proof.Wrap
import proofs.«162846_j38070590112568_1_alg».proof.Proof.IdealAt
import Idealize.ShloMosaic.Lib.Pipeline.Value
import Idealize.ShloMosaic.Lib.IdealHost

noncomputable section

open scoped BigOperators

namespace Cert.Gcn

open Cert.KernelIdeal Cert.KernelIdeal.Gen Idealize.ShloMosaic Idealize.ShloMosaic.ValueIdx

/-- The program's vector scatter is the row scatter into a vector. -/
theorem scatter_vec_eq : scatter_S8192_S262144x1_S262144_n_0_0_1
    = RowScatter.vecDims 8192 262144 scatter_S8192_S262144x1_S262144_n_0_0_1_wf := rfl
/-- The program's matrix scatter is the point scatter. -/
theorem scatter_pt_eq : scatter_S8192x8192_S262144x2_S262144_n_01_01_1
    = PointScatter.ptDims 8192 8192 262144 scatter_S8192x8192_S262144x2_S262144_n_01_01_1_wf := rfl

/-- Row 0 of the edge list at edge e. -/
theorem srcK_apply (ei : IVec S2x262144 32) (e : Fin 262144) : srcK ei (ix1 e) = ei (ix2 (0 : Fin 2) e) := by
  unfold srcK
  refine (shapeCast_apply _ shapeCasts_S1x262144_S262144 (ix1 e) (ix2 (0 : Fin 1) e) ?_).trans ?_
  · rewrite [Shape.rowMajor_val_two, Shape.rowMajor_val_one]; show 0 * 262144 + e.val = e.val; omega
  · exact extractStridedSlice_apply ![0, 0] ei slices_S2x262144_S1x262144_0_0 _ _ (fun a => match a with
      | ⟨0, _⟩ => by show 0 = 0 + 0; omega
      | ⟨1, _⟩ => by show e.val = 0 + e.val; omega)

/-- Row 1 of the edge list at edge e. -/
theorem dstK_apply (ei : IVec S2x262144 32) (e : Fin 262144) : dstK ei (ix1 e) = ei (ix2 (1 : Fin 2) e) := by
  unfold dstK
  refine (shapeCast_apply _ shapeCasts_S1x262144_S262144 (ix1 e) (ix2 (0 : Fin 1) e) ?_).trans ?_
  · rewrite [Shape.rowMajor_val_two, Shape.rowMajor_val_one]; show 0 * 262144 + e.val = e.val; omega
  · exact extractStridedSlice_apply ![1, 0] ei slices_S2x262144_S1x262144_1_0 _ _ (fun a => match a with
      | ⟨0, _⟩ => by show 1 = 1 + 0; omega
      | ⟨1, _⟩ => by show e.val = 0 + e.val; omega)

/-- The normalisation at an index. -/
theorem wrapK_apply (v : IVec S262144 32) (i : S262144.Idx) : wrapK v i = wrapW (v i) := by
  unfold wrapK wrapW
  show Scalar.select (IntOp.cmpi .slt (v i) (broadcastInDim S262144 ![] bcast_S_S262144 (constantI S_ 32 0#32) i))
    (IntOp.addi (v i) (broadcastInDim S262144 ![] bcast_S_S262144 (constantI S_ 32 8192#32) i)) (v i) = _
  rw [broadcastInDim_scalar_apply, broadcastInDim_scalar_apply]
  rfl

/-- A vector as a one-column array, read at a row. -/
theorem col_apply (v : IVec S262144 32) (e : Fin 262144) :
    broadcastInDim S262144x1 ![0] bcast_S262144_S262144x1_0 v (ix2 e (0 : Fin 1)) = v (ix1 e) :=
  broadcastInDim_apply _ bcast_S262144_S262144x1_0 v _ _ (fun a => match a with
    | ⟨0, _⟩ => by show e.val = if (262144 : Nat) = 1 then 0 else e.val; rw [if_neg (by decide)])

/-- THE DEGREE OF NODE r: one plus the weights of the edges whose source read signed is r. -/
theorem degK_apply (ei : IVec S2x262144 32) (w : FVec Ideal S262144 .f32) (r : Fin 8192) :
    degK ei w (ix1 r)
      = (0 + ∑ e ∈ Finset.univ.filter (fun e : Fin 262144 => (ei (ix2 (0 : Fin 2) e)).toInt = (r.val : Int)), w (ix1 e)) + 1 := by
  have h1 : broadcastInDim S8192 ![] bcast_S_S8192 (constant (F := Ideal) S_ .f32 0x3F800000#32) (ix1 r) = (1 : EReal) :=
    (broadcastInDim_scalar_apply _ _ _).trans Ideal.ofBits_one_f32
  have h0 : broadcastInDim S8192 ![] bcast_S_S8192 (constant (F := Ideal) S_ .f32 0x00000000#32) (ix1 r) = (0 : EReal) :=
    (broadcastInDim_scalar_apply _ _ _).trans Ideal.ofBits_zero_f32
  unfold degK
  rw [addf_apply, hostScatterAdd_eq, scatter_vec_eq, RowScatter.vecScatterAdd_apply]
  refine congrArg₂ (· + ·) (congrArg₂ (· + ·) h0 (Finset.sum_congr (Finset.filter_congr fun e _ => ?_) fun _ _ => rfl)) h1
  exact Iff.of_eq (congrArg (fun z : BitVec 32 => z.toInt = (r.val : Int)) ((col_apply (srcK ei) e).trans (srcK_apply ei e)))

/-- THE ROW SCALE OF NODE r: the reciprocal of the square root of the degree. -/
theorem dvK_apply (ei : IVec S2x262144 32) (w : FVec Ideal S262144 .f32) (r : Fin 8192) :
    dvK ei w (ix2 r (0 : Fin 1)) = Ideal.div 1 (Ideal.sqrt (degK ei w (ix1 r))) := by
  have h1 : broadcastInDim S8192 ![] bcast_S_S8192 (constant (F := Ideal) S_ .f32 0x3F800000#32) (ix1 r) = (1 : EReal) :=
    (broadcastInDim_scalar_apply _ _ _).trans Ideal.ofBits_one_f32
  unfold dvK
  generalize degK ei w = dg
  refine (shapeCast_apply _ shapeCasts_S8192_S8192x1 (ix2 r (0 : Fin 1)) (ix1 r) ?_).trans ?_
  · rewrite [Shape.rowMajor_val_two, Shape.rowMajor_val_one]; show r.val = r.val * 1 + 0; omega
  · rw [hostDivf_apply, hostSqrt_apply, h1]

/-- Two vectors as the two columns of an array of pairs, read at a row: the first … -/
theorem pairs_apply_zero (a b : IVec S262144 32) (e : Fin 262144) :
    concatenate S262144x2 1 [⟨S262144x1, broadcastInDim S262144x1 ![0] bcast_S262144_S262144x1_0 a⟩,
      ⟨S262144x1, broadcastInDim S262144x1 ![0] bcast_S262144_S262144x1_0 b⟩] concatenates_S262144x1_S262144x1_S262144x2_d1 (ix2 e (0 : Fin 2))
      = a (ix1 e) := by
  rw [concatenate_pair_apply_left (t := S262144x2) (s₁ := S262144x1) (s₂ := S262144x1) (1 : Fin 2)
    (broadcastInDim S262144x1 ![0] bcast_S262144_S262144x1_0 a) (broadcastInDim S262144x1 ![0] bcast_S262144_S262144x1_0 b)
    concatenates_S262144x1_S262144x1_S262144x2_d1 (ix2 e (0 : Fin 2)) rfl (ix2 e (0 : Fin 1))
    (fun b => match b with | ⟨0, _⟩ => rfl | ⟨1, _⟩ => rfl)]
  exact col_apply a e

/-- … and the second. -/
theorem pairs_apply_one (a b : IVec S262144 32) (e : Fin 262144) :
    concatenate S262144x2 1 [⟨S262144x1, broadcastInDim S262144x1 ![0] bcast_S262144_S262144x1_0 a⟩,
      ⟨S262144x1, broadcastInDim S262144x1 ![0] bcast_S262144_S262144x1_0 b⟩] concatenates_S262144x1_S262144x1_S262144x2_d1 (ix2 e (1 : Fin 2))
      = b (ix1 e) := by
  rw [concatenate_pair_apply_right (t := S262144x2) (s₁ := S262144x1) (s₂ := S262144x1) (1 : Fin 2)
    (broadcastInDim S262144x1 ![0] bcast_S262144_S262144x1_0 a) (broadcastInDim S262144x1 ![0] bcast_S262144_S262144x1_0 b)
    concatenates_S262144x1_S262144x1_S262144x2_d1 (ix2 e (1 : Fin 2)) rfl rfl (ix2 e (0 : Fin 1))
    (fun b hb => match b, hb with | ⟨0, _⟩, _ => rfl | ⟨1, _⟩, hb => absurd rfl hb) rfl]
  exact col_apply b e

/-- The (destination, source) pairs at edge e. -/
theorem pairsK_apply_zero (ei : IVec S2x262144 32) (e : Fin 262144) :
    pairsK ei (ix2 e (0 : Fin 2)) = wrapW (ei (ix2 (1 : Fin 2) e)) := by
  unfold pairsK
  rw [pairs_apply_zero, wrapK_apply, dstK_apply]

theorem pairsK_apply_one (ei : IVec S2x262144 32) (e : Fin 262144) :
    pairsK ei (ix2 e (1 : Fin 2)) = wrapW (ei (ix2 (0 : Fin 2) e)) := by
  unfold pairsK
  rw [pairs_apply_one, wrapK_apply, srcK_apply]

/-- THE DENSE MATRIX AT (j, i): the weights of the edges with normalised destination j and normalised source i. -/
theorem BK_apply (ei : IVec S2x262144 32) (w : FVec Ideal S262144 .f32) (j i : Fin 8192) :
    BK ei w (ix2 j i)
      = 0 + ∑ e ∈ Finset.univ.filter (fun e : Fin 262144 =>
          (wrapW (ei (ix2 (1 : Fin 2) e))).toInt = (j.val : Int) ∧ (wrapW (ei (ix2 (0 : Fin 2) e))).toInt = (i.val : Int)), w (ix1 e) := by
  have h0 : broadcastInDim S8192x8192 ![] bcast_S_S8192x8192 (constant (F := Ideal) S_ .f32 0x00000000#32) (ix2 j i) = (0 : EReal) :=
    (broadcastInDim_scalar_apply _ _ _).trans Ideal.ofBits_zero_f32
  unfold BK
  rw [hostScatterAdd_eq, scatter_pt_eq, PointScatter.ptScatterAdd_apply]
  refine congrArg₂ (· + ·) h0 (Finset.sum_congr (Finset.filter_congr fun e _ => ?_) fun _ _ => rfl)
  exact Iff.of_eq (congrArg₂ (fun a b : BitVec 32 => a.toInt = (j.val : Int) ∧ b.toInt = (i.val : Int)) (pairsK_apply_zero ei e) (pairsK_apply_one ei e))

end Cert.Gcn

end
-- ==== Proof.RefScat.lean ====
/-
  The reference's dense matrix read at an index: the entry (i, k) is the sum of the weights of the edges whose source,
  normalised, is i and whose destination, normalised, is k.
-/
import proofs.«162846_j38070590112568_1_alg».proof.Proof.Gen.ReferenceIdeal.Read
import proofs.«162846_j38070590112568_1_alg».proof.Proof.LibPointScatter
import proofs.«162846_j38070590112568_1_alg».proof.Proof.Wrap
import proofs.«162846_j38070590112568_1_alg».proof.Proof.IdealAt
import Idealize.ShloMosaic.Lib.IdealHost

noncomputable section

open scoped BigOperators

namespace Cert.Gcn

open Cert.ReferenceIdeal Cert.ReferenceIdeal.Gen Cert.ReferenceIdeal.Read Idealize.ShloMosaic Idealize.ShloMosaic.ValueIdx

/-- Row 0 of the edge list at edge e. -/
theorem ref_v3_at (ei : IVec S2x262144 32) (e : Fin 262144) : val_main_v3 (F := Ideal) ei (ix1 e) = ei (ix2 (0 : Fin 2) e) := by
  have hidx : idx_main_v2 (idx_main_v3 (ix1 e)) = ix2 (0 : Fin 2) e := by
    funext a
    match a with
    | ⟨0, _⟩ => rfl
    | ⟨1, _⟩ => exact Fin.ext (Nat.mod_eq_of_lt e.isLt)
  rw [val_main_v3_apply, val_main_v2_apply, hidx]

/-- Row 1 of the edge list at edge e. -/
theorem ref_v5_at (ei : IVec S2x262144 32) (e : Fin 262144) : val_main_v5 (F := Ideal) ei (ix1 e) = ei (ix2 (1 : Fin 2) e) := by
  have hidx : idx_main_v4 (idx_main_v5 (ix1 e)) = ix2 (1 : Fin 2) e := by
    funext a
    match a with
    | ⟨0, _⟩ => rfl
    | ⟨1, _⟩ => exact Fin.ext (Nat.mod_eq_of_lt e.isLt)
  rw [val_main_v5_apply, val_main_v4_apply, hidx]

/-- The normalised source of edge e. -/
theorem ref_v11_at (ei : IVec S2x262144 32) (e : Fin 262144) :
    val_main_v11 (F := Ideal) ei (ix1 e) = wrapW (ei (ix2 (0 : Fin 2) e)) := by
  rw [val_main_v11_apply, val_main_v8_apply, val_main_v10_apply, val_main_v7_apply, val_main_v9_apply, ref_v3_at]
  rfl

/-- The normalised destination of edge e. -/
theorem ref_v16_at (ei : IVec S2x262144 32) (e : Fin 262144) :
    val_main_v16 (F := Ideal) ei (ix1 e) = wrapW (ei (ix2 (1 : Fin 2) e)) := by
  rw [val_main_v16_apply, val_main_v13_apply, val_main_v15_apply, val_main_v12_apply, val_main_v14_apply, ref_v5_at]
  rfl

/-- The coordinate pairs at edge e: first the normalised source … -/
theorem ref_v19_at_zero (ei : IVec S2x262144 32) (e : Fin 262144) :
    val_main_v19 (F := Ideal) ei (ix2 e (0 : Fin 2)) = wrapW (ei (ix2 (0 : Fin 2) e)) := by
  unfold val_main_v19
  rw [concatenate_pair_apply_left (t := S262144x2) (s₁ := S262144x1) (s₂ := S262144x1) (1 : Fin 2)
    (val_main_v17 (F := Ideal) ei) (val_main_v18 (F := Ideal) ei)
    concatenates_S262144x1_S262144x1_S262144x2_d1 (ix2 e (0 : Fin 2)) rfl (ix2 e (0 : Fin 1))
    (fun b => match b with | ⟨0, _⟩ => rfl | ⟨1, _⟩ => rfl)]
  rw [val_main_v17_apply]
  exact ref_v11_at ei e

/-- … then the normalised destination. -/
theorem ref_v19_at_one (ei : IVec S2x262144 32) (e : Fin 262144) :
    val_main_v19 (F := Ideal) ei (ix2 e (1 : Fin 2)) = wrapW (ei (ix2 (1 : Fin 2) e)) := by
  unfold val_main_v19
  rw [concatenate_pair_apply_right (t := S262144x2) (s₁ := S262144x1) (s₂ := S262144x1) (1 : Fin 2)
    (val_main_v17 (F := Ideal) ei) (val_main_v18 (F := Ideal) ei)
    concatenates_S262144x1_S262144x1_S262144x2_d1 (ix2 e (1 : Fin 2)) rfl rfl (ix2 e (0 : Fin 1))
    (fun b hb => match b, hb with | ⟨0, _⟩, _ => rfl | ⟨1, _⟩, hb => absurd rfl hb) rfl]
  rw [val_main_v18_apply]
  exact ref_v16_at ei e

/-- THE REFERENCE'S DENSE MATRIX AT (i, k). -/
theorem ref_v20_at (ei : IVec S2x262144 32) (w : FVec Ideal S262144 .f32) (i k : Fin 8192) :
    val_main_v20 (F := Ideal) ei w (ix2 i k)
      = 0 + ∑ e ∈ Finset.univ.filter (fun e : Fin 262144 =>
          (wrapW (ei (ix2 (0 : Fin 2) e))).toInt = (i.val : Int) ∧ (wrapW (ei (ix2 (1 : Fin 2) e))).toInt = (k.val : Int)), w (ix1 e) := by
  have h0 : val_main_v6 (F := Ideal) (ix2 i k) = (0 : EReal) := by
    rw [val_main_v6_apply, val_main_cst_apply]; exact Ideal.ofBits_zero_f32
  have hd : scatter_S8192x8192_S262144x2_S262144_n_01_01_1
      = PointScatter.ptDims 8192 8192 262144 scatter_S8192x8192_S262144x2_S262144_n_01_01_1_wf := rfl
  unfold val_main_v20
  generalize val_main_v6 (F := Ideal) = z at h0 ⊢
  rw [hostScatterAdd_eq, hd, PointScatter.ptScatterAdd_apply]
  refine congrArg₂ (· + ·) h0 (Finset.sum_congr (Finset.filter_congr fun e _ => ?_) fun _ _ => rfl)
  exact Iff.of_eq (congrArg₂ (fun a b : BitVec 32 => a.toInt = (i.val : Int) ∧ b.toInt = (k.val : Int)) (ref_v19_at_zero ei e) (ref_v19_at_one ei e))

end Cert.Gcn

end
-- ==== Proof.RefAt.lean ====
/- The reference's result read at an index, on the extended reals: entry `(j, d)` of the normalised graph
   convolution is the inverse square root of node `j`'s degree times the sum over the nodes `i` of the
   adjacency entry `(i, j)` (plus one on the diagonal) times node `i`'s own inverse square root of the degree
   times entry `(i, d)` of the product of the features by the transposed weights; and a node's degree is its
   row sum of the adjacency matrix plus one. The adjacency matrix (a scatter-add of the edge weights) is kept
   as the opaque term `val_main_v20 ei w`. -/
import proofs.«162846_j38070590112568_1_alg».proof.Proof.Gen.ReferenceIdeal.Read
import Idealize.ShloMosaic.Lib.IdealHost

noncomputable section

open scoped BigOperators

namespace Cert.Gcn

open Cert.ReferenceIdeal Cert.ReferenceIdeal.Read
open Idealize.ShloMosaic Idealize.ShloMosaic.ValueIdx

variable (x : (⟨S8192x512, .f32⟩ : BufTy).Contents (Elt Ideal)) (ei : (⟨S2x262144, .i32⟩ : BufTy).Contents (Elt Ideal))
  (w : (⟨S262144, .f32⟩ : BufTy).Contents (Elt Ideal)) (W : (⟨S256x512, .f32⟩ : BufTy).Contents (Elt Ideal))

/-- A node's degree: its row sum of the adjacency matrix (from zero), plus one. -/
theorem ref_v23_at (i : Fin 8192) :
    val_main_v23 (F := Ideal) ei w (ix1 i) = (0 + ∑ k : Fin 8192, val_main_v20 (F := Ideal) ei w (ix2 i k)) + 1 := by
  rw [val_main_v23_apply, val_main_v21_apply, val_main_v22_apply, val_main_cst_4_apply, val_main_cst_3_apply]
  generalize val_main_v20 (F := Ideal) ei w = A
  simp only [Ideal.addf_def, Ideal.ofBits_def, Ideal.ofBits_zero_f32, Ideal.ofBits_one_f32]
  have e : ∀ k : Fin 8192, idx_main_v21 (ix1 i) k = ix2 i k := fun k =>
    funext fun a => match a with | ⟨0, _⟩ => rfl | ⟨1, _⟩ => rfl
  simp only [e]

/-- The inverse square root of a node's degree. -/
theorem v26_at (r : Fin 8192) :
    val_main_v26 (F := Ideal) ei w (ix1 r) = Ideal.div 1 (Ideal.sqrt (val_main_v23 (F := Ideal) ei w (ix1 r))) := by
  rw [val_main_v26_apply, val_main_v25_apply, val_main_cst_5_apply, val_main_v24_apply]
  generalize val_main_v23 (F := Ideal) ei w = D
  simp only [Ideal.hostDivf_def, Ideal.hostUnary_sqrt_def, Ideal.ofBits_def, Ideal.ofBits_one_f32]

/-- Broadcast along the columns (the outer scaling) … -/
theorem v40_at (j : Fin 8192) (d : Fin 256) :
    val_main_v40 (F := Ideal) ei w (ix2 j d) = val_main_v26 (F := Ideal) ei w (ix1 j) := by
  rw [val_main_v40_apply, val_main_v39_apply]
  exact congrArg (val_main_v26 (F := Ideal) ei w) (funext fun a => match a with | ⟨0, _⟩ => rfl)

/-- … and the same column broadcast (the inner scaling). -/
theorem v35_at (i : Fin 8192) (d : Fin 256) :
    val_main_v35 (F := Ideal) ei w (ix2 i d) = val_main_v26 (F := Ideal) ei w (ix1 i) := by
  rw [val_main_v35_apply, val_main_v34_apply]
  exact congrArg (val_main_v26 (F := Ideal) ei w) (funext fun a => match a with | ⟨0, _⟩ => rfl)

/-- The features times the transposed weights, at `(i, d)`. -/
theorem v1_at (i : Fin 8192) (d : Fin 256) :
    val_main_v1 (F := Ideal) x W (ix2 i d) = ∑ k : Fin 512, x (ix2 i k) * W (ix2 d k) := by
  rw [val_main_v1_apply]
  refine Finset.sum_congr rfl fun k _ => ?_
  rw [val_main_v0_apply]
  refine congrArg₂ (· * ·) (congrArg x ?_) (congrArg W ?_)
  · exact funext fun a => match a with | ⟨0, _⟩ => rfl | ⟨1, _⟩ => rfl
  · exact funext fun a => match a with | ⟨0, _⟩ => rfl | ⟨1, _⟩ => rfl

/-- The word comparing a row number with a column number, read as a number, is the Kronecker delta. -/
theorem delta_word (i j : Fin 8192) :
    (((IntOp.cmpi .eq (IntOp.addi (BitVec.ofNat 32 i.val) 0#32) (BitVec.ofNat 32 j.val)).toNat : ℝ) : EReal)
      = if i = j then (1 : EReal) else 0 := by
  have hi : i.val < 8192 := i.isLt
  have hj : j.val < 8192 := j.isLt
  unfold IntOp.cmpi IntOp.addi
  simp only [BitVec.add_zero]
  by_cases h : i = j
  · subst h; simp
  · rw [if_neg h]
    have hne : (BitVec.ofNat 32 i.val == BitVec.ofNat 32 j.val) = false := by
      rw [beq_eq_false_iff_ne]
      intro e
      have e' := congrArg BitVec.toNat e
      simp only [BitVec.toNat_ofNat] at e'
      exact h (Fin.ext (by omega))
    rw [hne]; simp

/-- The identity matrix the reference adds to the adjacency matrix. -/
theorem v32_at (i j : Fin 8192) : val_main_v32 (F := Ideal) (ix2 i j) = if i = j then (1 : EReal) else 0 := by
  rw [val_main_v32_apply, val_main_v31_apply, val_main_v30_apply, val_main_v27_apply, val_main_v29_apply,
    val_main_c_6_apply, val_main_v28_apply]
  exact delta_word i j

/-- The transposed adjacency matrix with the identity added, at `(j, i)`. -/
theorem v37_at (j i : Fin 8192) :
    val_main_v37 (F := Ideal) ei w (ix2 j i)
      = val_main_v20 (F := Ideal) ei w (ix2 i j) + (if i = j then (1 : EReal) else 0) := by
  rw [val_main_v37_apply]
  have e : idx_main_v37 (ix2 j i) = ix2 i j := funext fun a => match a with | ⟨0, _⟩ => rfl | ⟨1, _⟩ => rfl
  rw [e, val_main_v33_apply, v32_at]
  rfl

/-- The scaled feature product, at `(i, d)`. -/
theorem v36_at (i : Fin 8192) (d : Fin 256) :
    val_main_v36 (F := Ideal) x ei w W (ix2 i d)
      = Ideal.div 1 (Ideal.sqrt (val_main_v23 (F := Ideal) ei w (ix1 i))) * ∑ k : Fin 512, x (ix2 i k) * W (ix2 d k) := by
  rw [val_main_v36_apply, v35_at, v26_at, v1_at]
  rfl

/-- THE REFERENCE'S RESULT AT `(j, d)`. -/
theorem ref_at (j : Fin 8192) (d : Fin 256) :
    val_main_v41 (F := Ideal) x ei w W (ix2 j d)
      = Ideal.div 1 (Ideal.sqrt (val_main_v23 (F := Ideal) ei w (ix1 j)))
        * ∑ i : Fin 8192, (val_main_v20 (F := Ideal) ei w (ix2 i j) + (if i = j then (1 : EReal) else 0))
            * (Ideal.div 1 (Ideal.sqrt (val_main_v23 (F := Ideal) ei w (ix1 i)))
                * ∑ k : Fin 512, x (ix2 i k) * W (ix2 d k)) := by
  rw [val_main_v41_apply, v40_at, v26_at, val_main_v38_apply]
  refine congrArg (Ideal.div 1 (Ideal.sqrt (val_main_v23 (F := Ideal) ei w (ix1 j))) * ·) ?_
  refine Finset.sum_congr rfl fun i _ => ?_
  have el : lidx_main_v38 (ix2 j d) i = ix2 j i := funext fun a => match a with | ⟨0, _⟩ => rfl | ⟨1, _⟩ => rfl
  have er : ridx_main_v38 (ix2 j d) i = ix2 i d := funext fun a => match a with | ⟨0, _⟩ => rfl | ⟨1, _⟩ => rfl
  rw [el, er, v37_at, v36_at]

end Cert.Gcn

end
-- ==== Proof.Algebra.lean ====
/-
  The algebra of the graph-convolution layer, on real numbers and on extended reals that are reals.

  * a finite sum of reals, each read as an extended real, is the sum read as an extended real;
  * the reciprocal of the square root of a positive real, computed on extended reals, is the real one;
  * a sum over the 8192 nodes is the sum of its four slabs of 2048;
  * summing the dense matrix of edge weights along a row gives the weights of the edges leaving the node;
  * THE LAW: with A[i,j] the summed weights of the edges i → j, B[j,i] = A[i,j], a column h and row scales dv,
    dv[j] · Σᵢ (A[i,j] + δᵢⱼ) · (dv[i] · h[i]) = ((Σᵢ B[j,i] · (h[i] · dv[i])) + h[j] · dv[j]) · dv[j],
    the sum on the right taken slab by slab.
-/
import proofs.«162846_j38070590112568_1_alg».proof.Proof.Spec
import Mathlib.Analysis.SpecialFunctions.Pow.Real
import Mathlib.Data.EReal.Inv

noncomputable section

open scoped BigOperators

namespace Cert.Gcn

open Idealize.ShloMosaic

/-- A finite sum of reals read as extended reals is the sum read as an extended real. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The reciprocal of the square root of a positive real, on extended reals. -/
theorem div_one_sqrt_coe {r : ℝ} (hr : 0 < r) : Ideal.div 1 (Ideal.sqrt (r : EReal)) = ((1 / Real.sqrt r : ℝ) : EReal) := by
  have hs : 0 < Real.sqrt r := Real.sqrt_pos.2 hr
  have e1 : Ideal.sqrt (r : EReal) = ((Real.sqrt r : ℝ) : EReal) := by
    show (if r < 0 then (⊥ : EReal) else (Real.sqrt r : EReal)) = _
    rw [if_neg (not_lt.2 hr.le)]
  rw [e1]
  unfold Ideal.div
  rw [if_neg (EReal.coe_ne_zero.2 hs.ne'), one_mul, ← EReal.coe_inv, one_div]

/-! ## The four slabs -/

/-- The nodes are four slabs of 2048. -/
def slabEquiv : Fin 4 × Fin 2048 ≃ Fin 8192 where
  toFun p := slabIx p.1 p.2
  invFun i := (⟨i.val / 2048, by have := i.isLt; omega⟩, ⟨i.val % 2048, Nat.mod_lt _ (by decide)⟩)
  left_inv p := by
    obtain ⟨⟨a, ha⟩, ⟨b, hb⟩⟩ := p
    refine Prod.ext (Fin.ext ?_) (Fin.ext ?_)
    · show (2048 * a + b) / 2048 = a; omega
    · show (2048 * a + b) % 2048 = b; omega
  right_inv i := by
    refine Fin.ext ?_
    show 2048 * (i.val / 2048) + i.val % 2048 = i.val
    omega

/-- A sum over the nodes is the sum of the four slabs, taken in order from the left. -/
theorem sum_slabs {M : Type*} [AddCommMonoid M] (f : Fin 8192 → M) :
    ∑ i, f i = (((∑ kk : Fin 2048, f (slabIx 0 kk)) + ∑ kk : Fin 2048, f (slabIx 1 kk)) + ∑ kk : Fin 2048, f (slabIx 2 kk))
      + ∑ kk : Fin 2048, f (slabIx 3 kk) := by
  rw [← Equiv.sum_comp slabEquiv f, Fintype.sum_prod_type, Fin.sum_univ_four]
  rfl

/-! ## Edges grouped by an endpoint -/

section Edges
variable {ε : Type} [Fintype ε] (sI tI : ε → Int)

/-- Summing over all second endpoints the edges with given first endpoint and that second endpoint gives the edges with the
    first endpoint, when every second endpoint is a node. -/
theorem sum_fiber_snd (ht : ∀ e, 0 ≤ tI e ∧ tI e < 8192) (f : ε → ℝ) (i : Int) :
    ∑ k : Fin 8192, ∑ e ∈ Finset.univ.filter (fun e => sI e = i ∧ tI e = (k.val : Int)), f e
      = ∑ e ∈ Finset.univ.filter (fun e => sI e = i), f e := by
  classical
  have key : ∀ k : Fin 8192, Finset.univ.filter (fun e => sI e = i ∧ tI e = (k.val : Int))
      = (Finset.univ.filter (fun e => sI e = i)).filter (fun e => (⟨(tI e).toNat, by have := ht e; omega⟩ : Fin 8192) = k) := by
    intro k
    ext e
    simp only [Finset.mem_filter, Finset.mem_univ, true_and]
    have := ht e
    constructor
    · rintro ⟨h1, h2⟩; exact ⟨h1, Fin.ext (by show (tI e).toNat = k.val; omega)⟩
    · rintro ⟨h1, h2⟩
      have h3 : (tI e).toNat = k.val := congrArg Fin.val h2
      exact ⟨h1, by omega⟩
  simp only [key]
  exact Finset.sum_fiberwise _ _ _

end Edges

/-! ## The law, on reals -/

section Law
variable {ε : Type} [Fintype ε] (sI tI : ε → Int) (wr : ε → ℝ)

/-- The summed weights of the edges i → j. -/
def AR (i j : Fin 8192) : ℝ := ∑ e ∈ Finset.univ.filter (fun e => sI e = (i.val : Int) ∧ tI e = (j.val : Int)), wr e
/-- The same, indexed (destination, source). -/
def BR (j i : Fin 8192) : ℝ := ∑ e ∈ Finset.univ.filter (fun e => tI e = (j.val : Int) ∧ sI e = (i.val : Int)), wr e

theorem BR_eq_AR (j i : Fin 8192) : BR sI tI wr j i = AR sI tI wr i j := by
  unfold BR AR
  refine Finset.sum_congr (Finset.filter_congr fun e _ => and_comm) fun _ _ => rfl

/-- THE LAW. -/
theorem law (h dv : Fin 8192 → ℝ) (j : Fin 8192) :
    dv j * ∑ i, (AR sI tI wr i j + (if i = j then 1 else 0)) * (dv i * h i)
      = (((((∑ kk : Fin 2048, BR sI tI wr j (slabIx 0 kk) * (h (slabIx 0 kk) * dv (slabIx 0 kk)))
            + ∑ kk : Fin 2048, BR sI tI wr j (slabIx 1 kk) * (h (slabIx 1 kk) * dv (slabIx 1 kk)))
            + ∑ kk : Fin 2048, BR sI tI wr j (slabIx 2 kk) * (h (slabIx 2 kk) * dv (slabIx 2 kk)))
            + ∑ kk : Fin 2048, BR sI tI wr j (slabIx 3 kk) * (h (slabIx 3 kk) * dv (slabIx 3 kk)))
          + h j * dv j) * dv j := by
  rw [← sum_slabs (fun i => BR sI tI wr j i * (h i * dv i))]
  have e1 : ∑ i, (AR sI tI wr i j + (if i = j then 1 else 0)) * (dv i * h i)
      = (∑ i, BR sI tI wr j i * (h i * dv i)) + h j * dv j := by
    simp only [add_mul, Finset.sum_add_distrib, BR_eq_AR]
    congr 1
    · exact Finset.sum_congr rfl fun i _ => by ring
    · simp [Finset.sum_ite_eq', mul_comm]
  rw [e1]; ring

end Law

end Cert.Gcn

end
-- ==== Proof.Values.lean ====
/-
  The program values as real numbers. Under the decoded precondition — every weight a real, every node number of the edge
  list in 0 … 8191 — the kernel program's dense matrix and row scales and the reference's dense matrix and degrees are the
  extended-real readings of real sums over the edges: the index normalisation does nothing, a row of the reference's dense
  matrix sums to the weights of the edges leaving the node, so both programs' degrees are one real, positive by the
  precondition, and both reciprocal square roots are its real one.
-/
import proofs.«162846_j38070590112568_1_alg».proof.Proof.HostAt
import proofs.«162846_j38070590112568_1_alg».proof.Proof.RefScat
import proofs.«162846_j38070590112568_1_alg».proof.Proof.RefAt
import proofs.«162846_j38070590112568_1_alg».proof.Proof.Algebra

noncomputable section

open scoped BigOperators

namespace Cert.Gcn

open Idealize.ShloMosaic Idealize.ShloMosaic.ValueIdx

/-- The edge list's shape, the weights' and the nodes'. -/
abbrev SE2 : Shape := ⟨2, ![2, 262144]⟩
abbrev SE : Shape := ⟨1, ![262144]⟩
abbrev SN : Shape := ⟨1, ![8192]⟩

section
variable (ei : IVec SE2 32) (w : SE.Idx → EReal)

/-- The source of edge e, read signed. -/
def sI (e : Fin 262144) : Int := (ei (ix2 (0 : Fin 2) e)).toInt
/-- The destination of edge e, read signed. -/
def tI (e : Fin 262144) : Int := (ei (ix2 (1 : Fin 2) e)).toInt
/-- The weight of edge e, as a real. -/
def wR (e : Fin 262144) : ℝ := (w (ix1 e)).toReal
/-- The degree of node i: one plus the weights of the edges leaving it. -/
def degR (i : Fin 8192) : ℝ := (∑ e ∈ Finset.univ.filter (fun e => sI ei e = (i.val : Int)), wR w e) + 1
/-- The row scale of node i. -/
def dvR (i : Fin 8192) : ℝ := 1 / Real.sqrt (degR ei w i)

variable (hw : ∀ i, w i ≠ ⊤ ∧ w i ≠ ⊥) (hei : ∀ i, 0 ≤ (ei i).toInt ∧ (ei i).toInt < 8192)
include hw

theorem w_coe (e : Fin 262144) : w (ix1 e) = ((wR w e : ℝ) : EReal) :=
  (EReal.coe_toReal (hw _).1 (hw _).2).symm

include hei

/-- The kernel program's dense matrix is the real one, indexed (destination, source). -/
theorem BK_coe (j i : Fin 8192) : BK ei w (ix2 j i) = ((BR (sI ei) (tI ei) (wR w) j i : ℝ) : EReal) := by
  rw [BK_apply, zero_add]
  unfold BR
  rw [← coe_sum]
  refine Finset.sum_congr (Finset.filter_congr fun e _ => ?_) fun e _ => w_coe w hw e
  rw [wrapW_of_nonneg (hei _).1, wrapW_of_nonneg (hei _).1]
  rfl

/-- The reference's dense matrix is the real one, indexed (source, destination). -/
theorem A_coe (i k : Fin 8192) :
    Cert.ReferenceIdeal.Read.val_main_v20 (F := Ideal) ei w (ix2 i k) = ((AR (sI ei) (tI ei) (wR w) i k : ℝ) : EReal) := by
  rw [ref_v20_at, zero_add]
  unfold AR
  rw [← coe_sum]
  refine Finset.sum_congr (Finset.filter_congr fun e _ => ?_) fun e _ => w_coe w hw e
  rw [wrapW_of_nonneg (hei _).1, wrapW_of_nonneg (hei _).1]
  rfl

/-- The kernel program's degree is the real one. -/
theorem degK_coe (i : Fin 8192) : degK ei w (ix1 i) = ((degR ei w i : ℝ) : EReal) := by
  have hs : (∑ e ∈ Finset.univ.filter (fun e : Fin 262144 => (ei (ix2 (0 : Fin 2) e)).toInt = (i.val : Int)), w (ix1 e))
      = ((∑ e ∈ Finset.univ.filter (fun e => sI ei e = (i.val : Int)), wR w e : ℝ) : EReal) := by
    rw [← coe_sum]
    exact Finset.sum_congr rfl fun e _ => w_coe w hw e
  rw [degK_apply, zero_add, hs]
  unfold degR
  rw [EReal.coe_add, EReal.coe_one]

/-- The reference's degree is the same real one. -/
theorem v23_coe (i : Fin 8192) :
    Cert.ReferenceIdeal.Read.val_main_v23 (F := Ideal) ei w (ix1 i) = ((degR ei w i : ℝ) : EReal) := by
  rw [ref_v23_at, zero_add]
  simp only [A_coe ei w hw hei]
  unfold degR AR
  rw [coe_sum, sum_fiber_snd (sI ei) (tI ei) (fun e => hei _) (wR w) (i.val : Int), EReal.coe_add, EReal.coe_one]

end

end Cert.Gcn

end
-- ==== Proof.PreDecode.lean ====
/-
  The precondition decoded. The printed precondition is the conjunction of six tests on the argument arrays, each a
  reduction by "and" of an array of one-bit words: every entry of the features, the edge weights and the weight matrix has
  absolute value below +∞; every entry of the edge list is at least 0 and below 8192, as a signed number; and every degree
  the reference computes (its dense matrix summed along each row, plus one) is above zero. From "the result is 1" to
  these facts on the entries.
-/
import proofs.«162846_j38070590112568_1_alg».proof.Proof.Gen.Pre_finite_inputs
import proofs.«162846_j38070590112568_1_alg».proof.Proof.Gen.ReferenceIdeal.Read
import Idealize.ShloMosaic.Lib.ReduceAll
import Idealize.ShloMosaic.Lib.IdealHost
import Idealize.ShloMosaic.Lib.WordArith

noncomputable section

namespace Cert.Gcn

open Idealize.ShloMosaic Idealize.ShloMosaic.ValueIdx

instance subsingleton_scalar_idx : Subsingleton (⟨0, ![]⟩ : Shape).Idx := ⟨fun _ _ => funext fun d => d.elim0⟩

/-- The f32 pattern of +∞ is the extended real ⊤. -/
theorem ofBits_inf_f32 : Ideal.ofBits .f32 0x7F800000#32 = ⊤ := by simp [Ideal.ofBits, Ideal.ieee]

/-- A one-bit comparison word is 1 exactly when the comparison holds. -/
theorem cmp_olt_eq_one {a b : EReal} (h : Ideal.cmp .olt a b = 1#1) : a < b := by
  unfold Ideal.cmp at h
  exact of_decide_eq_true ((WordArith.ofBool_eq_one_iff _).1 h)
theorem cmp_ogt_eq_one {a b : EReal} (h : Ideal.cmp .ogt a b = 1#1) : b < a := by
  unfold Ideal.cmp at h
  exact of_decide_eq_true ((WordArith.ofBool_eq_one_iff _).1 h)

/-- An extended real whose absolute value is below +∞ is a real. -/
theorem finite_of_abs_lt {a : EReal} (h : Ideal.cmp .olt (max a (-a)) (Ideal.ofBits .f32 0x7F800000#32) = 1#1) :
    a ≠ ⊤ ∧ a ≠ ⊥ := by
  rw [ofBits_inf_f32] at h
  have h1 := cmp_olt_eq_one h
  constructor
  · intro ha; rw [ha] at h1; simp at h1
  · intro ha; rw [ha] at h1; simp at h1

section
open Cert.Pre_finite_inputs Cert.Pre_finite_inputs.Gen

/-- THE PRECONDITION DECODED. -/
theorem pre_decode (x : FVec Ideal S8192x512 .f32) (ei : IVec S2x262144 32) (w : FVec Ideal S262144 .f32)
    (W : FVec Ideal S256x512 .f32) (h : Cert.Pre_finite_inputs.fn (F := Ideal) x ei w W = fun _ => 1#1) :
    (∀ i, x i ≠ ⊤ ∧ x i ≠ ⊥) ∧ (∀ i, w i ≠ ⊤ ∧ w i ≠ ⊥) ∧ (∀ i, W i ≠ ⊤ ∧ W i ≠ ⊥)
      ∧ (∀ i, 0 ≤ (ei i).toInt ∧ (ei i).toInt < 8192)
      ∧ (∀ i, (0 : EReal) < Cert.ReferenceIdeal.Read.val_main_v23 (F := Ideal) ei w i) := by
  have h0 : IntOp.andi (IntOp.andi (IntOp.andi (IntOp.andi (IntOp.andi
      (Host.reduce IntOp.andi (cmpf .olt (Host.absf x) (broadcastInDim S8192x512 ![] bcast_S_S8192x512 (constant (F := Ideal) S_ .f32 0x7F800000#32))) (constantI S_ 1 1#1) reducesTo_S8192x512_S_d0_1 h_S_ ix0)
      (Host.reduce IntOp.andi (cmpf .olt (Host.absf w) (broadcastInDim S262144 ![] bcast_S_S262144 (constant (F := Ideal) S_ .f32 0x7F800000#32))) (constantI S_ 1 1#1) reducesTo_S262144_S_d0 h_S_ ix0))
      (Host.reduce IntOp.andi (cmpf .olt (Host.absf W) (broadcastInDim S256x512 ![] bcast_S_S256x512 (constant (F := Ideal) S_ .f32 0x7F800000#32))) (constantI S_ 1 1#1) reducesTo_S256x512_S_d0_1 h_S_ ix0))
      (Host.reduce IntOp.andi (cmpi .sge ei (broadcastInDim S2x262144 ![] bcast_S_S2x262144 (constantI S_ 32 0#32))) (constantI S_ 1 1#1) reducesTo_S2x262144_S_d0_1 h_S_ ix0))
      (Host.reduce IntOp.andi (cmpi .slt ei (broadcastInDim S2x262144 ![] bcast_S_S2x262144 (constantI S_ 32 8192#32))) (constantI S_ 1 1#1) reducesTo_S2x262144_S_d0_1 h_S_ ix0))
      (Host.reduce IntOp.andi (cmpf .ogt (Cert.ReferenceIdeal.Read.val_main_v23 (F := Ideal) ei w) (broadcastInDim S8192 ![] bcast_S_S8192 (constant (F := Ideal) S_ .f32 0x00000000#32))) (constantI S_ 1 1#1) reducesTo_S8192_S_d0 h_S_ ix0) = 1#1 :=
    congrFun h ix0
  obtain ⟨h5, hG⟩ := IntOp.andi_eq_one.1 h0
  obtain ⟨h4, hE⟩ := IntOp.andi_eq_one.1 h5
  obtain ⟨h3, hD⟩ := IntOp.andi_eq_one.1 h4
  obtain ⟨h2, hC⟩ := IntOp.andi_eq_one.1 h3
  obtain ⟨hA, hB⟩ := IntOp.andi_eq_one.1 h2
  refine ⟨fun i => ?_, fun i => ?_, fun i => ?_, fun i => ⟨?_, ?_⟩, fun i => ?_⟩
  · have e := Host.reduce_andi_all _ _ _ _ _ hA i
    rw [cmpf_apply, broadcastInDim_scalar_apply] at e
    exact finite_of_abs_lt e
  · have e := Host.reduce_andi_all _ _ _ _ _ hB i
    rw [cmpf_apply, broadcastInDim_scalar_apply] at e
    exact finite_of_abs_lt e
  · have e := Host.reduce_andi_all _ _ _ _ _ hC i
    rw [cmpf_apply, broadcastInDim_scalar_apply] at e
    exact finite_of_abs_lt e
  · have e := Host.reduce_andi_all _ _ _ _ _ hD i
    have e' : BitVec.ofBool ((broadcastInDim S2x262144 ![] bcast_S_S2x262144 (constantI S_ 32 0#32) i).sle (ei i)) = 1#1 := e
    rw [broadcastInDim_scalar_apply] at e'
    have e2 : (0#32).sle (ei i) = true := (WordArith.ofBool_eq_one_iff _).1 e'
    rw [BitVec.sle] at e2
    simpa using e2
  · have e := Host.reduce_andi_all _ _ _ _ _ hE i
    have e' : BitVec.ofBool ((ei i).slt (broadcastInDim S2x262144 ![] bcast_S_S2x262144 (constantI S_ 32 8192#32) i)) = 1#1 := e
    rw [broadcastInDim_scalar_apply] at e'
    have e2 : (ei i).slt 8192#32 = true := (WordArith.ofBool_eq_one_iff _).1 e'
    rw [BitVec.slt] at e2
    have e3 : (8192#32 : BitVec 32).toInt = 8192 := by decide
    rw [e3] at e2
    exact of_decide_eq_true e2
  · have e := Host.reduce_andi_all _ _ _ _ _ hG i
    rw [cmpf_apply, broadcastInDim_scalar_apply] at e
    have e' : Ideal.cmp .ogt (Cert.ReferenceIdeal.Read.val_main_v23 (F := Ideal) ei w i) (Ideal.ofBits .f32 0x00000000#32) = 1#1 := e
    rw [Ideal.ofBits_zero_f32] at e'
    exact cmp_ogt_eq_one e'

end

end Cert.Gcn

end
-- ==== Proof.SpecCoe.lean ====
/-
  The two kernels' mathematical content (`hsOf`, `outOf`) on arrays of extended reals whose entries are all reals:
  the value at an index is the same expression computed on the reals, read as an extended real.  A product and a sum
  of reals read as extended reals are the product and the sum read as extended reals, and so is a finite sum.
-/
import proofs.«162846_j38070590112568_1_alg».proof.Proof.Spec
import proofs.«162846_j38070590112568_1_alg».proof.Proof.Algebra

noncomputable section

open scoped BigOperators

namespace Cert.Gcn

open Idealize.ShloMosaic Idealize.ShloMosaic.ValueIdx

/-- Rows of x·Wᵀ scaled by dv, on real entries. -/
theorem hsOf_coe (x : SX.Idx → EReal) (w : SW.Idx → EReal) (dv : SD.Idx → EReal) (xr : Fin 8192 → Fin 512 → ℝ) (wr : Fin 256 → Fin 512 → ℝ) (dvr : Fin 8192 → ℝ) (hx : ∀ i k, x (ix2 i k) = ((xr i k : ℝ) : EReal)) (hw : ∀ d k, w (ix2 d k) = ((wr d k : ℝ) : EReal)) (hdv : ∀ i, dv (ix2 i (0 : Fin 1)) = ((dvr i : ℝ) : EReal)) (i : Fin 8192) (d : Fin 256) : hsOf x w dv (ix2 i d) = (((∑ k : Fin 512, xr i k * wr d k) * dvr i : ℝ) : EReal) := by
  unfold hsOf
  show (∑ k : Fin 512, x (ix2 i k) * w (ix2 d k)) * dv (ix2 i (0 : Fin 1)) = _
  rw [hdv i, EReal.coe_mul, ← coe_sum]
  refine congrArg (· * ((dvr i : ℝ) : EReal)) (Finset.sum_congr rfl fun k _ => ?_)
  rw [hx i k, hw d k, EReal.coe_mul]

/-- One slab of B·hs, on real entries. -/
theorem blockSum_coe (B : SB.Idx → EReal) (hs : SO.Idx → EReal) (Br : Fin 8192 → Fin 8192 → ℝ) (hsr : Fin 8192 → Fin 256 → ℝ) (hB : ∀ j i, B (ix2 j i) = ((Br j i : ℝ) : EReal)) (hhs : ∀ i d, hs (ix2 i d) = ((hsr i d : ℝ) : EReal)) (kb : Fin 4) (r : Fin 8192) (d : Fin 256) :
    blockSum B hs kb (ix2 r d) = ((∑ kk : Fin 2048, Br r (slabIx kb kk) * hsr (slabIx kb kk) d : ℝ) : EReal) := by
  unfold blockSum
  show (∑ kk : Fin 2048, B (ix2 r (slabIx kb kk)) * hs (ix2 (slabIx kb kk) d)) = _
  rw [← coe_sum]
  refine Finset.sum_congr rfl fun kk _ => ?_
  rw [hB r (slabIx kb kk), hhs (slabIx kb kk) d, EReal.coe_mul]

/-- (B·hs slab by slab from the left, plus hs), rows scaled by dv, on real entries. -/
theorem outOf_coe (B : SB.Idx → EReal) (hs : SO.Idx → EReal) (dv : SD.Idx → EReal) (Br : Fin 8192 → Fin 8192 → ℝ) (hsr : Fin 8192 → Fin 256 → ℝ) (dvr : Fin 8192 → ℝ) (hB : ∀ j i, B (ix2 j i) = ((Br j i : ℝ) : EReal)) (hhs : ∀ i d, hs (ix2 i d) = ((hsr i d : ℝ) : EReal)) (hdv : ∀ i, dv (ix2 i (0 : Fin 1)) = ((dvr i : ℝ) : EReal)) (r : Fin 8192) (d : Fin 256) : outOf B hs dv (ix2 r d) = (((((((∑ kk : Fin 2048, Br r (slabIx 0 kk) * hsr (slabIx 0 kk) d) + ∑ kk : Fin 2048, Br r (slabIx 1 kk) * hsr (slabIx 1 kk) d) + ∑ kk : Fin 2048, Br r (slabIx 2 kk) * hsr (slabIx 2 kk) d) + ∑ kk : Fin 2048, Br r (slabIx 3 kk) * hsr (slabIx 3 kk) d) + hsr r d) * dvr r : ℝ) : EReal) := by
  unfold outOf
  show ((((blockSum B hs 0 (ix2 r d) + blockSum B hs 1 (ix2 r d)) + blockSum B hs 2 (ix2 r d)) + blockSum B hs 3 (ix2 r d)) + hs (ix2 r d))
    * dv (ix2 r (0 : Fin 1)) = _
  rw [blockSum_coe B hs Br hsr hB hhs 0 r d, blockSum_coe B hs Br hsr hB hhs 1 r d, blockSum_coe B hs Br hsr hB hhs 2 r d,
    blockSum_coe B hs Br hsr hB hhs 3 r d, hhs r d, hdv r, EReal.coe_mul, EReal.coe_add, EReal.coe_add, EReal.coe_add, EReal.coe_add]

end Cert.Gcn

end
-- ==== Proof.Final.lean ====
/-
  The graph-convolution layer's two computations agree on real data.

  With every input entry a real, dv the column of row scales, B[j,i] = A[i,j] the summed weights of the edges i → j and
  hs = (x·Wᵀ) with row i scaled by dv[i]:  ((B·hs taken slab by slab) + hs)[j,d] · dv[j]  equals
  dv[j] · Σᵢ (A[i,j] + δᵢⱼ) · (dv[i] · (x·Wᵀ)[i,d]).  Both sides are one real number read as an extended real (sums,
  products and the 0/1 of the diagonal pass through the reading), and on reals this is the layer's algebraic law.
-/
import proofs.«162846_j38070590112568_1_alg».proof.Proof.SpecCoe
import proofs.«162846_j38070590112568_1_alg».proof.Proof.Algebra

noncomputable section

open scoped BigOperators

namespace Cert.Gcn

open Idealize.ShloMosaic Idealize.ShloMosaic.ValueIdx

theorem final_abstract (x : SX.Idx → EReal) (W : SW.Idx → EReal) (dv : SD.Idx → EReal) (B A : SB.Idx → EReal) (dinv : Fin 8192 → EReal)
  (sI tI : Fin 262144 → Int) (wr : Fin 262144 → ℝ) (xr : Fin 8192 → Fin 512 → ℝ) (Wr : Fin 256 → Fin 512 → ℝ) (dvr : Fin 8192 → ℝ)
  (hx : ∀ i k, x (ix2 i k) = ((xr i k : ℝ) : EReal)) (hW : ∀ d k, W (ix2 d k) = ((Wr d k : ℝ) : EReal))
  (hdv : ∀ i, dv (ix2 i (0 : Fin 1)) = ((dvr i : ℝ) : EReal)) (hdinv : ∀ i, dinv i = ((dvr i : ℝ) : EReal))
  (hB : ∀ j i, B (ix2 j i) = ((BR sI tI wr j i : ℝ) : EReal)) (hA : ∀ i j, A (ix2 i j) = ((AR sI tI wr i j : ℝ) : EReal))
  (j : Fin 8192) (d : Fin 256) :
  outOf B (hsOf x W dv) dv (ix2 j d)
    = dinv j * ∑ i : Fin 8192, (A (ix2 i j) + (if i = j then (1 : EReal) else 0)) * (dinv i * ∑ k : Fin 512, x (ix2 i k) * W (ix2 d k)) := by
  -- a row of x·Wᵀ on real entries
  have hsum : ∀ i : Fin 8192, (∑ k : Fin 512, x (ix2 i k) * W (ix2 d k)) = ((∑ k : Fin 512, xr i k * Wr d k : ℝ) : EReal) := by
    intro i
    rw [← coe_sum]
    refine Finset.sum_congr rfl fun k _ => ?_
    rw [hx i k, hW d k, EReal.coe_mul]
  -- the diagonal's 0/1
  have hite : ∀ i : Fin 8192, (if i = j then (1 : EReal) else 0) = (((if i = j then (1 : ℝ) else 0) : ℝ) : EReal) := by
    intro i
    split_ifs <;> simp
  -- the right side is one real
  have hR : dinv j * ∑ i : Fin 8192, (A (ix2 i j) + (if i = j then (1 : EReal) else 0)) * (dinv i * ∑ k : Fin 512, x (ix2 i k) * W (ix2 d k))
      = ((dvr j * ∑ i : Fin 8192, (AR sI tI wr i j + (if i = j then 1 else 0)) * (dvr i * ∑ k : Fin 512, xr i k * Wr d k) : ℝ) : EReal) := by
    rw [EReal.coe_mul, ← coe_sum, hdinv j]
    refine congrArg (((dvr j : ℝ) : EReal) * ·) (Finset.sum_congr rfl fun i _ => ?_)
    rw [hA i j, hite i, hdinv i, hsum i, EReal.coe_mul, EReal.coe_add, EReal.coe_mul]
  -- the left side is one real, and the two reals are equal by the law
  rw [hR, outOf_coe B (hsOf x W dv) dv (BR sI tI wr) (fun i d' => (∑ k : Fin 512, xr i k * Wr d' k) * dvr i) dvr hB
    (fun i d' => hsOf_coe x W dv xr Wr dvr hx hW hdv i d') hdv j d]
  exact congrArg (fun r : ℝ => (r : EReal)) (law sI tI wr (fun i => ∑ k : Fin 512, xr i k * Wr d k) dvr j).symm

end Cert.Gcn

end
-- ==== Proof.Bridge.lean ====
/-
  THE BRIDGE: under the precondition the two programs compute one function of the arguments.

  The kernel program's result is the second kernel's formula (the dense matrix times the scaled rows, slab by slab, plus the
  scaled row, all scaled again) of what its host operations leave; the reference's is its own composed term. With every
  float argument a real, every node number in range and every degree positive, both are the reading, as an extended real,
  of one real number: the normalised graph convolution of the features at (j, d).
-/
import proofs.«162846_j38070590112568_1_alg».proof.Defs
import proofs.«162846_j38070590112568_1_alg».proof.Proof.Gen.KernelIdeal.Regions
import proofs.«162846_j38070590112568_1_alg».proof.Proof.Gen.Pre_finite_inputs
import proofs.«162846_j38070590112568_1_alg».proof.Proof.Values
import proofs.«162846_j38070590112568_1_alg».proof.Proof.PreDecode
import proofs.«162846_j38070590112568_1_alg».proof.Proof.Final

noncomputable section

open scoped BigOperators

open Idealize.ShloMosaic Idealize.ShloMosaic.TcCoe Idealize.SL.Sem Idealize.ShloMosaic.ValueIdx

namespace Cert.Gcn

/-- The law on pure arrays: features, edge list, weights and weight matrix satisfying the decoded precondition. -/
theorem bridge_pure (x : SX.Idx → EReal) (ei : IVec SE2 32) (w : SE.Idx → EReal) (W : SW.Idx → EReal)
    (hx : ∀ i, x i ≠ ⊤ ∧ x i ≠ ⊥) (hw : ∀ i, w i ≠ ⊤ ∧ w i ≠ ⊥) (hW : ∀ i, W i ≠ ⊤ ∧ W i ≠ ⊥)
    (hei : ∀ i, 0 ≤ (ei i).toInt ∧ (ei i).toInt < 8192)
    (hdeg : ∀ i, (0 : EReal) < Cert.ReferenceIdeal.Read.val_main_v23 (F := Ideal) ei w i)
    (j : Fin 8192) (d : Fin 256) :
    outOf (BK ei w) (hsOf x W (dvK ei w)) (dvK ei w) (ix2 j d)
      = Cert.ReferenceIdeal.Read.val_main_v41 (F := Ideal) x ei w W (ix2 j d) := by
  have hpos : ∀ i : Fin 8192, 0 < degR ei w i := fun i => by
    have h := hdeg (ix1 i)
    rw [v23_coe ei w hw hei i] at h
    exact EReal.coe_pos.1 h
  have hdv : ∀ i : Fin 8192, dvK ei w (ix2 i (0 : Fin 1)) = ((dvR ei w i : ℝ) : EReal) := fun i => by
    rw [dvK_apply, degK_coe ei w hw hei i, div_one_sqrt_coe (hpos i)]; rfl
  have hdinv : ∀ i : Fin 8192, Ideal.div 1 (Ideal.sqrt (Cert.ReferenceIdeal.Read.val_main_v23 (F := Ideal) ei w (ix1 i)))
      = ((dvR ei w i : ℝ) : EReal) := fun i => by
    rw [v23_coe ei w hw hei i, div_one_sqrt_coe (hpos i)]; rfl
  rw [ref_at]
  exact final_abstract x W (dvK ei w) (BK ei w) (Cert.ReferenceIdeal.Read.val_main_v20 (F := Ideal) ei w)
    (fun i => Ideal.div 1 (Ideal.sqrt (Cert.ReferenceIdeal.Read.val_main_v23 (F := Ideal) ei w (ix1 i))))
    (sI ei) (tI ei) (wR w) (fun i k => (x (ix2 i k)).toReal) (fun d k => (W (ix2 d k)).toReal) (dvR ei w)
    (fun i k => (EReal.coe_toReal (hx _).1 (hx _).2).symm) (fun d k => (EReal.coe_toReal (hW _).1 (hW _).2).symm)
    hdv hdinv (BK_coe ei w hw hei) (A_coe ei w hw hei) j d

open Cert.KernelIdeal in
/-- THE BRIDGE, at an index. -/
theorem bridge (m : (ℓ : Loc Cert.KernelIdeal.nD Cert.KernelIdeal.τ Cert.KernelIdeal.sig) → Buf (Elt Ideal) ℓ)
    (hpre : Cert.Pre_KernelIdeal m) (c : Dev Cert.KernelIdeal.nD) (j : Fin 8192) (d : Fin 256) :
    outOf (Gen.V1 m c (Proc.devRef .tc main_v27)) (hsOf (Gen.V1 m c (Proc.devRef .tc main_v28)) (Gen.V1 m c (Proc.devRef .tc main_v29)) (Gen.V1 m c (Proc.devRef .tc main_v12))) (Gen.V1 m c (Proc.devRef .tc main_v12)) (ix2 j d)
      = Cert.ReferenceIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (ix2 j d) := by
  obtain ⟨hx, hw, hW, hei, hdeg⟩ := pre_decode _ _ _ _ (hpre c)
  have e12 : (Gen.V1 m c (Proc.devRef .tc main_v12) : SD.Idx → EReal)
      = dvK (m ((c.tc : Thread nD τ).loc main_arg1)) (m ((c.tc : Thread nD τ).loc main_arg2)) := after_v12 (Gen.V0 m c)
  have e27 : (Gen.V1 m c (Proc.devRef .tc main_v27) : SB.Idx → EReal)
      = BK (m ((c.tc : Thread nD τ).loc main_arg1)) (m ((c.tc : Thread nD τ).loc main_arg2)) := after_v27 (Gen.V0 m c)
  have e28 : (Gen.V1 m c (Proc.devRef .tc main_v28) : SX.Idx → EReal) = m ((c.tc : Thread nD τ).loc main_arg0) := after_v28 (Gen.V0 m c)
  have e29 : (Gen.V1 m c (Proc.devRef .tc main_v29) : SW.Idx → EReal) = m ((c.tc : Thread nD τ).loc main_arg3) := after_v29 (Gen.V0 m c)
  rw [e12, e27, e28, e29]
  exact bridge_pure _ _ _ _ hx hw hW hei hdeg j d

open Cert.KernelIdeal in
/-- THE BRIDGE, as functions. -/
theorem bridge_fun (m : (ℓ : Loc Cert.KernelIdeal.nD Cert.KernelIdeal.τ Cert.KernelIdeal.sig) → Buf (Elt Ideal) ℓ) (hpre : Cert.Pre_KernelIdeal m) (c : Dev Cert.KernelIdeal.nD) :
  outOf (Gen.V1 m c (Proc.devRef .tc main_v27)) (hsOf (Gen.V1 m c (Proc.devRef .tc main_v28)) (Gen.V1 m c (Proc.devRef .tc main_v29)) (Gen.V1 m c (Proc.devRef .tc main_v12))) (Gen.V1 m c (Proc.devRef .tc main_v12))
    = Cert.ReferenceIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) := by
  funext i
  rw [eq_ix2 i]
  exact bridge m hpre c (i 0) (i 1)

end Cert.Gcn

end
-- ==== Proof.Claims.lean ====
/-
  The five conjuncts of the claim.

  Frames: the two kernel programs run to the end leaving their arguments as launched (the run over the host stretch
  and the two matrix products, at either float instance); the reference is a straight line of host operations.
  Nothing was rewritten by the idealization, so that conjunct is trivial.  Equal results: the kernel's result array
  ends at (B·hs over four slabs + hs)·dinv of what its host operations leave, the reference's at its own composed term
  of the arguments, and under the precondition — finite floats, edge indices in range, positive degrees — the two are
  one function of the arguments.
-/
import proofs.«162846_j38070590112568_1_alg».proof.Defs
import proofs.«162846_j38070590112568_1_alg».proof.Proof.K.Run
import proofs.«162846_j38070590112568_1_alg».proof.Proof.KI.Result
import proofs.«162846_j38070590112568_1_alg».proof.Proof.Gen.ReferenceIdeal.Read
import proofs.«162846_j38070590112568_1_alg».proof.Proof.Gen.Pre_finite_inputs
import proofs.«162846_j38070590112568_1_alg».proof.Proof.Bridge

noncomputable section

open Idealize.ShloMosaic Idealize.ShloMosaic.TcCoe Idealize.SL.Sem

namespace Cert.Proof.GcnClaims

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

/-- The contents after the host operations, in the two spellings used: one fold of the operations over the launch memory. -/
theorem V1_gen (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (b : Ref Cert.KernelIdeal.sig .tc) :
    Cert.KernelIdeal.Hand.V1 m ρ c b = Cert.KernelIdeal.Gen.V1 m c (Proc.devRef .tc b) := rfl

theorem algebraic : Cert.algebraic_KernelIdeal_ReferenceIdeal := by
  intro m ρ m' ρ' hpre hagree
  refine ⟨fun c => Cert.Gcn.outOf (Cert.KernelIdeal.Hand.V1 m ρ c Cert.KernelIdeal.main_v27)
      (Cert.Gcn.hsOf (Cert.KernelIdeal.Hand.V1 m ρ c Cert.KernelIdeal.main_v28) (Cert.KernelIdeal.Hand.V1 m ρ c Cert.KernelIdeal.main_v29)
        (Cert.KernelIdeal.Hand.V1 m ρ c Cert.KernelIdeal.main_v12))
      (Cert.KernelIdeal.Hand.V1 m ρ c Cert.KernelIdeal.main_v12), ?_, ?_⟩
  · exact (θ_run Cert.KernelIdeal.defs _ _).mono
      (fun _ h c => ⟨(h c).1.trans (Cert.KernelIdeal.HandValue.result_eq m ρ c), (h c).2⟩) (Cert.KernelIdeal.Hand.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v41_eq, (hagree c).1, (hagree c).2.1, (hagree c).2.2.1, (hagree c).2.2.2]
    beta_reduce
    rw [V1_gen, V1_gen, V1_gen, V1_gen]
    exact (Cert.Gcn.bridge_fun m hpre c).symm

end Cert.Proof.GcnClaims

end
-- ==== Proof.lean ====
/-
  Kernel against reference for one graph-convolution layer, over the extended reals.

  Both programs compute  out = D^(-1/2) (A + I)ᵀ D^(-1/2) (x Wᵀ)  for the weighted adjacency A scattered from the edge
  list and D = diag(row sums of A, plus one).  The reference does it with whole-array host operations.  The kernel
  takes the degrees from a one-dimensional scatter over the source indices, forms hs = (x Wᵀ) scaled by D^(-1/2) in
  one pipelined matrix product, and out = (Aᵀ hs, accumulated over four column slabs, + hs) scaled by D^(-1/2) in a
  second one whose two windows on hs share that array.

  The statement holds under: every float input finite; every edge index in [0, 8192); every degree positive (the
  reference takes 1/sqrt of it).  Under these the one-dimensional and the row-summed two-dimensional scatters give the
  same degrees (a sum regrouped along the destination index), all quantities are finite reals, and
  (A[j,j] + 1)·g = A[j,j]·g + g is the one distributive step; the four slabs are a regrouping of one sum.

  Modules: KI/* (and K/*, the same text read at the word-level instance) — the run of the host stretch and the two
  pipelines, with what every buffer holds at the end; KI/Region0Value, KI/AccValue*, KI/Result — the two products'
  results at the extended reals; Spec, HostVals, HostAt, PreDecode, Algebra, RefAt, SpecCoe, Bridge — the host side
  and the algebra; Claims — the five conjuncts.
-/
import proofs.«162846_j38070590112568_1_alg».proof.Defs
import proofs.«162846_j38070590112568_1_alg».proof.Proof.Gen.Kernel
import proofs.«162846_j38070590112568_1_alg».proof.Proof.Gen.KernelIdeal
import proofs.«162846_j38070590112568_1_alg».proof.Proof.Gen.ReferenceIdeal
import proofs.«162846_j38070590112568_1_alg».proof.Proof.Gen.Pre_finite_inputs
import proofs.«162846_j38070590112568_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    GcnClaims.frame_k, GcnClaims.frame_ki, GcnClaims.frame_ri, GcnClaims.preserves, GcnClaims.algebraic⟩

end Cert.Proof

end
